-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S20000x128 : Shape := ⟨2, ![20000, 128]⟩
abbrev S800000 : Shape := ⟨1, ![800000]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S256x512 : Shape := ⟨2, ![256, 512]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S256x512 : S_.BroadcastsInDim S256x512 (![] : Fin 0 → Fin S256x512.rank)
  reducesTo_S256x512_S_d0_1 : S256x512.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S1 .f32) (main_v98 : IVec S_ 1) (main_v101 : IVec S1x256 1) (main_c_39 : IVec S_ 1) : IVec S_ 1 :=
  let main_v102 : IVec S_ 1 := (fun x v => Host.reduce IntOp.andi x v reducesTo_S1x256_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg22 : FVec F S256x512 .f32) (main_arg23 : FVec F S256 .f32) (main_arg24 : FVec F S1x256 .f32) (main_arg25 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x512 .f32 := Host.absf main_arg22
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S256 .f32 := Host.absf main_arg23
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S1x256 .f32 := Host.absf main_arg24
  let main_cst_38 : FVec F S_ .f32 := constant S_ .f32 0x7F800000#32
  let main_v100 : FVec F S1x256 .f32 := broadcastInDim S1x256 ![] bcast_S_S1x256 main_cst_38
  let main_v101 : IVec S1x256 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S256x256 .f32) (main_arg19 : FVec F S256 .f32) (main_arg20 : FVec F S256x256 .f32) (main_arg21 : FVec F S256 .f32) (main_arg22 : FVec F S256x512 .f32) (main_arg23 : FVec F S256 .f32) (main_arg24 : FVec F S1x256 .f32) (main_arg25 : FVec F S1 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg20
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256 .f32) (main_arg22 : FVec F S256x512 .f32) (main_arg23 : FVec F S256 .f32) (main_arg24 : FVec F S1x256 .f32) (main_arg25 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256 .f32) (main_arg22 : FVec F S256x512 .f32) (main_arg23 : FVec F S256 .f32) (main_arg24 : FVec F S1x256 .f32) (main_arg25 : FVec F S1 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S256x128 .f32) (main_arg9 : FVec F S256x128 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256 .f32) (main_arg22 : FVec F S256x512 .f32) (main_arg23 : FVec F S256 .f32) (main_arg24 : FVec F S1x256 .f32) (main_arg25 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x256 .f32) (main_arg1 : FVec F S20000x128 .f32) (main_arg2 : IVec S800000 32) (main_arg3 : IVec S800000 32) (main_arg4 : IVec S200000 32) (main_arg5 : IVec S200000 32) (main_arg6 : FVec F S256x256 .f32) (main_arg7 : FVec F S256 .f32) (main_arg8 : FVec F S256x128 .f32) (main_arg9 : FVec F S256x128 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256 .f32) (main_arg22 : FVec F S256x512 .f32) (main_arg23 : FVec F S256 .f32) (main_arg24 : FVec F S1x256 .f32) (main_arg25 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x256 : Shape := ⟨2, ![100000, 256]⟩
abbrev S20000x128 : Shape := ⟨2, ![20000, 128]⟩
abbrev S800000 : Shape := ⟨1, ![800000]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S256x512 : Shape := ⟨2, ![256, 512]⟩
abbrev S1x256 : Shape := ⟨2, ![1, 256]⟩
abbrev S1 : Shape := ⟨1, ![1]⟩
abbrev S_ : Shape := ⟨0, ![]⟩
abbrev S800000x1 : Shape := ⟨2, ![800000, 1]⟩
abbrev S800000x256 : Shape := ⟨2, ![800000, 256]⟩
abbrev S20000x256 : Shape := ⟨2, ![20000, 256]⟩
abbrev S20000 : Shape := ⟨1, ![20000]⟩
abbrev S20000x1 : Shape := ⟨2, ![20000, 1]⟩
abbrev S128x256 : Shape := ⟨2, ![128, 256]⟩
abbrev S4000x256 : Shape := ⟨2, ![4000, 256]⟩
abbrev S4000x128 : Shape := ⟨2, ![4000, 128]⟩
abbrev S800000x128 : Shape := ⟨2, ![800000, 128]⟩
abbrev S100000x128 : Shape := ⟨2, ![100000, 128]⟩
abbrev S100000 : Shape := ⟨1, ![100000]⟩
abbrev S100000x1 : Shape := ⟨2, ![100000, 1]⟩
abbrev S200000x1 : Shape := ⟨2, ![200000, 1]⟩
abbrev S200000x256 : Shape := ⟨2, ![200000, 256]⟩
abbrev S200000x512 : Shape := ⟨2, ![200000, 512]⟩
abbrev S512x256 : Shape := ⟨2, ![512, 256]⟩
abbrev S128 : Shape := ⟨1, ![128]⟩
abbrev S1x128 : Shape := ⟨2, ![1, 128]⟩
abbrev S200000x128 : Shape := ⟨2, ![200000, 128]⟩
abbrev S4000x512 : Shape := ⟨2, ![4000, 512]⟩

abbrev nBuf : Space → Nat
  | .hbm => 189
  | .vmem => 56
  | .smem => 0
  | _ => 0

abbrev hbmTy0_0 (i : Nat) : BufTy := match i % 128 with
  | 0 => ⟨S100000x256, .f32⟩
  | 1 => ⟨S20000x128, .f32⟩
  | 2 => ⟨S800000, .i32⟩
  | 3 => ⟨S800000, .i32⟩
  | 4 => ⟨S200000, .i32⟩
  | 5 => ⟨S200000, .i32⟩
  | 6 => ⟨S256x256, .f32⟩
  | 7 => ⟨S256, .f32⟩
  | 8 => ⟨S256x128, .f32⟩
  | 9 => ⟨S256x128, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x256, .f32⟩
  | 21 => ⟨S256, .f32⟩
  | 22 => ⟨S256x512, .f32⟩
  | 23 => ⟨S256, .f32⟩
  | 24 => ⟨S1x256, .f32⟩
  | 25 => ⟨S1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S20000x256, .f32⟩
  | 37 => ⟨S800000x1, .i32⟩
  | 38 => ⟨S20000x256, .f32⟩
  | 39 => ⟨S_, .f32⟩
  | 40 => ⟨S800000, .f32⟩
  | 41 => ⟨S_, .f32⟩
  | 42 => ⟨S20000, .f32⟩
  | 43 => ⟨S800000x1, .i32⟩
  | 44 => ⟨S20000, .f32⟩
  | 45 => ⟨S_, .f32⟩
  | 46 => ⟨S20000, .f32⟩
  | 47 => ⟨S20000, .f32⟩
  | 48 => ⟨S20000x1, .f32⟩
  | 49 => ⟨S20000x256, .f32⟩
  | 50 => ⟨S20000x256, .f32⟩
  | 51 => ⟨S256x256, .f32⟩
  | 52 => ⟨S128x256, .f32⟩
  | 53 => ⟨S1x256, .f32⟩
  | 54 => ⟨S20000x256, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S100000x128, .f32⟩
  | 66 => ⟨S800000x1, .i32⟩
  | 67 => ⟨S100000x128, .f32⟩
  | 68 => ⟨S_, .f32⟩
  | 69 => ⟨S800000, .f32⟩
  | 70 => ⟨S_, .f32⟩
  | 71 => ⟨S100000, .f32⟩
  | 72 => ⟨S800000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S128x256, .f32⟩
  | 81 => ⟨S256x256, .f32⟩
  | 82 => ⟨S1x256, .f32⟩
  | 83 => ⟨S100000x256, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .f32⟩
  | 93 => ⟨S_, .f32⟩
  | 94 => ⟨S20000x256, .f32⟩
  | 95 => ⟨S800000x1, .i32⟩
  | 96 => ⟨S20000x256, .f32⟩
  | 97 => ⟨S_, .f32⟩
  | 98 => ⟨S800000, .f32⟩
  | 99 => ⟨S_, .f32⟩
  | 100 => ⟨S20000, .f32⟩
  | 101 => ⟨S800000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x256, .f32⟩
  | 108 => ⟨S20000x256, .f32⟩
  | 109 => ⟨S256x256, .f32⟩
  | 110 => ⟨S256x256, .f32⟩
  | 111 => ⟨S1x256, .f32⟩
  | 112 => ⟨S20000x256, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x256, .f32⟩
  | 122 => ⟨S_, .f32⟩
  | 123 => ⟨S100000x256, .f32⟩
  | 124 => ⟨S800000x1, .i32⟩
  | 125 => ⟨S100000x256, .f32⟩
  | 126 => ⟨S_, .f32⟩
  | 127 => ⟨S800000, .f32⟩
  | _ => ⟨S100000x256, .f32⟩

abbrev hbmTy0_1 (i : Nat) : BufTy := match i % 128 with
  | 0 => ⟨S_, .f32⟩
  | 1 => ⟨S100000, .f32⟩
  | 2 => ⟨S800000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x256, .f32⟩
  | 9 => ⟨S100000x256, .f32⟩
  | 10 => ⟨S256x256, .f32⟩
  | 11 => ⟨S256x256, .f32⟩
  | 12 => ⟨S1x256, .f32⟩
  | 13 => ⟨S100000x256, .f32⟩
  | 14 => ⟨S256x256, .f32⟩
  | 15 => ⟨S1x256, .f32⟩
  | 16 => ⟨S100000x256, .f32⟩
  | 17 => ⟨S256x256, .f32⟩
  | 18 => ⟨S1x256, .f32⟩
  | 19 => ⟨S20000x256, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x256, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x256, .f32⟩
  | 38 => ⟨S200000x512, .f32⟩
  | 39 => ⟨S200000x512, .bf16⟩
  | 40 => ⟨S512x256, .f32⟩
  | 41 => ⟨S512x256, .bf16⟩
  | 42 => ⟨S_, .f32⟩
  | 43 => ⟨S128x256, .f32⟩
  | 44 => ⟨S256, .f32⟩
  | 45 => ⟨S_, .i32⟩
  | 46 => ⟨S1, .i32⟩
  | 47 => ⟨S128x256, .f32⟩
  | 48 => ⟨S256x128, .f32⟩
  | 49 => ⟨S256x128, .bf16⟩
  | 50 => ⟨S_, .f32⟩
  | 51 => ⟨S128, .f32⟩
  | 52 => ⟨S_, .f32⟩
  | 53 => ⟨S_, .i32⟩
  | 54 => ⟨S1, .i32⟩
  | 55 => ⟨S128, .f32⟩
  | 56 => ⟨S1x256, .f32⟩
  | 57 => ⟨S1x128, .f32⟩
  | 58 => ⟨S200000x128, .f32⟩
  | 59 => ⟨S200000x1, .f32⟩
  | 60 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x128, .f32⟩
  | .local _ .vmem, ⟨3, _⟩ => ⟨S4000x128, .f32⟩
  | .local _ .vmem, ⟨4, _⟩ => ⟨S256x256, .f32⟩
  | .local _ .vmem, ⟨5, _⟩ => ⟨S128x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S4000x128, .f32⟩
  | .local _ .vmem, ⟨10, _⟩ => ⟨S4000x128, .f32⟩
  | .local _ .vmem, ⟨11, _⟩ => ⟨S4000x256, .f32⟩
  | .local _ .vmem, ⟨12, _⟩ => ⟨S4000x256, .f32⟩
  | .local _ .vmem, ⟨13, _⟩ => ⟨S128x256, .f32⟩
  | .local _ .vmem, ⟨14, _⟩ => ⟨S256x256, .f32⟩
  | .local _ .vmem, ⟨15, _⟩ => ⟨S1x256, .f32⟩
  | .local _ .vmem, ⟨16, _⟩ => ⟨S4000x256, .f32⟩
  | .local _ .vmem, ⟨17, _⟩ => ⟨S4000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S4000x256, .f32⟩
  | .local _ .vmem, ⟨26, _⟩ => ⟨S4000x256, .f32⟩
  | .local _ .vmem, ⟨27, _⟩ => ⟨S4000x256, .f32⟩
  | .local _ .vmem, ⟨28, _⟩ => ⟨S4000x256, .f32⟩
  | .local _ .vmem, ⟨29, _⟩ => ⟨S4000x256, .f32⟩
  | .local _ .vmem, ⟨30, _⟩ => ⟨S4000x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S4000x256, .f32⟩
  | .local _ .vmem, ⟨35, _⟩ => ⟨S4000x256, .f32⟩
  | .local _ .vmem, ⟨36, _⟩ => ⟨S4000x256, .f32⟩
  | .local _ .vmem, ⟨37, _⟩ => ⟨S4000x256, .f32⟩
  | .local _ .vmem, ⟨38, _⟩ => ⟨S256x256, .f32⟩
  | .local _ .vmem, ⟨39, _⟩ => ⟨S1x256, .f32⟩
  | .local _ .vmem, ⟨40, _⟩ => ⟨S4000x256, .f32⟩
  | .local _ .vmem, ⟨41, _⟩ => ⟨S4000x256, .f32⟩
  | .local _ .vmem, ⟨42, _⟩ => ⟨S4000x256, .f32⟩
  | .local _ .vmem, ⟨43, _⟩ => ⟨S4000x256, .f32⟩
  | .local _ .vmem, ⟨44, _⟩ => ⟨S256x256, .f32⟩
  | .local _ .vmem, ⟨45, _⟩ => ⟨S1x256, .f32⟩
  | .local _ .vmem, ⟨46, _⟩ => ⟨S4000x256, .f32⟩
  | .local _ .vmem, ⟨47, _⟩ => ⟨S4000x256, .f32⟩
  | .local _ .vmem, ⟨48, _⟩ => ⟨S4000x512, .bf16⟩
  | .local _ .vmem, ⟨49, _⟩ => ⟨S4000x512, .bf16⟩
  | .local _ .vmem, ⟨50, _⟩ => ⟨S512x256, .bf16⟩
  | .local _ .vmem, ⟨51, _⟩ => ⟨S1x256, .f32⟩
  | .local _ .vmem, ⟨52, _⟩ => ⟨S256x128, .bf16⟩
  | .local _ .vmem, ⟨53, _⟩ => ⟨S1x128, .f32⟩
  | .local _ .vmem, ⟨54, _⟩ => ⟨S4000x128, .f32⟩
  | .local _ .vmem, ⟨55, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_c_5 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_7 : Ref sig .tc := ⟨.hbm, 68, rfl⟩
abbrev main_v33 : Ref sig .tc := ⟨.hbm, 69, rfl⟩
abbrev main_cst_8 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_10 : Ref sig .tc := ⟨.hbm, 84, rfl⟩
abbrev main_v46 : Ref sig .tc := ⟨.hbm, 85, rfl⟩
abbrev main_v47 : Ref sig .tc := ⟨.hbm, 86, rfl⟩
abbrev main_c_11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_13 : Ref sig .tc := ⟨.hbm, 97, rfl⟩
abbrev main_v56 : Ref sig .tc := ⟨.hbm, 98, rfl⟩
abbrev main_cst_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_15 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_16 : Ref sig .tc := ⟨.hbm, 113, rfl⟩
abbrev main_v69 : Ref sig .tc := ⟨.hbm, 114, rfl⟩
abbrev main_v70 : Ref sig .tc := ⟨.hbm, 115, rfl⟩
abbrev main_c_17 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_18 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_19 : Ref sig .tc := ⟨.hbm, 126, rfl⟩
abbrev main_v79 : Ref sig .tc := ⟨.hbm, 127, rfl⟩
abbrev main_cst_20 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_22 : Ref sig .tc := ⟨.hbm, 148, rfl⟩
abbrev main_v98 : Ref sig .tc := ⟨.hbm, 149, rfl⟩
abbrev main_v99 : Ref sig .tc := ⟨.hbm, 150, rfl⟩
abbrev main_c_23 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_24 : Ref sig .tc := ⟨.hbm, 157, rfl⟩
abbrev main_v105 : Ref sig .tc := ⟨.hbm, 158, rfl⟩
abbrev main_v106 : Ref sig .tc := ⟨.hbm, 159, rfl⟩
abbrev main_c_25 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_26 : Ref sig .tc := ⟨.hbm, 170, rfl⟩
abbrev main_v116 : Ref sig .tc := ⟨.hbm, 171, rfl⟩
abbrev main_v117 : Ref sig .tc := ⟨.hbm, 172, rfl⟩
abbrev main_c_27 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_28 : Ref sig .tc := ⟨.hbm, 178, rfl⟩
abbrev main_v122 : Ref sig .tc := ⟨.hbm, 179, rfl⟩
abbrev main_v123 : Ref sig .tc := ⟨.hbm, 180, rfl⟩
abbrev main_c_29 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S256x256_S256x256_1_0 : S256x256.Transposes [1, 0] S256x256
  transposes_S256x128_S128x256_1_0 : S256x128.Transposes [1, 0] S128x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S4000x128_S4000x128 : S4000x128.ShapeCasts S4000x128
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x512_d1 : Shape.Concatenates [S200000x256, S200000x256] S200000x512 1
  transposes_S256x512_S512x256_1_0 : S256x512.Transposes [1, 0] S512x256
  bcast_S_S128x256 : S_.BroadcastsInDim S128x256 (![] : Fin 0 → Fin S128x256.rank)
  shapeCasts_S1x256_S256 : S1x256.ShapeCasts S256
  bcast_S_S1 : S_.BroadcastsInDim S1 (![] : Fin 0 → Fin S1.rank)
  transposes_S128x256_S256x128_1_0 : S128x256.Transposes [1, 0] S256x128
  bcast_S_S128 : S_.BroadcastsInDim S128 (![] : Fin 0 → Fin S128.rank)
  shapeCasts_S1_S_ : S1.ShapeCasts S_
  shapeCasts_S128_S1x128 : S128.ShapeCasts S1x128
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S200000x128_S200000x1_0_0 : S200000x128.Slices ![0, 0] S200000x1
  shapeCasts_S200000x1_S200000 : S200000x1.ShapeCasts S200000
  gather_S100000x256_S800000x1_S800000x256_1_0_n_n_0_1_1256_wf : GatherDims.WF S100000x256 S800000x1 S800000x256 [1] [0] [] [0] [] 1 ![1, 256]
  scatter_S20000x256_S800000x1_S800000x256_1_0_0_1_wf : ScatterDims.WF S20000x256 S800000x1 S800000x256 [1] [0] [0] 1
  scatter_S20000_S800000x1_S800000_n_0_0_1_wf : ScatterDims.WF S20000 S800000x1 S800000 [] [0] [0] 1
  dot_S4000x256_S256x256_S4000x256_1_0_0_1_n_n_wf : DotDims.WF S4000x256 S256x256 S4000x256 [1] [0] [0] [1] [] []
  dot_S4000x128_S128x256_S4000x256_1_0_0_1_n_n_wf : DotDims.WF S4000x128 S128x256 S4000x256 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  gather_S100000x256_S200000x1_S200000x256_1_0_n_n_0_1_1256_wf : GatherDims.WF S100000x256 S200000x1 S200000x256 [1] [0] [] [0] [] 1 ![1, 256]
  gather_S20000x256_S200000x1_S200000x256_1_0_n_n_0_1_1256_wf : GatherDims.WF S20000x256 S200000x1 S200000x256 [1] [0] [] [0] [] 1 ![1, 256]
  scatter_S128x256_S1_S256_0_0_0_0_wf : ScatterDims.WF S128x256 S1 S256 [0] [0] [0] 0
  scatter_S128_S1_S__n_0_0_0_wf : ScatterDims.WF S128 S1 S_ [] [0] [0] 0
  dot_S4000x512_S512x256_S4000x256_1_0_0_1_n_n_wf : DotDims.WF S4000x512 S512x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S20000x256.size a
  hwx0_0 : ∀ i : grid0.Coords, EltTy.bits .f32 = 32 ∨ (Rect.block (s := S20000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S20000x128.size a
  hwx0_1 : ∀ i : grid0.Coords, EltTy.bits .f32 = 32 ∨ (Rect.block (s := S20000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S20000x256.size a
  hwx0_5 : ∀ i : grid0.Coords, EltTy.bits .f32 = 32 ∨ (Rect.block (s := S20000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S100000x256.size a
  hwx1_5 : ∀ i : grid1.Coords, EltTy.bits .f32 = 32 ∨ (Rect.block (s := S100000x256) S4000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S20000x256.size a
  hwx2_0 : ∀ i : grid2.Coords, EltTy.bits .f32 = 32 ∨ (Rect.block (s := S20000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S20000x256.size a
  hwx2_1 : ∀ i : grid2.Coords, EltTy.bits .f32 = 32 ∨ (Rect.block (s := S20000x256) S4000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x256.size a ≤ S20000x256.size a
  hwx2_5 : ∀ i : grid2.Coords, EltTy.bits .f32 = 32 ∨ (Rect.block (s := S20000x256) S4000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x256.size a ≤ S100000x256.size a
  hwx3_1 : ∀ i : grid3.Coords, EltTy.bits .f32 = 32 ∨ (Rect.block (s := S100000x256) S4000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x256.size a ≤ S100000x256.size a
  hwx3_5 : ∀ i : grid3.Coords, EltTy.bits .f32 = 32 ∨ (Rect.block (s := S100000x256) S4000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S100000x256.size a
  hwx4_0 : ∀ i : grid4.Coords, EltTy.bits .f32 = 32 ∨ (Rect.block (s := S100000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x256.size a ≤ S100000x256.size a
  hwx4_3 : ∀ i : grid4.Coords, EltTy.bits .f32 = 32 ∨ (Rect.block (s := S100000x256) S4000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S20000x256.size a
  hwx5_0 : ∀ i : grid5.Coords, EltTy.bits .f32 = 32 ∨ (Rect.block (s := S20000x256) S4000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x256.size a ≤ S20000x256.size a
  hwx5_3 : ∀ i : grid5.Coords, EltTy.bits .f32 = 32 ∨ (Rect.block (s := S20000x256) S4000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x512.size a ≤ S200000x512.size a
  hwx6_0 : ∀ i : grid6.Coords, EltTy.bits .bf16 = 32 ∨ (Rect.block (s := S200000x512) S4000x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .bf16 = 32 ∨ (Rect.block (s := S512x256) S512x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .bf16 = 32 ∨ (Rect.block (s := S256x128) S256x128.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S200000x128.size a
  hwx6_5 : ∀ i : grid6.Coords, EltTy.bits .f32 = 32 ∨ (Rect.block (s := S200000x128) S4000x128.size (cc6_transform_5 i) (hinb6_5 i)).WholeWords (EltTy.packing .f32)

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def scatter_S128x256_S1_S256_0_0_0_0 : ScatterDims S128x256 S1 S256 where
  updateWindowDims := [0]
  insertedWindowDims := [0]
  scatterDimsToOperandDims := [0]
  indexVectorDim := 0
  wf := scatter_S128x256_S1_S256_0_0_0_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v18) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S4000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v87) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S4000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v91) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S4000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v96) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S4000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v113) S4000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v121) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v128) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x256 : Shape := ⟨2, ![100000, 256]⟩
abbrev S20000x128 : Shape := ⟨2, ![20000, 128]⟩
abbrev S800000 : Shape := ⟨1, ![800000]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S256x512 : Shape := ⟨2, ![256, 512]⟩
abbrev S1x256 : Shape := ⟨2, ![1, 256]⟩
abbrev S1 : Shape := ⟨1, ![1]⟩
abbrev S_ : Shape := ⟨0, ![]⟩
abbrev S800000x1 : Shape := ⟨2, ![800000, 1]⟩
abbrev S800000x256 : Shape := ⟨2, ![800000, 256]⟩
abbrev S20000x256 : Shape := ⟨2, ![20000, 256]⟩
abbrev S20000 : Shape := ⟨1, ![20000]⟩
abbrev S20000x1 : Shape := ⟨2, ![20000, 1]⟩
abbrev S128x256 : Shape := ⟨2, ![128, 256]⟩
abbrev S800000x128 : Shape := ⟨2, ![800000, 128]⟩
abbrev S100000x128 : Shape := ⟨2, ![100000, 128]⟩
abbrev S100000 : Shape := ⟨1, ![100000]⟩
abbrev S100000x1 : Shape := ⟨2, ![100000, 1]⟩
abbrev S200000x1 : Shape := ⟨2, ![200000, 1]⟩
abbrev S200000x256 : Shape := ⟨2, ![200000, 256]⟩
abbrev S200000x512 : Shape := ⟨2, ![200000, 512]⟩
abbrev S512x256 : Shape := ⟨2, ![512, 256]⟩
abbrev S256x1 : Shape := ⟨2, ![256, 1]⟩
abbrev S1x1 : Shape := ⟨2, ![1, 1]⟩

abbrev nBuf : Space → Nat
  | .hbm => 213
  | .vmem => 0
  | .smem => 0
  | _ => 0

abbrev hbmTy0_0 (i : Nat) : BufTy := match i % 128 with
  | 0 => ⟨S100000x256, .f32⟩
  | 1 => ⟨S20000x128, .f32⟩
  | 2 => ⟨S800000, .i32⟩
  | 3 => ⟨S800000, .i32⟩
  | 4 => ⟨S200000, .i32⟩
  | 5 => ⟨S200000, .i32⟩
  | 6 => ⟨S256x256, .f32⟩
  | 7 => ⟨S256, .f32⟩
  | 8 => ⟨S256x128, .f32⟩
  | 9 => ⟨S256x128, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x256, .f32⟩
  | 21 => ⟨S256, .f32⟩
  | 22 => ⟨S256x512, .f32⟩
  | 23 => ⟨S256, .f32⟩
  | 24 => ⟨S1x256, .f32⟩
  | 25 => ⟨S1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S20000x256, .f32⟩
  | 37 => ⟨S800000x1, .i32⟩
  | 38 => ⟨S20000x256, .f32⟩
  | 39 => ⟨S_, .f32⟩
  | 40 => ⟨S800000, .f32⟩
  | 41 => ⟨S_, .f32⟩
  | 42 => ⟨S20000, .f32⟩
  | 43 => ⟨S800000x1, .i32⟩
  | 44 => ⟨S20000, .f32⟩
  | 45 => ⟨S_, .f32⟩
  | 46 => ⟨S20000, .f32⟩
  | 47 => ⟨S20000, .f32⟩
  | 48 => ⟨S20000x1, .f32⟩
  | 49 => ⟨S20000x256, .f32⟩
  | 50 => ⟨S20000x256, .f32⟩
  | 51 => ⟨S256x256, .f32⟩
  | 52 => ⟨S20000x256, .f32⟩
  | 53 => ⟨S1x256, .f32⟩
  | 54 => ⟨S20000x256, .f32⟩
  | 55 => ⟨S20000x256, .f32⟩
  | 56 => ⟨S128x256, .f32⟩
  | 57 => ⟨S20000x256, .f32⟩
  | 58 => ⟨S20000x256, .f32⟩
  | 59 => ⟨S_, .f32⟩
  | 60 => ⟨S20000x256, .f32⟩
  | 61 => ⟨S20000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S100000x128, .f32⟩
  | 73 => ⟨S800000x1, .i32⟩
  | 74 => ⟨S100000x128, .f32⟩
  | 75 => ⟨S_, .f32⟩
  | 76 => ⟨S800000, .f32⟩
  | 77 => ⟨S_, .f32⟩
  | 78 => ⟨S100000, .f32⟩
  | 79 => ⟨S800000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S128x256, .f32⟩
  | 88 => ⟨S100000x256, .f32⟩
  | 89 => ⟨S1x256, .f32⟩
  | 90 => ⟨S100000x256, .f32⟩
  | 91 => ⟨S100000x256, .f32⟩
  | 92 => ⟨S256x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x256, .f32⟩
  | 107 => ⟨S_, .f32⟩
  | 108 => ⟨S20000x256, .f32⟩
  | 109 => ⟨S800000x1, .i32⟩
  | 110 => ⟨S20000x256, .f32⟩
  | 111 => ⟨S_, .f32⟩
  | 112 => ⟨S800000, .f32⟩
  | 113 => ⟨S_, .f32⟩
  | 114 => ⟨S20000, .f32⟩
  | 115 => ⟨S800000x1, .i32⟩
  | 116 => ⟨S20000, .f32⟩
  | 117 => ⟨S_, .f32⟩
  | 118 => ⟨S20000, .f32⟩
  | 119 => ⟨S20000, .f32⟩
  | 120 => ⟨S20000x1, .f32⟩
  | 121 => ⟨S20000x256, .f32⟩
  | 122 => ⟨S20000x256, .f32⟩
  | 123 => ⟨S256x256, .f32⟩
  | 124 => ⟨S20000x256, .f32⟩
  | 125 => ⟨S1x256, .f32⟩
  | 126 => ⟨S20000x256, .f32⟩
  | 127 => ⟨S20000x256, .f32⟩
  | _ => ⟨S100000x256, .f32⟩

abbrev hbmTy0_1 (i : Nat) : BufTy := match i % 128 with
  | 0 => ⟨S256x256, .f32⟩
  | 1 => ⟨S20000x256, .f32⟩
  | 2 => ⟨S20000x256, .f32⟩
  | 3 => ⟨S_, .f32⟩
  | 4 => ⟨S20000x256, .f32⟩
  | 5 => ⟨S20000x256, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S_, .f32⟩
  | 16 => ⟨S100000x256, .f32⟩
  | 17 => ⟨S800000x1, .i32⟩
  | 18 => ⟨S100000x256, .f32⟩
  | 19 => ⟨S_, .f32⟩
  | 20 => ⟨S800000, .f32⟩
  | 21 => ⟨S_, .f32⟩
  | 22 => ⟨S100000, .f32⟩
  | 23 => ⟨S800000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x256, .f32⟩
  | 30 => ⟨S100000x256, .f32⟩
  | 31 => ⟨S256x256, .f32⟩
  | 32 => ⟨S100000x256, .f32⟩
  | 33 => ⟨S1x256, .f32⟩
  | 34 => ⟨S100000x256, .f32⟩
  | 35 => ⟨S100000x256, .f32⟩
  | 36 => ⟨S256x256, .f32⟩
  | 37 => ⟨S100000x256, .f32⟩
  | 38 => ⟨S100000x256, .f32⟩
  | 39 => ⟨S_, .f32⟩
  | 40 => ⟨S100000x256, .f32⟩
  | 41 => ⟨S100000x256, .f32⟩
  | 42 => ⟨S256x256, .f32⟩
  | 43 => ⟨S100000x256, .f32⟩
  | 44 => ⟨S1x256, .f32⟩
  | 45 => ⟨S100000x256, .f32⟩
  | 46 => ⟨S100000x256, .f32⟩
  | 47 => ⟨S256x256, .f32⟩
  | 48 => ⟨S20000x256, .f32⟩
  | 49 => ⟨S1x256, .f32⟩
  | 50 => ⟨S20000x256, .f32⟩
  | 51 => ⟨S20000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x256, .f32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x256, .f32⟩
  | 70 => ⟨S200000x512, .f32⟩
  | 71 => ⟨S512x256, .f32⟩
  | 72 => ⟨S200000x256, .f32⟩
  | 73 => ⟨S1x256, .f32⟩
  | 74 => ⟨S200000x256, .f32⟩
  | 75 => ⟨S200000x256, .f32⟩
  | 76 => ⟨S_, .f32⟩
  | 77 => ⟨S200000x256, .f32⟩
  | 78 => ⟨S200000x256, .f32⟩
  | 79 => ⟨S256x1, .f32⟩
  | 80 => ⟨S200000x1, .f32⟩
  | 81 => ⟨S1x1, .f32⟩
  | 82 => ⟨S200000x1, .f32⟩
  | 83 => ⟨S200000x1, .f32⟩
  | 84 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call0_cst : Ref sig .tc := ⟨.hbm, 59, rfl⟩
abbrev main_call0_v0 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_9 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call1_cst : Ref sig .tc := ⟨.hbm, 95, rfl⟩
abbrev main_call1_v0 : Ref sig .tc := ⟨.hbm, 96, rfl⟩
abbrev main_v55 : Ref sig .tc := ⟨.hbm, 97, rfl⟩
abbrev main_c_10 : Ref sig .tc := ⟨.hbm, 98, rfl⟩
abbrev main_v56 : Ref sig .tc := ⟨.hbm, 99, rfl⟩
abbrev main_v57 : Ref sig .tc := ⟨.hbm, 100, rfl⟩
abbrev main_c_11 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_12 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_13 : Ref sig .tc := ⟨.hbm, 111, rfl⟩
abbrev main_v66 : Ref sig .tc := ⟨.hbm, 112, rfl⟩
abbrev main_cst_14 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_15 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call2_cst : Ref sig .tc := ⟨.hbm, 131, rfl⟩
abbrev main_call2_v0 : Ref sig .tc := ⟨.hbm, 132, rfl⟩
abbrev main_v83 : Ref sig .tc := ⟨.hbm, 133, rfl⟩
abbrev main_c_16 : Ref sig .tc := ⟨.hbm, 134, rfl⟩
abbrev main_v84 : Ref sig .tc := ⟨.hbm, 135, rfl⟩
abbrev main_v85 : Ref sig .tc := ⟨.hbm, 136, rfl⟩
abbrev main_c_17 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_18 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_19 : Ref sig .tc := ⟨.hbm, 147, rfl⟩
abbrev main_v94 : Ref sig .tc := ⟨.hbm, 148, rfl⟩
abbrev main_cst_20 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_21 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_call3_cst : Ref sig .tc := ⟨.hbm, 167, rfl⟩
abbrev main_call3_v0 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_c_22 : Ref sig .tc := ⟨.hbm, 180, rfl⟩
abbrev main_v122 : Ref sig .tc := ⟨.hbm, 181, rfl⟩
abbrev main_v123 : Ref sig .tc := ⟨.hbm, 182, rfl⟩
abbrev main_c_23 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_c_24 : Ref sig .tc := ⟨.hbm, 189, rfl⟩
abbrev main_v129 : Ref sig .tc := ⟨.hbm, 190, rfl⟩
abbrev main_v130 : Ref sig .tc := ⟨.hbm, 191, rfl⟩
abbrev main_c_25 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_call4_cst : Ref sig .tc := ⟨.hbm, 204, rfl⟩
abbrev main_call4_v0 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  transposes_S256x128_S128x256_1_0 : S256x128.Transposes [1, 0] S128x256
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x512_d1 : Shape.Concatenates [S200000x256, S200000x256] S200000x512 1
  transposes_S256x512_S512x256_1_0 : S256x512.Transposes [1, 0] S512x256
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  transposes_S1x256_S256x1_1_0 : S1x256.Transposes [1, 0] S256x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x256_S800000x1_S800000x256_1_0_n_n_0_1_1256_wf : GatherDims.WF S100000x256 S800000x1 S800000x256 [1] [0] [] [0] [] 1 ![1, 256]
  scatter_S20000x256_S800000x1_S800000x256_1_0_0_1_wf : ScatterDims.WF S20000x256 S800000x1 S800000x256 [1] [0] [0] 1
  scatter_S20000_S800000x1_S800000_n_0_0_1_wf : ScatterDims.WF S20000 S800000x1 S800000 [] [0] [0] 1
  dot_S20000x256_S256x256_S20000x256_1_0_0_1_n_n_wf : DotDims.WF S20000x256 S256x256 S20000x256 [1] [0] [0] [1] [] []
  dot_S20000x128_S128x256_S20000x256_1_0_0_1_n_n_wf : DotDims.WF S20000x128 S128x256 S20000x256 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  gather_S100000x256_S200000x1_S200000x256_1_0_n_n_0_1_1256_wf : GatherDims.WF S100000x256 S200000x1 S200000x256 [1] [0] [] [0] [] 1 ![1, 256]
  gather_S20000x256_S200000x1_S200000x256_1_0_n_n_0_1_1256_wf : GatherDims.WF S20000x256 S200000x1 S200000x256 [1] [0] [] [0] [] 1 ![1, 256]
  dot_S200000x512_S512x256_S200000x256_1_0_0_1_n_n_wf : DotDims.WF S200000x512 S512x256 S200000x256 [1] [0] [0] [1] [] []
  dot_S200000x256_S256x1_S200000x1_1_0_0_1_n_n_wf : DotDims.WF S200000x256 S256x1 S200000x1 [1] [0] [0] [1] [] []

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  The idealized kernel's run, read at its result. Every weakly fair execution of @main terminates without a fault, and
  in its final state the result buffer holds what the fold of @main's segments leaves there: the host stretches applied
  as functions to the buffer contents, each region's output array at what its pipeline's write-backs leave
  (`Gen.W15`, the contents after the last stretch). The launch, the chaining of the fifteen segments and the reading of
  the final thread state against the final memory are those of the frame; only the conclusion drawn from the final
  memory differs: the result buffer instead of the argument buffers.
-/
import proofs.«146884_j5153960755634_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates, nothing faulting, with the result buffer at the contents
    the fold of the segments leaves it. -/
theorem run_result : θ_run defs (onTc (τ := τ) (main (F := F))) ⟨m, fun _ => 0, ρ⟩ (fun r => ∀ c : Dev nD,
      r.2.mem ((c.tc : Thread nD τ).loc main_v130) = W15 m ρ c (Proc.devRef .tc main_v130)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c _ (mem_uc main_v130 (by decide)))

end Cert.KernelIdeal.ResultRun

end
-- ==== Proof.Spec.lean ====
/-
  The three functions this network is made of, index by index on the extended reals.

  * `sage A B Wl Wr β`  : row r, column c ↦ max ((Σₖ A[r,k]·Wl[k,c] + Σₖ B[r,k]·Wr[k,c]) + β c) 0 — one GraphSAGE
    combine step (aggregated neighbours times the left weight, own features times the right weight, bias, relu);
  * `lin A W β`         : row r, column c ↦ (Σₖ A[r,k]·W[k,c]) + β c — a linear layer;
  * `dec Z W₁ β₁ W₂ β₂` : row e, column c ↦ (Σⱼ max ((Σₖ Z[e,k]·W₁[k,j]) + β₁ j) 0 · W₂[j,c]) + β₂ c — the two-layer
    edge decoder.
  The weights enter already transposed (contraction index first), the biases as functions of the column.
-/
import Idealize.ShloMosaic.Lib.ValueIdx
import Idealize.ShloMosaic.PureOps.Ideal.Laws

noncomputable section

open scoped BigOperators

namespace Cert.Net

open Idealize.ShloMosaic Idealize.ShloMosaic.ValueIdx

/-- A two-axis array of extended reals. -/
abbrev Arr (a b : Nat) : Type := (⟨2, ![a, b]⟩ : Shape).Idx → EReal

/-- One GraphSAGE combine step: `relu (A·Wl + B·Wr + β)`, the two products added first. -/
def sage {M Ka Kb H : Nat} (A : Arr M Ka) (B : Arr M Kb) (Wl : Arr Ka H) (Wr : Arr Kb H) (β : Fin H → EReal) : Arr M H :=
  fun i => max (((∑ k : Fin Ka, A (ix2 (⟨(i 0).val, (i 0).isLt⟩ : Fin M) k) * Wl (ix2 k (⟨(i 1).val, (i 1).isLt⟩ : Fin H)))
      + ∑ k : Fin Kb, B (ix2 (⟨(i 0).val, (i 0).isLt⟩ : Fin M) k) * Wr (ix2 k (⟨(i 1).val, (i 1).isLt⟩ : Fin H)))
      + β ⟨(i 1).val, (i 1).isLt⟩) 0

theorem sage_apply {M Ka Kb H : Nat} (A : Arr M Ka) (B : Arr M Kb) (Wl : Arr Ka H) (Wr : Arr Kb H) (β : Fin H → EReal)
    (r : Fin M) (c : Fin H) :
    sage A B Wl Wr β (ix2 r c) = max (((∑ k : Fin Ka, A (ix2 r k) * Wl (ix2 k c)) + ∑ k : Fin Kb, B (ix2 r k) * Wr (ix2 k c)) + β c) 0 := rfl

/-- A linear layer: `A·W + β`. -/
def lin {M K H : Nat} (A : Arr M K) (W : Arr K H) (β : Fin H → EReal) : Arr M H :=
  fun i => (∑ k : Fin K, A (ix2 (⟨(i 0).val, (i 0).isLt⟩ : Fin M) k) * W (ix2 k (⟨(i 1).val, (i 1).isLt⟩ : Fin H)))
      + β ⟨(i 1).val, (i 1).isLt⟩

theorem lin_apply {M K H : Nat} (A : Arr M K) (W : Arr K H) (β : Fin H → EReal) (r : Fin M) (c : Fin H) :
    lin A W β (ix2 r c) = (∑ k : Fin K, A (ix2 r k) * W (ix2 k c)) + β c := rfl

/-- The edge decoder: `relu (Z·W₁ + β₁)·W₂ + β₂`. -/
def dec {E K J P : Nat} (Z : Arr E K) (W₁ : Arr K J) (β₁ : Fin J → EReal) (W₂ : Arr J P) (β₂ : Fin P → EReal) : Arr E P :=
  fun i => (∑ j : Fin J, max ((∑ k : Fin K, Z (ix2 (⟨(i 0).val, (i 0).isLt⟩ : Fin E) k) * W₁ (ix2 k j)) + β₁ j) 0
        * W₂ (ix2 j (⟨(i 1).val, (i 1).isLt⟩ : Fin P)))
      + β₂ ⟨(i 1).val, (i 1).isLt⟩

theorem dec_apply {E K J P : Nat} (Z : Arr E K) (W₁ : Arr K J) (β₁ : Fin J → EReal) (W₂ : Arr J P) (β₂ : Fin P → EReal)
    (e : Fin E) (c : Fin P) :
    dec Z W₁ β₁ W₂ β₂ (ix2 e c) = (∑ j : Fin J, max ((∑ k : Fin K, Z (ix2 e k) * W₁ (ix2 k j)) + β₁ j) 0 * W₂ (ix2 j c)) + β₂ c := rfl

/-- Equal operands give equal combine steps. -/
theorem sage_congr {M Ka Kb H : Nat} {A A' : Arr M Ka} {B B' : Arr M Kb} {Wl Wl' : Arr Ka H} {Wr Wr' : Arr Kb H} {β β' : Fin H → EReal}
    (hA : A = A') (hB : B = B') (hl : Wl = Wl') (hr : Wr = Wr') (hβ : β = β') : sage A B Wl Wr β = sage A' B' Wl' Wr' β' := by
  subst hA hB hl hr hβ; rfl

/-- Equal operands give equal linear layers. -/
theorem lin_congr {M K H : Nat} {A A' : Arr M K} {W W' : Arr K H} {β β' : Fin H → EReal}
    (hA : A = A') (hW : W = W') (hβ : β = β') : lin A W β = lin A' W' β' := by
  subst hA hW hβ; rfl

/-- Equal operands give equal decoders. -/
theorem dec_congr {E K J P : Nat} {Z Z' : Arr E K} {W₁ W₁' : Arr K J} {β₁ β₁' : Fin J → EReal} {W₂ W₂' : Arr J P} {β₂ β₂' : Fin P → EReal}
    (hZ : Z = Z') (h1 : W₁ = W₁') (hb1 : β₁ = β₁') (h2 : W₂ = W₂') (hb2 : β₂ = β₂') : dec Z W₁ β₁ W₂ β₂ = dec Z' W₁' β₁' W₂' β₂' := by
  subst hZ h1 hb1 h2 hb2; rfl

end Cert.Net

end
-- ==== Proof.MatmulAt.lean ====
/-
  The four block matrix products the kernels' bodies use, each read at one entry: the product of a `[M,K]` block and a
  `[K,H]` block, accumulated into zeros, has at row `r` and column `c` the sum over `k` of `x[r,k]·y[k,c]` on the
  extended reals (a change of float format being the identity there, the operands' formats do not matter).
-/
import proofs.«146884_j5153960755634_1_alg».proof.KernelIdeal
import proofs.«146884_j5153960755634_1_alg».proof.Proof.Gen.KernelIdeal
import Idealize.ShloMosaic.Lib.ValueIdx
import Idealize.ShloMosaic.PureOps.Ideal.Laws

noncomputable section

open scoped BigOperators

namespace Cert.KernelIdeal.MatmulAt

open Idealize.ShloMosaic Idealize.ShloMosaic.ValueIdx Cert.KernelIdeal

theorem lhs0_dot_S4000x256_S256x256_S4000x256_1_0_0_1_n_n (i : S4000x256.Idx) (q : (dot_S4000x256_S256x256_S4000x256_1_0_0_1_n_n).contr.Idx) : ((dot_S4000x256_S256x256_S4000x256_1_0_0_1_n_n).lhsIdx i q 0).val = (i 0).val := by
  unfold DotDims.lhsIdx
  rw [dif_neg (show ¬(0 : Fin S4000x256.rank) ∈ (dot_S4000x256_S256x256_S4000x256_1_0_0_1_n_n).lhsBatch by decide), dif_pos (show (0 : Fin S4000x256.rank) ∈ (dot_S4000x256_S256x256_S4000x256_1_0_0_1_n_n).lhsNonContracting by decide)]
  rfl
theorem rhs1_dot_S4000x256_S256x256_S4000x256_1_0_0_1_n_n (i : S4000x256.Idx) (q : (dot_S4000x256_S256x256_S4000x256_1_0_0_1_n_n).contr.Idx) : ((dot_S4000x256_S256x256_S4000x256_1_0_0_1_n_n).rhsIdx i q 1).val = (i 1).val := by
  unfold DotDims.rhsIdx
  rw [dif_neg (show ¬(1 : Fin S256x256.rank) ∈ (dot_S4000x256_S256x256_S4000x256_1_0_0_1_n_n).rhsBatch by decide), dif_pos (show (1 : Fin S256x256.rank) ∈ (dot_S4000x256_S256x256_S4000x256_1_0_0_1_n_n).rhsNonContracting by decide)]
  rfl
/-- The block product `[4000,256]·[256,256]` into a zero accumulator, at row `r` and column `c`: the sum over the
    contracted index of the left operand's row entry times the right operand's column entry. -/
theorem mm_dot_S4000x256_S256x256_S4000x256_1_0_0_1_n_n {φ₁ φ₂ : FTy} (x : FVec Ideal S4000x256 φ₁) (y : FVec Ideal S256x256 φ₂) (r : Fin 4000) (c : Fin 256) :
    matmul dot_S4000x256_S256x256_S4000x256_1_0_0_1_n_n none x y (constant (F := Ideal) S4000x256 .f32 0x00000000#32) (ix2 r c)
      = ∑ k : Fin 256, x (ix2 r k) * y (ix2 k c) := by
  refine (Ideal.matmul_constant_zero_apply dot_S4000x256_S256x256_S4000x256_1_0_0_1_n_n none x y (ix2 r c)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : (dot_S4000x256_S256x256_S4000x256_1_0_0_1_n_n).lhsIdx (ix2 r c) ((contrEquiv1 dot_S4000x256_S256x256_S4000x256_1_0_0_1_n_n 256 rfl rfl).symm k) = ix2 r k := funext fun a => Fin.ext (by
    match a with
    | ⟨0, _⟩ => exact lhs0_dot_S4000x256_S256x256_S4000x256_1_0_0_1_n_n _ _
    | ⟨1, _⟩ => exact ((dot_S4000x256_S256x256_S4000x256_1_0_0_1_n_n).lhsIdx_val_of_single rfl _ _).trans hk)
  have er : (dot_S4000x256_S256x256_S4000x256_1_0_0_1_n_n).rhsIdx (ix2 r c) ((contrEquiv1 dot_S4000x256_S256x256_S4000x256_1_0_0_1_n_n 256 rfl rfl).symm k) = ix2 k c := funext fun a => Fin.ext (by
    match a with
    | ⟨0, _⟩ => exact ((dot_S4000x256_S256x256_S4000x256_1_0_0_1_n_n).rhsIdx_val_of_single rfl _ _).trans hk
    | ⟨1, _⟩ => exact rhs1_dot_S4000x256_S256x256_S4000x256_1_0_0_1_n_n _ _)
  rw [el, er]

theorem lhs0_dot_S4000x128_S128x256_S4000x256_1_0_0_1_n_n (i : S4000x256.Idx) (q : (dot_S4000x128_S128x256_S4000x256_1_0_0_1_n_n).contr.Idx) : ((dot_S4000x128_S128x256_S4000x256_1_0_0_1_n_n).lhsIdx i q 0).val = (i 0).val := by
  unfold DotDims.lhsIdx
  rw [dif_neg (show ¬(0 : Fin S4000x128.rank) ∈ (dot_S4000x128_S128x256_S4000x256_1_0_0_1_n_n).lhsBatch by decide), dif_pos (show (0 : Fin S4000x128.rank) ∈ (dot_S4000x128_S128x256_S4000x256_1_0_0_1_n_n).lhsNonContracting by decide)]
  rfl
theorem rhs1_dot_S4000x128_S128x256_S4000x256_1_0_0_1_n_n (i : S4000x256.Idx) (q : (dot_S4000x128_S128x256_S4000x256_1_0_0_1_n_n).contr.Idx) : ((dot_S4000x128_S128x256_S4000x256_1_0_0_1_n_n).rhsIdx i q 1).val = (i 1).val := by
  unfold DotDims.rhsIdx
  rw [dif_neg (show ¬(1 : Fin S128x256.rank) ∈ (dot_S4000x128_S128x256_S4000x256_1_0_0_1_n_n).rhsBatch by decide), dif_pos (show (1 : Fin S128x256.rank) ∈ (dot_S4000x128_S128x256_S4000x256_1_0_0_1_n_n).rhsNonContracting by decide)]
  rfl
/-- The block product `[4000,128]·[128,256]` into a zero accumulator, at row `r` and column `c`: the sum over the
    contracted index of the left operand's row entry times the right operand's column entry. -/
theorem mm_dot_S4000x128_S128x256_S4000x256_1_0_0_1_n_n {φ₁ φ₂ : FTy} (x : FVec Ideal S4000x128 φ₁) (y : FVec Ideal S128x256 φ₂) (r : Fin 4000) (c : Fin 256) :
    matmul dot_S4000x128_S128x256_S4000x256_1_0_0_1_n_n none x y (constant (F := Ideal) S4000x256 .f32 0x00000000#32) (ix2 r c)
      = ∑ k : Fin 128, x (ix2 r k) * y (ix2 k c) := by
  refine (Ideal.matmul_constant_zero_apply dot_S4000x128_S128x256_S4000x256_1_0_0_1_n_n none x y (ix2 r c)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : (dot_S4000x128_S128x256_S4000x256_1_0_0_1_n_n).lhsIdx (ix2 r c) ((contrEquiv1 dot_S4000x128_S128x256_S4000x256_1_0_0_1_n_n 128 rfl rfl).symm k) = ix2 r k := funext fun a => Fin.ext (by
    match a with
    | ⟨0, _⟩ => exact lhs0_dot_S4000x128_S128x256_S4000x256_1_0_0_1_n_n _ _
    | ⟨1, _⟩ => exact ((dot_S4000x128_S128x256_S4000x256_1_0_0_1_n_n).lhsIdx_val_of_single rfl _ _).trans hk)
  have er : (dot_S4000x128_S128x256_S4000x256_1_0_0_1_n_n).rhsIdx (ix2 r c) ((contrEquiv1 dot_S4000x128_S128x256_S4000x256_1_0_0_1_n_n 128 rfl rfl).symm k) = ix2 k c := funext fun a => Fin.ext (by
    match a with
    | ⟨0, _⟩ => exact ((dot_S4000x128_S128x256_S4000x256_1_0_0_1_n_n).rhsIdx_val_of_single rfl _ _).trans hk
    | ⟨1, _⟩ => exact rhs1_dot_S4000x128_S128x256_S4000x256_1_0_0_1_n_n _ _)
  rw [el, er]

theorem lhs0_dot_S4000x512_S512x256_S4000x256_1_0_0_1_n_n (i : S4000x256.Idx) (q : (dot_S4000x512_S512x256_S4000x256_1_0_0_1_n_n).contr.Idx) : ((dot_S4000x512_S512x256_S4000x256_1_0_0_1_n_n).lhsIdx i q 0).val = (i 0).val := by
  unfold DotDims.lhsIdx
  rw [dif_neg (show ¬(0 : Fin S4000x512.rank) ∈ (dot_S4000x512_S512x256_S4000x256_1_0_0_1_n_n).lhsBatch by decide), dif_pos (show (0 : Fin S4000x512.rank) ∈ (dot_S4000x512_S512x256_S4000x256_1_0_0_1_n_n).lhsNonContracting by decide)]
  rfl
theorem rhs1_dot_S4000x512_S512x256_S4000x256_1_0_0_1_n_n (i : S4000x256.Idx) (q : (dot_S4000x512_S512x256_S4000x256_1_0_0_1_n_n).contr.Idx) : ((dot_S4000x512_S512x256_S4000x256_1_0_0_1_n_n).rhsIdx i q 1).val = (i 1).val := by
  unfold DotDims.rhsIdx
  rw [dif_neg (show ¬(1 : Fin S512x256.rank) ∈ (dot_S4000x512_S512x256_S4000x256_1_0_0_1_n_n).rhsBatch by decide), dif_pos (show (1 : Fin S512x256.rank) ∈ (dot_S4000x512_S512x256_S4000x256_1_0_0_1_n_n).rhsNonContracting by decide)]
  rfl
/-- The block product `[4000,512]·[512,256]` into a zero accumulator, at row `r` and column `c`: the sum over the
    contracted index of the left operand's row entry times the right operand's column entry. -/
theorem mm_dot_S4000x512_S512x256_S4000x256_1_0_0_1_n_n {φ₁ φ₂ : FTy} (x : FVec Ideal S4000x512 φ₁) (y : FVec Ideal S512x256 φ₂) (r : Fin 4000) (c : Fin 256) :
    matmul dot_S4000x512_S512x256_S4000x256_1_0_0_1_n_n none x y (constant (F := Ideal) S4000x256 .f32 0x00000000#32) (ix2 r c)
      = ∑ k : Fin 512, x (ix2 r k) * y (ix2 k c) := by
  refine (Ideal.matmul_constant_zero_apply dot_S4000x512_S512x256_S4000x256_1_0_0_1_n_n none x y (ix2 r c)).trans ?_
  rw [← Equiv.sum_comp (contrEquiv1 dot_S4000x512_S512x256_S4000x256_1_0_0_1_n_n 512 rfl rfl).symm]
  refine Finset.sum_congr rfl fun k _ => ?_
  have hk := contrEquiv1_symm_val dot_S4000x512_S512x256_S4000x256_1_0_0_1_n_n 512 rfl rfl k
  have el : (dot_S4000x512_S512x256_S4000x256_1_0_0_1_n_n).lhsIdx (ix2 r c) ((contrEquiv1 dot_S4000x512_S512x256_S4000x256_1_0_0_1_n_n 512 rfl rfl).symm k) = ix2 r k := funext fun a => Fin.ext (by
    match a with
    | ⟨0, _⟩ => exact lhs0_dot_S4000x512_S512x256_S4000x256_1_0_0_1_n_n _ _
    | ⟨1, _⟩ => exact ((dot_S4000x512_S512x256_S4000x256_1_0_0_1_n_n).lhsIdx_val_of_single rfl _ _).trans hk)
  have er : (dot_S4000x512_S512x256_S4000x256_1_0_0_1_n_n).rhsIdx (ix2 r c) ((contrEquiv1 dot_S4000x512_S512x256_S4000x256_1_0_0_1_n_n 512 rfl rfl).symm k) = ix2 k c := funext fun a => Fin.ext (by
    match a with
    | ⟨0, _⟩ => exact ((dot_S4000x512_S512x256_S4000x256_1_0_0_1_n_n).rhsIdx_val_of_single rfl _ _).trans hk
    | ⟨1, _⟩ => exact rhs1_dot_S4000x512_S512x256_S4000x256_1_0_0_1_n_n _ _)
  rw [el, er]

theorem lhs0_dot_S4000x256_S256x128_S4000x128_1_0_0_1_n_n (i : S4000x128.Idx) (q : (dot_S4000x256_S256x128_S4000x128_1_0_0_1_n_n).contr.Idx) : ((dot_S4000x256_S256x128_S4000x128_1_0_0_1_n_n).lhsIdx i q 0).val = (i 0).val := by
  unfold DotDims.lhsIdx
  rw [dif_neg (show ¬(0 : Fin S4000x256.rank) ∈ (dot_S4000x256_S256x128_S4000x128_1_0_0_1_n_n).lhsBatch by decide), dif_pos (show (0 : Fin S4000x256.rank) ∈ (dot_S4000x256_S256x128_S4000x128_1_0_0_1_n_n).lhsNonContracting by decide)]
  rfl
theorem rhs1_dot_S4000x256_S256x128_S4000x128_1_0_0_1_n_n (i : S4000x128.Idx) (q : (dot_S4000x256_S256x128_S4000x128_1_0_0_1_n_n).contr.Idx) : ((dot_S4000x256_S256x128_S4000x128_1_0_0_1_n_n).rhsIdx i q 1).val = (i 1).val := by
  unfold DotDims.rhsIdx
  rw [dif_neg (show ¬(1 : Fin S256x128.rank) ∈ (dot_S4000x256_S256x128_S4000x128_1_0_0_1_n_n).rhsBatch by decide), dif_pos (show (1 : Fin S256x128.rank) ∈ (dot_S4000x256_S256x128_S4000x128_1_0_0_1_n_n).rhsNonContracting by decide)]
  rfl
/-- The block product `[4000,256]·[256,128]` into a zero accumulator, at row `r` and column `c`: the sum over the
    contracted index of the left operand's row entry times the right operand's column entry. -/
theorem mm_dot_S4000x256_S256x128_S4000x128_1_0_0_1_n_n {φ₁ φ₂ : FTy} (x : FVec Ideal S4000x256 φ₁) (y : FVec Ideal S256x128 φ₂) (r : Fin 4000) (c : Fin 128) :
    matmul dot_S4000x256_S256x128_S4000x128_1_0_0_1_n_n none x y (constant (F := Ideal) S4000x128 .f32 0x00000000#32) (ix2 r c)
      = ∑ k : Fin 256, x (ix2 r k) * y (ix2 k c) := by
  refine (Ideal.matmul_constant_zero_apply dot_S4000x256_S256x128_S4000x128_1_0_0_1_n_n none x y (ix2 r c)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : (dot_S4000x256_S256x128_S4000x128_1_0_0_1_n_n).lhsIdx (ix2 r c) ((contrEquiv1 dot_S4000x256_S256x128_S4000x128_1_0_0_1_n_n 256 rfl rfl).symm k) = ix2 r k := funext fun a => Fin.ext (by
    match a with
    | ⟨0, _⟩ => exact lhs0_dot_S4000x256_S256x128_S4000x128_1_0_0_1_n_n _ _
    | ⟨1, _⟩ => exact ((dot_S4000x256_S256x128_S4000x128_1_0_0_1_n_n).lhsIdx_val_of_single rfl _ _).trans hk)
  have er : (dot_S4000x256_S256x128_S4000x128_1_0_0_1_n_n).rhsIdx (ix2 r c) ((contrEquiv1 dot_S4000x256_S256x128_S4000x128_1_0_0_1_n_n 256 rfl rfl).symm k) = ix2 k c := funext fun a => Fin.ext (by
    match a with
    | ⟨0, _⟩ => exact ((dot_S4000x256_S256x128_S4000x128_1_0_0_1_n_n).rhsIdx_val_of_single rfl _ _).trans hk
    | ⟨1, _⟩ => exact rhs1_dot_S4000x256_S256x128_S4000x128_1_0_0_1_n_n _ _)
  rw [el, er]

end Cert.KernelIdeal.MatmulAt

end
-- ==== Proof.Region0.lean ====
/-
  Region 0 (one GraphSAGE combine step, `relu (A·Wl + B·Wr + bias)`, over 5 row blocks of 4000): what the output
  array holds when the region is left, as one function of the arrays the region finds. Point `t` loads rows
  `4000·t … 4000·t+3999` of `A` and of `B`, both weights and the bias row whole, and writes back the same rows of the
  result; entry `(r, c)` of a block depends on row `r` of the two row blocks only, so the blocks are the restrictions
  of ONE whole-array function, `Net.sage`, and they tile the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: row `r` of the `A` block against column `c` of the left weight,
    plus row `r` of the `B` block against column `c` of the right weight, plus the bias at `c`, clamped below at zero. -/
theorem pay_apply (x0 : Vec Ideal S4000x256 .f32) (x1 : Vec Ideal S4000x128 .f32) (x2 : Vec Ideal S256x256 .f32)
    (x3 : Vec Ideal S128x256 .f32) (x4 : Vec Ideal S1x256 .f32) (r : Fin 4000) (c : Fin 256) :
    k0_pay1 (F := Ideal) x0 x1 x2 x3 x4 (ix2 r c)
      = max (((∑ k : Fin 256, x0 (ix2 r k) * x2 (ix2 k c)) + ∑ k : Fin 128, x1 (ix2 r k) * x3 (ix2 k c)) + x4 (ix2 (0 : Fin 1) c)) 0 := by
  unfold k0_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    exact congrArg₂ (· + ·) (mm_dot_S4000x256_S256x256_S4000x256_1_0_0_1_n_n _ _ r c) (mm_dot_S4000x128_S128x256_S4000x256_1_0_0_1_n_n _ _ r c)
  · exact broadcastTo_apply _ broadcasts_S1x256_S4000x256 (ix2 r c) (ix2 (0 : Fin 1) c) (fun a => match a with
      | ⟨0, _⟩ => by show (0 : Nat) = if (1 : Nat) = 1 then 0 else _; rw [if_pos rfl]
      | ⟨1, _⟩ => by show c.val = if (256 : Nat) = 1 then 0 else c.val; rw [if_neg (by decide)])

/-- The printed index maps over the grid: the two row-blocked windows and the output window move by whole row blocks,
    the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function the blocks restrict: `Net.sage` of the five arrays the region finds. -/
abbrev G (c : Dev nD) : S20000x256.Idx → EReal :=
  Cert.Net.sage (M := 20000) (Ka := 256) (Kb := 128) (H := 256) (V c (Pipeline.arrRef spec0 0)) (V c (Pipeline.arrRef spec0 1))
    (V c (Pipeline.arrRef spec0 2)) (V c (Pipeline.arrRef spec0 3)) (fun j => V c (Pipeline.arrRef spec0 4) (ix2 (0 : Fin 1) j))

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x256) hz, View.ld_unit_zero (S := S4000x128) hz, View.ld_unit_zero (S := S256x256) hz, View.ld_unit_zero (S := S128x256) hz, View.ld_unit_zero (S := S1x256) hz]
  obtain ⟨e0, e1, e2, e3, e4, e5, e6, e7, e8, e9, e10, e11⟩ := idx_facts t
  funext j
  obtain ⟨r, q, rfl⟩ : ∃ (r : Fin 4000) (q : Fin 256), j = ix2 r q := ⟨j 0, j 1, eq_ix2 j⟩
  refine (pay_apply _ _ _ _ _ r q).trans ?_
  have hr : t.val * 4000 + r.val < 20000 := by
    have h1 : t.val < 5 := lt_of_lt_of_eq t.isLt N_0
    have h2 := r.isLt; omega
  have hout : ((cfg0.win 5).blk t).view.emb (ix2 r q) = ix2 (⟨t.val * 4000 + r.val, hr⟩ : Fin 20000) q := by
    funext a; apply Fin.ext
    match a with
    | ⟨0, _⟩ => show win0_5.index t (0 : Fin 2) * 4000 + 1 * r.val = t.val * 4000 + r.val; omega
    | ⟨1, _⟩ => show win0_5.index t (1 : Fin 2) * 256 + 1 * q.val = q.val; omega
  show _ = G V c (((cfg0.win 5).blk t).view.emb (ix2 r q))
  rw [hout]
  refine Eq.trans ?_ (Cert.Net.sage_apply (M := 20000) (Ka := 256) (Kb := 128) (H := 256) (V c (Pipeline.arrRef spec0 0)) (V c (Pipeline.arrRef spec0 1))
    (V c (Pipeline.arrRef spec0 2)) (V c (Pipeline.arrRef spec0 3)) (fun j => V c (Pipeline.arrRef spec0 4) (ix2 (0 : Fin 1) j)) ⟨t.val * 4000 + r.val, hr⟩ q).symm
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · show V c (Pipeline.arrRef spec0 0) (((cfg0.win 0).blk t).view.emb (ix2 r k)) = _
    refine congrArg _ ?_
    funext a; apply Fin.ext
    match a with
    | ⟨0, _⟩ => show win0_0.index t (0 : Fin 2) * 4000 + 1 * r.val = t.val * 4000 + r.val; omega
    | ⟨1, _⟩ => show win0_0.index t (1 : Fin 2) * 256 + 1 * k.val = k.val; omega
  · show V c (Pipeline.arrRef spec0 2) (((cfg0.win 2).blk t).view.emb (ix2 k q)) = _
    refine congrArg _ ?_
    funext a; apply Fin.ext
    match a with
    | ⟨0, _⟩ => show win0_2.index t (0 : Fin 2) * 256 + 1 * k.val = k.val; omega
    | ⟨1, _⟩ => show win0_2.index t (1 : Fin 2) * 256 + 1 * q.val = q.val; omega
  · show V c (Pipeline.arrRef spec0 1) (((cfg0.win 1).blk t).view.emb (ix2 r k)) = _
    refine congrArg _ ?_
    funext a; apply Fin.ext
    match a with
    | ⟨0, _⟩ => show win0_1.index t (0 : Fin 2) * 4000 + 1 * r.val = t.val * 4000 + r.val; omega
    | ⟨1, _⟩ => show win0_1.index t (1 : Fin 2) * 128 + 1 * k.val = k.val; omega
  · show V c (Pipeline.arrRef spec0 3) (((cfg0.win 3).blk t).view.emb (ix2 k q)) = _
    refine congrArg _ ?_
    funext a; apply Fin.ext
    match a with
    | ⟨0, _⟩ => show win0_3.index t (0 : Fin 2) * 128 + 1 * k.val = k.val; omega
    | ⟨1, _⟩ => show win0_3.index t (1 : Fin 2) * 256 + 1 * q.val = q.val; omega
  · show V c (Pipeline.arrRef spec0 4) (((cfg0.win 4).blk t).view.emb (ix2 (0 : Fin 1) q)) = _
    refine congrArg _ ?_
    funext a; apply Fin.ext
    match a with
    | ⟨0, _⟩ => show win0_4.index t (0 : Fin 2) * 1 + 1 * 0 = 0; omega
    | ⟨1, _⟩ => show win0_4.index t (1 : Fin 2) * 256 + 1 * q.val = q.val; omega

/-- An index of the array is in point `t`'s block iff each coordinate is in the block's range on its axis. -/
theorem mem_blk (t : Fin cfg0.N) (i : S20000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v22).slice (win0_5.rect t)).set ↔ _
  rw [View.set_slice_whole, Rect.mem_set_unit]
  exact Iff.rfl

/-- Every index of the array lies in the block of the point its row falls in. -/
theorem cover (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  have hN : cfg0.N = 5 := N_0
  let t : Fin cfg0.N := ⟨(i 0).val / 4000, by rw [hN]; omega⟩
  obtain ⟨e0, e1, e2, e3, e4, e5, e6, e7, e8, e9, e10, e11⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 256 ≤ (i 1).val ∧ (i 1).val < win0_5.index t (1 : Fin 2) * 256 + 256; omega

/-- THE OUTPUT ARRAY when the region is left: the combine step of the arrays the region found. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  Region 1 (one GraphSAGE combine step, `relu (A·Wl + B·Wr + bias)`, over 25 row blocks of 4000): what the output
  array holds when the region is left, as one function of the arrays the region finds. Point `t` loads rows
  `4000·t … 4000·t+3999` of `A` and of `B`, both weights and the bias row whole, and writes back the same rows of the
  result; entry `(r, c)` of a block depends on row `r` of the two row blocks only, so the blocks are the restrictions
  of ONE whole-array function, `Net.sage`, and they tile the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: row `r` of the `A` block against column `c` of the left weight,
    plus row `r` of the `B` block against column `c` of the right weight, plus the bias at `c`, clamped below at zero. -/
theorem pay_apply (x0 : Vec Ideal S4000x128 .f32) (x1 : Vec Ideal S4000x256 .f32) (x2 : Vec Ideal S128x256 .f32)
    (x3 : Vec Ideal S256x256 .f32) (x4 : Vec Ideal S1x256 .f32) (r : Fin 4000) (c : Fin 256) :
    k1_pay1 (F := Ideal) x0 x1 x2 x3 x4 (ix2 r c)
      = max (((∑ k : Fin 128, x0 (ix2 r k) * x2 (ix2 k c)) + ∑ k : Fin 256, x1 (ix2 r k) * x3 (ix2 k c)) + x4 (ix2 (0 : Fin 1) c)) 0 := by
  unfold k1_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    exact congrArg₂ (· + ·) (mm_dot_S4000x128_S128x256_S4000x256_1_0_0_1_n_n _ _ r c) (mm_dot_S4000x256_S256x256_S4000x256_1_0_0_1_n_n _ _ r c)
  · exact broadcastTo_apply _ broadcasts_S1x256_S4000x256 (ix2 r c) (ix2 (0 : Fin 1) c) (fun a => match a with
      | ⟨0, _⟩ => by show (0 : Nat) = if (1 : Nat) = 1 then 0 else _; rw [if_pos rfl]
      | ⟨1, _⟩ => by show c.val = if (256 : Nat) = 1 then 0 else c.val; rw [if_neg (by decide)])

/-- The printed index maps over the grid: the two row-blocked windows and the output window move by whole row blocks,
    the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole-array function the blocks restrict: `Net.sage` of the five arrays the region finds. -/
abbrev G (c : Dev nD) : S100000x256.Idx → EReal :=
  Cert.Net.sage (M := 100000) (Ka := 128) (Kb := 256) (H := 256) (V c (Pipeline.arrRef spec1 0)) (V c (Pipeline.arrRef spec1 1))
    (V c (Pipeline.arrRef spec1 2)) (V c (Pipeline.arrRef spec1 3)) (fun j => V c (Pipeline.arrRef spec1 4) (ix2 (0 : Fin 1) j))

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x256) hz, View.ld_unit_zero (S := S128x256) hz, View.ld_unit_zero (S := S256x256) hz, View.ld_unit_zero (S := S1x256) hz]
  obtain ⟨e0, e1, e2, e3, e4, e5, e6, e7, e8, e9, e10, e11⟩ := idx_facts t
  funext j
  obtain ⟨r, q, rfl⟩ : ∃ (r : Fin 4000) (q : Fin 256), j = ix2 r q := ⟨j 0, j 1, eq_ix2 j⟩
  refine (pay_apply _ _ _ _ _ r q).trans ?_
  have hr : t.val * 4000 + r.val < 100000 := by
    have h1 : t.val < 25 := lt_of_lt_of_eq t.isLt N_1
    have h2 := r.isLt; omega
  have hout : ((cfg1.win 5).blk t).view.emb (ix2 r q) = ix2 (⟨t.val * 4000 + r.val, hr⟩ : Fin 100000) q := by
    funext a; apply Fin.ext
    match a with
    | ⟨0, _⟩ => show win1_5.index t (0 : Fin 2) * 4000 + 1 * r.val = t.val * 4000 + r.val; omega
    | ⟨1, _⟩ => show win1_5.index t (1 : Fin 2) * 256 + 1 * q.val = q.val; omega
  show _ = G V c (((cfg1.win 5).blk t).view.emb (ix2 r q))
  rw [hout]
  refine Eq.trans ?_ (Cert.Net.sage_apply (M := 100000) (Ka := 128) (Kb := 256) (H := 256) (V c (Pipeline.arrRef spec1 0)) (V c (Pipeline.arrRef spec1 1))
    (V c (Pipeline.arrRef spec1 2)) (V c (Pipeline.arrRef spec1 3)) (fun j => V c (Pipeline.arrRef spec1 4) (ix2 (0 : Fin 1) j)) ⟨t.val * 4000 + r.val, hr⟩ q).symm
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · show V c (Pipeline.arrRef spec1 0) (((cfg1.win 0).blk t).view.emb (ix2 r k)) = _
    refine congrArg _ ?_
    funext a; apply Fin.ext
    match a with
    | ⟨0, _⟩ => show win1_0.index t (0 : Fin 2) * 4000 + 1 * r.val = t.val * 4000 + r.val; omega
    | ⟨1, _⟩ => show win1_0.index t (1 : Fin 2) * 128 + 1 * k.val = k.val; omega
  · show V c (Pipeline.arrRef spec1 2) (((cfg1.win 2).blk t).view.emb (ix2 k q)) = _
    refine congrArg _ ?_
    funext a; apply Fin.ext
    match a with
    | ⟨0, _⟩ => show win1_2.index t (0 : Fin 2) * 128 + 1 * k.val = k.val; omega
    | ⟨1, _⟩ => show win1_2.index t (1 : Fin 2) * 256 + 1 * q.val = q.val; omega
  · show V c (Pipeline.arrRef spec1 1) (((cfg1.win 1).blk t).view.emb (ix2 r k)) = _
    refine congrArg _ ?_
    funext a; apply Fin.ext
    match a with
    | ⟨0, _⟩ => show win1_1.index t (0 : Fin 2) * 4000 + 1 * r.val = t.val * 4000 + r.val; omega
    | ⟨1, _⟩ => show win1_1.index t (1 : Fin 2) * 256 + 1 * k.val = k.val; omega
  · show V c (Pipeline.arrRef spec1 3) (((cfg1.win 3).blk t).view.emb (ix2 k q)) = _
    refine congrArg _ ?_
    funext a; apply Fin.ext
    match a with
    | ⟨0, _⟩ => show win1_3.index t (0 : Fin 2) * 256 + 1 * k.val = k.val; omega
    | ⟨1, _⟩ => show win1_3.index t (1 : Fin 2) * 256 + 1 * q.val = q.val; omega
  · show V c (Pipeline.arrRef spec1 4) (((cfg1.win 4).blk t).view.emb (ix2 (0 : Fin 1) q)) = _
    refine congrArg _ ?_
    funext a; apply Fin.ext
    match a with
    | ⟨0, _⟩ => show win1_4.index t (0 : Fin 2) * 1 + 1 * 0 = 0; omega
    | ⟨1, _⟩ => show win1_4.index t (1 : Fin 2) * 256 + 1 * q.val = q.val; omega

/-- An index of the array is in point `t`'s block iff each coordinate is in the block's range on its axis. -/
theorem mem_blk (t : Fin cfg1.N) (i : S100000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v45).slice (win1_5.rect t)).set ↔ _
  rw [View.set_slice_whole, Rect.mem_set_unit]
  exact Iff.rfl

/-- Every index of the array lies in the block of the point its row falls in. -/
theorem cover (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 25 := N_1
  let t : Fin cfg1.N := ⟨(i 0).val / 4000, by rw [hN]; omega⟩
  obtain ⟨e0, e1, e2, e3, e4, e5, e6, e7, e8, e9, e10, e11⟩ := idx_facts t
  have ht : t.val = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 256 ≤ (i 1).val ∧ (i 1).val < win1_5.index t (1 : Fin 2) * 256 + 256; omega

/-- THE OUTPUT ARRAY when the region is left: the combine step of the arrays the region found. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Region2.lean ====
/-
  Region 2 (one GraphSAGE combine step, `relu (A·Wl + B·Wr + bias)`, over 5 row blocks of 4000): what the output
  array holds when the region is left, as one function of the arrays the region finds. Point `t` loads rows
  `4000·t … 4000·t+3999` of `A` and of `B`, both weights and the bias row whole, and writes back the same rows of the
  result; entry `(r, c)` of a block depends on row `r` of the two row blocks only, so the blocks are the restrictions
  of ONE whole-array function, `Net.sage`, and they tile the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: row `r` of the `A` block against column `c` of the left weight,
    plus row `r` of the `B` block against column `c` of the right weight, plus the bias at `c`, clamped below at zero. -/
theorem pay_apply (x0 : Vec Ideal S4000x256 .f32) (x1 : Vec Ideal S4000x256 .f32) (x2 : Vec Ideal S256x256 .f32)
    (x3 : Vec Ideal S256x256 .f32) (x4 : Vec Ideal S1x256 .f32) (r : Fin 4000) (c : Fin 256) :
    k2_pay1 (F := Ideal) x0 x1 x2 x3 x4 (ix2 r c)
      = max (((∑ k : Fin 256, x0 (ix2 r k) * x2 (ix2 k c)) + ∑ k : Fin 256, x1 (ix2 r k) * x3 (ix2 k c)) + x4 (ix2 (0 : Fin 1) c)) 0 := by
  unfold k2_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    exact congrArg₂ (· + ·) (mm_dot_S4000x256_S256x256_S4000x256_1_0_0_1_n_n _ _ r c) (mm_dot_S4000x256_S256x256_S4000x256_1_0_0_1_n_n _ _ r c)
  · exact broadcastTo_apply _ broadcasts_S1x256_S4000x256 (ix2 r c) (ix2 (0 : Fin 1) c) (fun a => match a with
      | ⟨0, _⟩ => by show (0 : Nat) = if (1 : Nat) = 1 then 0 else _; rw [if_pos rfl]
      | ⟨1, _⟩ => by show c.val = if (256 : Nat) = 1 then 0 else c.val; rw [if_neg (by decide)])

/-- The printed index maps over the grid: the two row-blocked windows and the output window move by whole row blocks,
    the weights and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Where window 0's block at point `t` sits in its array. -/
theorem emb0 (t : Fin cfg2.N) (r : Fin 4000) (k : Fin 256) (hr : t.val * 4000 + r.val < 20000)
    (hf : win2_0.index t (0 : Fin 2) = t.val ∧ win2_0.index t (1 : Fin 2) = 0
      ∧ win2_1.index t (0 : Fin 2) = t.val ∧ win2_1.index t (1 : Fin 2) = 0
      ∧ win2_2.index t (0 : Fin 2) = 0 ∧ win2_2.index t (1 : Fin 2) = 0
      ∧ win2_3.index t (0 : Fin 2) = 0 ∧ win2_3.index t (1 : Fin 2) = 0
      ∧ win2_4.index t (0 : Fin 2) = 0 ∧ win2_4.index t (1 : Fin 2) = 0
      ∧ win2_5.index t (0 : Fin 2) = t.val ∧ win2_5.index t (1 : Fin 2) = 0) :
    ((cfg2.win 0).blk t).view.emb (ix2 r k) = ix2 (⟨t.val * 4000 + r.val, hr⟩ : Fin 20000) k := by
  obtain ⟨e0, e1, e2, e3, e4, e5, e6, e7, e8, e9, e10, e11⟩ := hf
  funext a; apply Fin.ext
  match a with
  | ⟨0, _⟩ => show win2_0.index t (0 : Fin 2) * 4000 + 1 * r.val = t.val * 4000 + r.val; omega
  | ⟨1, _⟩ => show win2_0.index t (1 : Fin 2) * 256 + 1 * k.val = k.val; omega

/-- Where window 2's block at point `t` sits in its array. -/
theorem emb2 (t : Fin cfg2.N) (k : Fin 256) (q : Fin 256)
    (hf : win2_0.index t (0 : Fin 2) = t.val ∧ win2_0.index t (1 : Fin 2) = 0
      ∧ win2_1.index t (0 : Fin 2) = t.val ∧ win2_1.index t (1 : Fin 2) = 0
      ∧ win2_2.index t (0 : Fin 2) = 0 ∧ win2_2.index t (1 : Fin 2) = 0
      ∧ win2_3.index t (0 : Fin 2) = 0 ∧ win2_3.index t (1 : Fin 2) = 0
      ∧ win2_4.index t (0 : Fin 2) = 0 ∧ win2_4.index t (1 : Fin 2) = 0
      ∧ win2_5.index t (0 : Fin 2) = t.val ∧ win2_5.index t (1 : Fin 2) = 0) :
    ((cfg2.win 2).blk t).view.emb (ix2 k q) = ix2 k q := by
  obtain ⟨e0, e1, e2, e3, e4, e5, e6, e7, e8, e9, e10, e11⟩ := hf
  funext a; apply Fin.ext
  match a with
  | ⟨0, _⟩ => show win2_2.index t (0 : Fin 2) * 256 + 1 * k.val = k.val; omega
  | ⟨1, _⟩ => show win2_2.index t (1 : Fin 2) * 256 + 1 * q.val = q.val; omega

/-- Where window 1's block at point `t` sits in its array. -/
theorem emb1 (t : Fin cfg2.N) (r : Fin 4000) (k : Fin 256) (hr : t.val * 4000 + r.val < 20000)
    (hf : win2_0.index t (0 : Fin 2) = t.val ∧ win2_0.index t (1 : Fin 2) = 0
      ∧ win2_1.index t (0 : Fin 2) = t.val ∧ win2_1.index t (1 : Fin 2) = 0
      ∧ win2_2.index t (0 : Fin 2) = 0 ∧ win2_2.index t (1 : Fin 2) = 0
      ∧ win2_3.index t (0 : Fin 2) = 0 ∧ win2_3.index t (1 : Fin 2) = 0
      ∧ win2_4.index t (0 : Fin 2) = 0 ∧ win2_4.index t (1 : Fin 2) = 0
      ∧ win2_5.index t (0 : Fin 2) = t.val ∧ win2_5.index t (1 : Fin 2) = 0) :
    ((cfg2.win 1).blk t).view.emb (ix2 r k) = ix2 (⟨t.val * 4000 + r.val, hr⟩ : Fin 20000) k := by
  obtain ⟨e0, e1, e2, e3, e4, e5, e6, e7, e8, e9, e10, e11⟩ := hf
  funext a; apply Fin.ext
  match a with
  | ⟨0, _⟩ => show win2_1.index t (0 : Fin 2) * 4000 + 1 * r.val = t.val * 4000 + r.val; omega
  | ⟨1, _⟩ => show win2_1.index t (1 : Fin 2) * 256 + 1 * k.val = k.val; omega

/-- Where window 3's block at point `t` sits in its array. -/
theorem emb3 (t : Fin cfg2.N) (k : Fin 256) (q : Fin 256)
    (hf : win2_0.index t (0 : Fin 2) = t.val ∧ win2_0.index t (1 : Fin 2) = 0
      ∧ win2_1.index t (0 : Fin 2) = t.val ∧ win2_1.index t (1 : Fin 2) = 0
      ∧ win2_2.index t (0 : Fin 2) = 0 ∧ win2_2.index t (1 : Fin 2) = 0
      ∧ win2_3.index t (0 : Fin 2) = 0 ∧ win2_3.index t (1 : Fin 2) = 0
      ∧ win2_4.index t (0 : Fin 2) = 0 ∧ win2_4.index t (1 : Fin 2) = 0
      ∧ win2_5.index t (0 : Fin 2) = t.val ∧ win2_5.index t (1 : Fin 2) = 0) :
    ((cfg2.win 3).blk t).view.emb (ix2 k q) = ix2 k q := by
  obtain ⟨e0, e1, e2, e3, e4, e5, e6, e7, e8, e9, e10, e11⟩ := hf
  funext a; apply Fin.ext
  match a with
  | ⟨0, _⟩ => show win2_3.index t (0 : Fin 2) * 256 + 1 * k.val = k.val; omega
  | ⟨1, _⟩ => show win2_3.index t (1 : Fin 2) * 256 + 1 * q.val = q.val; omega

/-- Where window 4's block at point `t` sits in its array. -/
theorem emb4 (t : Fin cfg2.N) (q : Fin 256)
    (hf : win2_0.index t (0 : Fin 2) = t.val ∧ win2_0.index t (1 : Fin 2) = 0
      ∧ win2_1.index t (0 : Fin 2) = t.val ∧ win2_1.index t (1 : Fin 2) = 0
      ∧ win2_2.index t (0 : Fin 2) = 0 ∧ win2_2.index t (1 : Fin 2) = 0
      ∧ win2_3.index t (0 : Fin 2) = 0 ∧ win2_3.index t (1 : Fin 2) = 0
      ∧ win2_4.index t (0 : Fin 2) = 0 ∧ win2_4.index t (1 : Fin 2) = 0
      ∧ win2_5.index t (0 : Fin 2) = t.val ∧ win2_5.index t (1 : Fin 2) = 0) :
    ((cfg2.win 4).blk t).view.emb (ix2 (0 : Fin 1) q) = ix2 (0 : Fin 1) q := by
  obtain ⟨e0, e1, e2, e3, e4, e5, e6, e7, e8, e9, e10, e11⟩ := hf
  funext a; apply Fin.ext
  match a with
  | ⟨0, _⟩ => show win2_4.index t (0 : Fin 2) * 1 + 1 * 0 = 0; omega
  | ⟨1, _⟩ => show win2_4.index t (1 : Fin 2) * 256 + 1 * q.val = q.val; omega

/-- The whole-array function the blocks restrict: `Net.sage` of the five arrays the region finds. -/
abbrev G (c : Dev nD) : S20000x256.Idx → EReal :=
  Cert.Net.sage (M := 20000) (Ka := 256) (Kb := 256) (H := 256) (V c (Pipeline.arrRef spec2 0)) (V c (Pipeline.arrRef spec2 1))
    (V c (Pipeline.arrRef spec2 2)) (V c (Pipeline.arrRef spec2 3)) (fun j => V c (Pipeline.arrRef spec2 4) (ix2 (0 : Fin 1) j))

/-- WHAT POINT `t` WRITES BACK is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S4000x256) hz, View.ld_unit_zero (S := S4000x256) hz, View.ld_unit_zero (S := S256x256) hz, View.ld_unit_zero (S := S256x256) hz, View.ld_unit_zero (S := S1x256) hz]
  obtain ⟨e0, e1, e2, e3, e4, e5, e6, e7, e8, e9, e10, e11⟩ := idx_facts t
  funext j
  obtain ⟨r, q, rfl⟩ : ∃ (r : Fin 4000) (q : Fin 256), j = ix2 r q := ⟨j 0, j 1, eq_ix2 j⟩
  refine (pay_apply _ _ _ _ _ r q).trans ?_
  have hr : t.val * 4000 + r.val < 20000 := by
    have h1 : t.val < 5 := lt_of_lt_of_eq t.isLt N_2
    have h2 := r.isLt; omega
  have hout : ((cfg2.win 5).blk t).view.emb (ix2 r q) = ix2 (⟨t.val * 4000 + r.val, hr⟩ : Fin 20000) q := by
    funext a; apply Fin.ext
    match a with
    | ⟨0, _⟩ => show win2_5.index t (0 : Fin 2) * 4000 + 1 * r.val = t.val * 4000 + r.val; omega
    | ⟨1, _⟩ => show win2_5.index t (1 : Fin 2) * 256 + 1 * q.val = q.val; omega
  show _ = G V c (((cfg2.win 5).blk t).view.emb (ix2 r q))
  rw [hout]
  refine Eq.trans ?_ (Cert.Net.sage_apply (M := 20000) (Ka := 256) (Kb := 256) (H := 256) (V c (Pipeline.arrRef spec2 0)) (V c (Pipeline.arrRef spec2 1))
    (V c (Pipeline.arrRef spec2 2)) (V c (Pipeline.arrRef spec2 3)) (fun j => V c (Pipeline.arrRef spec2 4) (ix2 (0 : Fin 1) j)) ⟨t.val * 4000 + r.val, hr⟩ q).symm
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · exact congrArg _ (emb0 t r k hr (idx_facts t))
  · exact congrArg _ (emb2 t k q (idx_facts t))
  · exact congrArg _ (emb1 t r k hr (idx_facts t))
  · exact congrArg _ (emb3 t k q (idx_facts t))
  · exact congrArg _ (emb4 t q (idx_facts t))

/-- An index of the array is in point `t`'s block iff each coordinate is in the block's range on its axis. -/
theorem mem_blk (t : Fin cfg2.N) (i : S20000x256.Idx) :
    i ∈ ((cfg2.win 5).blk t).view.set ↔ ∀ a : Fin 2, win2_5.index t a * S4000x256.size a ≤ (i a).val ∧ (i a).val < win2_5.index t a * S4000x256.size a + S4000x256.size a := by
  show i ∈ ((View.whole main_v68).slice (win2_5.rect t)).set ↔ _
  rw [View.set_slice_whole, Rect.mem_set_unit]
  exact Iff.rfl

/-- Every index of the array lies in the block of the point its row falls in. -/
theorem cover (i : S20000x256.Idx) : ∃ t : Fin cfg2.N, (cfg2.win 5).flush t = true ∧ i ∈ ((cfg2.win 5).blk t).view.set := by
  have hi0 : (i 0).val < 20000 := (i 0).isLt
  have hi1 : (i 1).val < 256 := (i 1).isLt
  have hN : cfg2.N = 5 := N_2
  let t : Fin cfg2.N := ⟨(i 0).val / 4000, by rw [hN]; omega⟩
  obtain ⟨e0, e1, e2, e3, e4, e5, e6, e7, e8, e9, e10, e11⟩ := idx_facts t
  have ht : t.val = (i 0).val / 4000 := rfl
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 256 ≤ (i 1).val ∧ (i 1).val < win2_5.index t (1 : Fin 2) * 256 + 256; omega

/-- THE OUTPUT ARRAY when the region is left: the combine step of the arrays the region found. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Region3.lean ====
/-
  Region 3 (one GraphSAGE combine step, `relu (A·Wl + B·Wr + bias)`, over 25 row blocks of 4000): what the output
  array holds when the region is left, as one function of the arrays the region finds. Point `t` loads rows
  `4000·t … 4000·t+3999` of `A` and of `B`, both weights and the bias row whole, and writes back the same rows of the
  result; entry `(r, c)` of a block depends on row `r` of the two row blocks only, so the blocks are the restrictions
  of ONE whole-array function, `Net.sage`, and they tile the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region3

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: row `r` of the `A` block against column `c` of the left weight,
    plus row `r` of the `B` block against column `c` of the right weight, plus the bias at `c`, clamped below at zero. -/
theorem pay_apply (x0 : Vec Ideal S4000x256 .f32) (x1 : Vec Ideal S4000x256 .f32) (x2 : Vec Ideal S256x256 .f32)
    (x3 : Vec Ideal S256x256 .f32) (x4 : Vec Ideal S1x256 .f32) (r : Fin 4000) (c : Fin 256) :
    k3_pay1 (F := Ideal) x0 x1 x2 x3 x4 (ix2 r c)
      = max (((∑ k : Fin 256, x0 (ix2 r k) * x2 (ix2 k c)) + ∑ k : Fin 256, x1 (ix2 r k) * x3 (ix2 k c)) + x4 (ix2 (0 : Fin 1) c)) 0 := by
  unfold k3_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    exact congrArg₂ (· + ·) (mm_dot_S4000x256_S256x256_S4000x256_1_0_0_1_n_n _ _ r c) (mm_dot_S4000x256_S256x256_S4000x256_1_0_0_1_n_n _ _ r c)
  · exact broadcastTo_apply _ broadcasts_S1x256_S4000x256 (ix2 r c) (ix2 (0 : Fin 1) c) (fun a => match a with
      | ⟨0, _⟩ => by show (0 : Nat) = if (1 : Nat) = 1 then 0 else _; rw [if_pos rfl]
      | ⟨1, _⟩ => by show c.val = if (256 : Nat) = 1 then 0 else c.val; rw [if_neg (by decide)])

/-- The printed index maps over the grid: the two row-blocked windows and the output window move by whole row blocks,
    the weights and the bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The whole-array function the blocks restrict: `Net.sage` of the five arrays the region finds. -/
abbrev G (c : Dev nD) : S100000x256.Idx → EReal :=
  Cert.Net.sage (M := 100000) (Ka := 256) (Kb := 256) (H := 256) (V c (Pipeline.arrRef spec3 0)) (V c (Pipeline.arrRef spec3 1))
    (V c (Pipeline.arrRef spec3 2)) (V c (Pipeline.arrRef spec3 3)) (fun j => V c (Pipeline.arrRef spec3 4) (ix2 (0 : Fin 1) j))

/-- WHAT POINT `t` WRITES BACK is block `t` of `G`. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S4000x256) hz, View.ld_unit_zero (S := S4000x256) hz, View.ld_unit_zero (S := S256x256) hz, View.ld_unit_zero (S := S256x256) hz, View.ld_unit_zero (S := S1x256) hz]
  obtain ⟨e0, e1, e2, e3, e4, e5, e6, e7, e8, e9, e10, e11⟩ := idx_facts t
  funext j
  obtain ⟨r, q, rfl⟩ : ∃ (r : Fin 4000) (q : Fin 256), j = ix2 r q := ⟨j 0, j 1, eq_ix2 j⟩
  refine (pay_apply _ _ _ _ _ r q).trans ?_
  have hr : t.val * 4000 + r.val < 100000 := by
    have h1 : t.val < 25 := lt_of_lt_of_eq t.isLt N_3
    have h2 := r.isLt; omega
  have hout : ((cfg3.win 5).blk t).view.emb (ix2 r q) = ix2 (⟨t.val * 4000 + r.val, hr⟩ : Fin 100000) q := by
    funext a; apply Fin.ext
    match a with
    | ⟨0, _⟩ => show win3_5.index t (0 : Fin 2) * 4000 + 1 * r.val = t.val * 4000 + r.val; omega
    | ⟨1, _⟩ => show win3_5.index t (1 : Fin 2) * 256 + 1 * q.val = q.val; omega
  show _ = G V c (((cfg3.win 5).blk t).view.emb (ix2 r q))
  rw [hout]
  refine Eq.trans ?_ (Cert.Net.sage_apply (M := 100000) (Ka := 256) (Kb := 256) (H := 256) (V c (Pipeline.arrRef spec3 0)) (V c (Pipeline.arrRef spec3 1))
    (V c (Pipeline.arrRef spec3 2)) (V c (Pipeline.arrRef spec3 3)) (fun j => V c (Pipeline.arrRef spec3 4) (ix2 (0 : Fin 1) j)) ⟨t.val * 4000 + r.val, hr⟩ q).symm
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · show V c (Pipeline.arrRef spec3 0) (((cfg3.win 0).blk t).view.emb (ix2 r k)) = _
    refine congrArg _ ?_
    funext a; apply Fin.ext
    match a with
    | ⟨0, _⟩ => show win3_0.index t (0 : Fin 2) * 4000 + 1 * r.val = t.val * 4000 + r.val; omega
    | ⟨1, _⟩ => show win3_0.index t (1 : Fin 2) * 256 + 1 * k.val = k.val; omega
  · show V c (Pipeline.arrRef spec3 2) (((cfg3.win 2).blk t).view.emb (ix2 k q)) = _
    refine congrArg _ ?_
    funext a; apply Fin.ext
    match a with
    | ⟨0, _⟩ => show win3_2.index t (0 : Fin 2) * 256 + 1 * k.val = k.val; omega
    | ⟨1, _⟩ => show win3_2.index t (1 : Fin 2) * 256 + 1 * q.val = q.val; omega
  · show V c (Pipeline.arrRef spec3 1) (((cfg3.win 1).blk t).view.emb (ix2 r k)) = _
    refine congrArg _ ?_
    funext a; apply Fin.ext
    match a with
    | ⟨0, _⟩ => show win3_1.index t (0 : Fin 2) * 4000 + 1 * r.val = t.val * 4000 + r.val; omega
    | ⟨1, _⟩ => show win3_1.index t (1 : Fin 2) * 256 + 1 * k.val = k.val; omega
  · show V c (Pipeline.arrRef spec3 3) (((cfg3.win 3).blk t).view.emb (ix2 k q)) = _
    refine congrArg _ ?_
    funext a; apply Fin.ext
    match a with
    | ⟨0, _⟩ => show win3_3.index t (0 : Fin 2) * 256 + 1 * k.val = k.val; omega
    | ⟨1, _⟩ => show win3_3.index t (1 : Fin 2) * 256 + 1 * q.val = q.val; omega
  · show V c (Pipeline.arrRef spec3 4) (((cfg3.win 4).blk t).view.emb (ix2 (0 : Fin 1) q)) = _
    refine congrArg _ ?_
    funext a; apply Fin.ext
    match a with
    | ⟨0, _⟩ => show win3_4.index t (0 : Fin 2) * 1 + 1 * 0 = 0; omega
    | ⟨1, _⟩ => show win3_4.index t (1 : Fin 2) * 256 + 1 * q.val = q.val; omega

/-- An index of the array is in point `t`'s block iff each coordinate is in the block's range on its axis. -/
theorem mem_blk (t : Fin cfg3.N) (i : S100000x256.Idx) :
    i ∈ ((cfg3.win 5).blk t).view.set ↔ ∀ a : Fin 2, win3_5.index t a * S4000x256.size a ≤ (i a).val ∧ (i a).val < win3_5.index t a * S4000x256.size a + S4000x256.size a := by
  show i ∈ ((View.whole main_v91).slice (win3_5.rect t)).set ↔ _
  rw [View.set_slice_whole, Rect.mem_set_unit]
  exact Iff.rfl

/-- Every index of the array lies in the block of the point its row falls in. -/
theorem cover (i : S100000x256.Idx) : ∃ t : Fin cfg3.N, (cfg3.win 5).flush t = true ∧ i ∈ ((cfg3.win 5).blk t).view.set := by
  have hi0 : (i 0).val < 100000 := (i 0).isLt
  have hi1 : (i 1).val < 256 := (i 1).isLt
  have hN : cfg3.N = 25 := N_3
  let t : Fin cfg3.N := ⟨(i 0).val / 4000, by rw [hN]; omega⟩
  obtain ⟨e0, e1, e2, e3, e4, e5, e6, e7, e8, e9, e10, e11⟩ := idx_facts t
  have ht : t.val = (i 0).val / 4000 := rfl
  refine ⟨t, flush3_5 t, ?_⟩
  rw [mem_blk]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 256 ≤ (i 1).val ∧ (i 1).val < win3_5.index t (1 : Fin 2) * 256 + 256; omega

/-- THE OUTPUT ARRAY when the region is left: the combine step of the arrays the region found. -/
theorem final (c : Dev nD) : (dat3 V c).arrAt 5 cfg3.N = G V c :=
  (dat3 V c).arrAt_eq_of_cover 5 (G V c) (fun t _ => flushed_eq V c t) (cover)

end Cert.KernelIdeal.Region3

end
-- ==== Proof.Region4.lean ====
/-
  Region 4 (a linear layer, `A·W + bias`, over 25 row blocks of 4000): what the output array holds when the region is
  left, as one function of the arrays the region finds. Point `t` loads rows `4000·t … 4000·t+3999` of `A`, the whole
  weight and the whole bias row, and writes back rows `4000·t …` of the result; entry `(r, c)` of a block depends on row
  `r` of the `A` block only, so the blocks are the restrictions of ONE whole-array function, `Net.lin`, and they tile
  the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region4

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: row `r` of the loaded `A` block against column `c` of the
    weight, plus the bias at `c`. -/
theorem pay_apply (x0 : Vec Ideal S4000x256 .f32) (x1 : Vec Ideal S256x256 .f32) (x2 : Vec Ideal S1x256 .f32)
    (r : Fin 4000) (c : Fin 256) :
    k4_pay1 (F := Ideal) x0 x1 x2 (ix2 r c) = (∑ k : Fin 256, x0 (ix2 r k) * x1 (ix2 k c)) + x2 (ix2 (0 : Fin 1) c) := by
  unfold k4_pay1
  simp only [shapeCast_self]
  refine (addf_apply _ _ _).trans ?_
  refine congrArg₂ (· + ·) (mm_dot_S4000x256_S256x256_S4000x256_1_0_0_1_n_n _ _ r c) ?_
  exact broadcastTo_apply _ broadcasts_S1x256_S4000x256 (ix2 r c) (ix2 (0 : Fin 1) c) (fun a => match a with
    | ⟨0, _⟩ => by show (0 : Nat) = if (1 : Nat) = 1 then 0 else _; rw [if_pos rfl]
    | ⟨1, _⟩ => by show c.val = if (256 : Nat) = 1 then 0 else c.val; rw [if_neg (by decide)])

/-- The printed index maps over the grid: the `A` window and the output window move by whole row blocks, the weight and
    the bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The whole-array function the blocks restrict: `Net.lin` of the three arrays the region finds. -/
abbrev G (c : Dev nD) : S100000x256.Idx → EReal :=
  Cert.Net.lin (M := 100000) (K := 256) (H := 256) (V c (Pipeline.arrRef spec4 0)) (V c (Pipeline.arrRef spec4 1))
    (fun j => V c (Pipeline.arrRef spec4 2) (ix2 (0 : Fin 1) j))

/-- WHAT POINT `t` WRITES BACK is block `t` of `G`. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S4000x256) hz, View.ld_unit_zero (S := S256x256) hz, View.ld_unit_zero (S := S1x256) hz]
  obtain ⟨e0, e1, e2, e3, e4, e5, e6, e7⟩ := idx_facts t
  funext j
  obtain ⟨r, q, rfl⟩ : ∃ (r : Fin 4000) (q : Fin 256), j = ix2 r q := ⟨j 0, j 1, eq_ix2 j⟩
  refine (pay_apply _ _ _ r q).trans ?_
  have hr : t.val * 4000 + r.val < 100000 := by
    have h1 : t.val < 25 := lt_of_lt_of_eq t.isLt N_4
    have h2 := r.isLt; omega
  have hout : ((cfg4.win 3).blk t).view.emb (ix2 r q) = ix2 (⟨t.val * 4000 + r.val, hr⟩ : Fin 100000) q := by
    funext a; apply Fin.ext
    match a with
    | ⟨0, _⟩ => show win4_3.index t (0 : Fin 2) * 4000 + 1 * r.val = t.val * 4000 + r.val; omega
    | ⟨1, _⟩ => show win4_3.index t (1 : Fin 2) * 256 + 1 * q.val = q.val; omega
  show _ = G V c (((cfg4.win 3).blk t).view.emb (ix2 r q))
  rw [hout]
  refine Eq.trans ?_ (Cert.Net.lin_apply (M := 100000) (K := 256) (H := 256) (V c (Pipeline.arrRef spec4 0)) (V c (Pipeline.arrRef spec4 1))
    (fun j => V c (Pipeline.arrRef spec4 2) (ix2 (0 : Fin 1) j)) ⟨t.val * 4000 + r.val, hr⟩ q).symm
  refine congrArg₂ (· + ·) (Finset.sum_congr rfl fun k _ => congrArg₂ (· * ·) ?_ ?_) ?_
  · show V c (Pipeline.arrRef spec4 0) (((cfg4.win 0).blk t).view.emb (ix2 r k)) = _
    refine congrArg _ ?_
    funext a; apply Fin.ext
    match a with
    | ⟨0, _⟩ => show win4_0.index t (0 : Fin 2) * 4000 + 1 * r.val = t.val * 4000 + r.val; omega
    | ⟨1, _⟩ => show win4_0.index t (1 : Fin 2) * 256 + 1 * k.val = k.val; omega
  · show V c (Pipeline.arrRef spec4 1) (((cfg4.win 1).blk t).view.emb (ix2 k q)) = _
    refine congrArg _ ?_
    funext a; apply Fin.ext
    match a with
    | ⟨0, _⟩ => show win4_1.index t (0 : Fin 2) * 256 + 1 * k.val = k.val; omega
    | ⟨1, _⟩ => show win4_1.index t (1 : Fin 2) * 256 + 1 * q.val = q.val; omega
  · show V c (Pipeline.arrRef spec4 2) (((cfg4.win 2).blk t).view.emb (ix2 (0 : Fin 1) q)) = _
    refine congrArg _ ?_
    funext a; apply Fin.ext
    match a with
    | ⟨0, _⟩ => show win4_2.index t (0 : Fin 2) * 1 + 1 * 0 = 0; omega
    | ⟨1, _⟩ => show win4_2.index t (1 : Fin 2) * 256 + 1 * q.val = q.val; omega

/-- An index of the array is in point `t`'s block iff each coordinate is in the block's range on its axis. -/
theorem mem_blk (t : Fin cfg4.N) (i : S100000x256.Idx) :
    i ∈ ((cfg4.win 3).blk t).view.set ↔ ∀ a : Fin 2, win4_3.index t a * S4000x256.size a ≤ (i a).val ∧ (i a).val < win4_3.index t a * S4000x256.size a + S4000x256.size a := by
  show i ∈ ((View.whole main_v94).slice (win4_3.rect t)).set ↔ _
  rw [View.set_slice_whole, Rect.mem_set_unit]
  exact Iff.rfl

/-- Every index of the array lies in the block of the point its row falls in. -/
theorem cover (i : S100000x256.Idx) : ∃ t : Fin cfg4.N, (cfg4.win 3).flush t = true ∧ i ∈ ((cfg4.win 3).blk t).view.set := by
  have hi0 : (i 0).val < 100000 := (i 0).isLt
  have hi1 : (i 1).val < 256 := (i 1).isLt
  have hN : cfg4.N = 25 := N_4
  let t : Fin cfg4.N := ⟨(i 0).val / 4000, by rw [hN]; omega⟩
  obtain ⟨e0, e1, e2, e3, e4, e5, e6, e7⟩ := idx_facts t
  have ht : t.val = (i 0).val / 4000 := rfl
  refine ⟨t, flush4_3 t, ?_⟩
  rw [mem_blk]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 256 ≤ (i 1).val ∧ (i 1).val < win4_3.index t (1 : Fin 2) * 256 + 256; omega

/-- THE OUTPUT ARRAY when the region is left: the linear layer of the arrays the region found. -/
theorem final (c : Dev nD) : (dat4 V c).arrAt 3 cfg4.N = G V c :=
  (dat4 V c).arrAt_eq_of_cover 3 (G V c) (fun t _ => flushed_eq V c t) (cover)

end Cert.KernelIdeal.Region4

end
-- ==== Proof.Region5.lean ====
/-
  Region 5 (a linear layer, `A·W + bias`, over 5 row blocks of 4000): what the output array holds when the region is
  left, as one function of the arrays the region finds. Point `t` loads rows `4000·t … 4000·t+3999` of `A`, the whole
  weight and the whole bias row, and writes back rows `4000·t …` of the result; entry `(r, c)` of a block depends on row
  `r` of the `A` block only, so the blocks are the restrictions of ONE whole-array function, `Net.lin`, and they tile
  the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region5

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: row `r` of the loaded `A` block against column `c` of the
    weight, plus the bias at `c`. -/
theorem pay_apply (x0 : Vec Ideal S4000x256 .f32) (x1 : Vec Ideal S256x256 .f32) (x2 : Vec Ideal S1x256 .f32)
    (r : Fin 4000) (c : Fin 256) :
    k5_pay1 (F := Ideal) x0 x1 x2 (ix2 r c) = (∑ k : Fin 256, x0 (ix2 r k) * x1 (ix2 k c)) + x2 (ix2 (0 : Fin 1) c) := by
  unfold k5_pay1
  simp only [shapeCast_self]
  refine (addf_apply _ _ _).trans ?_
  refine congrArg₂ (· + ·) (mm_dot_S4000x256_S256x256_S4000x256_1_0_0_1_n_n _ _ r c) ?_
  exact broadcastTo_apply _ broadcasts_S1x256_S4000x256 (ix2 r c) (ix2 (0 : Fin 1) c) (fun a => match a with
    | ⟨0, _⟩ => by show (0 : Nat) = if (1 : Nat) = 1 then 0 else _; rw [if_pos rfl]
    | ⟨1, _⟩ => by show c.val = if (256 : Nat) = 1 then 0 else c.val; rw [if_neg (by decide)])

/-- The printed index maps over the grid: the `A` window and the output window move by whole row blocks, the weight and
    the bias stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The whole-array function the blocks restrict: `Net.lin` of the three arrays the region finds. -/
abbrev G (c : Dev nD) : S20000x256.Idx → EReal :=
  Cert.Net.lin (M := 20000) (K := 256) (H := 256) (V c (Pipeline.arrRef spec5 0)) (V c (Pipeline.arrRef spec5 1))
    (fun j => V c (Pipeline.arrRef spec5 2) (ix2 (0 : Fin 1) j))

/-- WHAT POINT `t` WRITES BACK is block `t` of `G`. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S4000x256) hz, View.ld_unit_zero (S := S256x256) hz, View.ld_unit_zero (S := S1x256) hz]
  obtain ⟨e0, e1, e2, e3, e4, e5, e6, e7⟩ := idx_facts t
  funext j
  obtain ⟨r, q, rfl⟩ : ∃ (r : Fin 4000) (q : Fin 256), j = ix2 r q := ⟨j 0, j 1, eq_ix2 j⟩
  refine (pay_apply _ _ _ r q).trans ?_
  have hr : t.val * 4000 + r.val < 20000 := by
    have h1 : t.val < 5 := lt_of_lt_of_eq t.isLt N_5
    have h2 := r.isLt; omega
  have hout : ((cfg5.win 3).blk t).view.emb (ix2 r q) = ix2 (⟨t.val * 4000 + r.val, hr⟩ : Fin 20000) q := by
    funext a; apply Fin.ext
    match a with
    | ⟨0, _⟩ => show win5_3.index t (0 : Fin 2) * 4000 + 1 * r.val = t.val * 4000 + r.val; omega
    | ⟨1, _⟩ => show win5_3.index t (1 : Fin 2) * 256 + 1 * q.val = q.val; omega
  show _ = G V c (((cfg5.win 3).blk t).view.emb (ix2 r q))
  rw [hout]
  refine Eq.trans ?_ (Cert.Net.lin_apply (M := 20000) (K := 256) (H := 256) (V c (Pipeline.arrRef spec5 0)) (V c (Pipeline.arrRef spec5 1))
    (fun j => V c (Pipeline.arrRef spec5 2) (ix2 (0 : Fin 1) j)) ⟨t.val * 4000 + r.val, hr⟩ q).symm
  refine congrArg₂ (· + ·) (Finset.sum_congr rfl fun k _ => congrArg₂ (· * ·) ?_ ?_) ?_
  · show V c (Pipeline.arrRef spec5 0) (((cfg5.win 0).blk t).view.emb (ix2 r k)) = _
    refine congrArg _ ?_
    funext a; apply Fin.ext
    match a with
    | ⟨0, _⟩ => show win5_0.index t (0 : Fin 2) * 4000 + 1 * r.val = t.val * 4000 + r.val; omega
    | ⟨1, _⟩ => show win5_0.index t (1 : Fin 2) * 256 + 1 * k.val = k.val; omega
  · show V c (Pipeline.arrRef spec5 1) (((cfg5.win 1).blk t).view.emb (ix2 k q)) = _
    refine congrArg _ ?_
    funext a; apply Fin.ext
    match a with
    | ⟨0, _⟩ => show win5_1.index t (0 : Fin 2) * 256 + 1 * k.val = k.val; omega
    | ⟨1, _⟩ => show win5_1.index t (1 : Fin 2) * 256 + 1 * q.val = q.val; omega
  · show V c (Pipeline.arrRef spec5 2) (((cfg5.win 2).blk t).view.emb (ix2 (0 : Fin 1) q)) = _
    refine congrArg _ ?_
    funext a; apply Fin.ext
    match a with
    | ⟨0, _⟩ => show win5_2.index t (0 : Fin 2) * 1 + 1 * 0 = 0; omega
    | ⟨1, _⟩ => show win5_2.index t (1 : Fin 2) * 256 + 1 * q.val = q.val; omega

/-- An index of the array is in point `t`'s block iff each coordinate is in the block's range on its axis. -/
theorem mem_blk (t : Fin cfg5.N) (i : S20000x256.Idx) :
    i ∈ ((cfg5.win 3).blk t).view.set ↔ ∀ a : Fin 2, win5_3.index t a * S4000x256.size a ≤ (i a).val ∧ (i a).val < win5_3.index t a * S4000x256.size a + S4000x256.size a := by
  show i ∈ ((View.whole main_v97).slice (win5_3.rect t)).set ↔ _
  rw [View.set_slice_whole, Rect.mem_set_unit]
  exact Iff.rfl

/-- Every index of the array lies in the block of the point its row falls in. -/
theorem cover (i : S20000x256.Idx) : ∃ t : Fin cfg5.N, (cfg5.win 3).flush t = true ∧ i ∈ ((cfg5.win 3).blk t).view.set := by
  have hi0 : (i 0).val < 20000 := (i 0).isLt
  have hi1 : (i 1).val < 256 := (i 1).isLt
  have hN : cfg5.N = 5 := N_5
  let t : Fin cfg5.N := ⟨(i 0).val / 4000, by rw [hN]; omega⟩
  obtain ⟨e0, e1, e2, e3, e4, e5, e6, e7⟩ := idx_facts t
  have ht : t.val = (i 0).val / 4000 := rfl
  refine ⟨t, flush5_3 t, ?_⟩
  rw [mem_blk]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 256 ≤ (i 1).val ∧ (i 1).val < win5_3.index t (1 : Fin 2) * 256 + 256; omega

/-- THE OUTPUT ARRAY when the region is left: the linear layer of the arrays the region found. -/
theorem final (c : Dev nD) : (dat5 V c).arrAt 3 cfg5.N = G V c :=
  (dat5 V c).arrAt_eq_of_cover 3 (G V c) (fun t _ => flushed_eq V c t) (cover)

end Cert.KernelIdeal.Region5

end
-- ==== Proof.Region6.lean ====
/-
  Region 6 (the edge decoder, `relu (Z·W₁ + β₁)·W₂ + β₂`, over 50 row blocks of 4000 label edges): what the output array
  holds when the region is left, as one function of the arrays the region finds. Point `t` loads rows
  `4000·t … 4000·t+3999` of `Z`, both weights and both bias rows whole, and writes back the same rows of the result;
  entry `(r, c)` of a block depends on row `r` of the `Z` block only, so the blocks are the restrictions of ONE
  whole-array function, `Net.dec`, and they tile the array.
-/
import proofs.«146884_j5153960755634_1_alg».proof.Proof.Gen.KernelIdeal.Frame
import proofs.«146884_j5153960755634_1_alg».proof.Proof.MatmulAt
import proofs.«146884_j5153960755634_1_alg».proof.Proof.Spec
import Idealize.ShloMosaic.Lib.Pipeline.Value
import Idealize.ShloMosaic.Lib.ValueIdx

set_option maxRecDepth 16384

noncomputable section

open scoped BigOperators

namespace Cert.KernelIdeal.Region6

open Idealize.ShloMosaic Idealize.ShloMosaic.ValueIdx Idealize.ShloMosaic.TcCoe Idealize.SL.Sem
open Cert.KernelIdeal Cert.KernelIdeal.Gen Cert.KernelIdeal.MatmulAt
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(r, c)` of the block: the hidden row `relu (Z[r,:]·W₁ + β₁)` against column `c` of the
    second weight, plus the second bias at `c`. -/
theorem pay_apply (x0 : Vec Ideal S4000x512 .bf16) (x1 : Vec Ideal S512x256 .bf16) (x2 : Vec Ideal S1x256 .f32)
    (x3 : Vec Ideal S256x128 .bf16) (x4 : Vec Ideal S1x128 .f32) (r : Fin 4000) (c : Fin 128) :
    k6_pay1 (F := Ideal) x0 x1 x2 x3 x4 (ix2 r c)
      = (∑ j : Fin 256, max ((∑ k : Fin 512, x0 (ix2 r k) * x1 (ix2 k j)) + x2 (ix2 (0 : Fin 1) j)) 0 * x3 (ix2 j c)) + x4 (ix2 (0 : Fin 1) c) := by
  unfold k6_pay1
  simp only [shapeCast_self]
  refine (addf_apply _ _ _).trans ?_
  refine congrArg₂ (· + ·) ?_ ?_
  · refine (mm_dot_S4000x256_S256x128_S4000x128_1_0_0_1_n_n (φ₁ := .bf16) (φ₂ := .bf16) _ x3 r c).trans ?_
    refine Finset.sum_congr rfl fun j _ => congrArg₂ (· * ·) ?_ rfl
    refine (maximumf_apply _ _ (ix2 r j)).trans ?_
    refine congrArg₂ max ?_ Ideal.ofBits_zero_f32
    refine (addf_apply _ _ _).trans ?_
    refine congrArg₂ (· + ·) (mm_dot_S4000x512_S512x256_S4000x256_1_0_0_1_n_n (φ₁ := .bf16) (φ₂ := .bf16) x0 x1 r j) ?_
    exact broadcastTo_apply _ broadcasts_S1x256_S4000x256 (ix2 r j) (ix2 (0 : Fin 1) j) (fun a => match a with
      | ⟨0, _⟩ => by show (0 : Nat) = if (1 : Nat) = 1 then 0 else _; rw [if_pos rfl]
      | ⟨1, _⟩ => by show j.val = if (256 : Nat) = 1 then 0 else j.val; rw [if_neg (by decide)])
  · exact broadcastTo_apply _ broadcasts_S1x128_S4000x128 (ix2 r c) (ix2 (0 : Fin 1) c) (fun a => match a with
      | ⟨0, _⟩ => by show (0 : Nat) = if (1 : Nat) = 1 then 0 else _; rw [if_pos rfl]
      | ⟨1, _⟩ => by show c.val = if (128 : Nat) = 1 then 0 else c.val; rw [if_neg (by decide)])

/-- The printed index maps over the grid: the `Z` window and the output window move by whole row blocks, the weights
    and the biases stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Where window 0's block at point `t` sits in its array. -/
theorem emb0 (t : Fin cfg6.N) (r : Fin 4000) (k : Fin 512) (hr : t.val * 4000 + r.val < 200000)
    (hf : win6_0.index t (0 : Fin 2) = t.val ∧ win6_0.index t (1 : Fin 2) = 0
      ∧ win6_1.index t (0 : Fin 2) = 0 ∧ win6_1.index t (1 : Fin 2) = 0
      ∧ win6_2.index t (0 : Fin 2) = 0 ∧ win6_2.index t (1 : Fin 2) = 0
      ∧ win6_3.index t (0 : Fin 2) = 0 ∧ win6_3.index t (1 : Fin 2) = 0
      ∧ win6_4.index t (0 : Fin 2) = 0 ∧ win6_4.index t (1 : Fin 2) = 0
      ∧ win6_5.index t (0 : Fin 2) = t.val ∧ win6_5.index t (1 : Fin 2) = 0) :
    ((cfg6.win 0).blk t).view.emb (ix2 r k) = ix2 (⟨t.val * 4000 + r.val, hr⟩ : Fin 200000) k := by
  obtain ⟨e0, e1, e2, e3, e4, e5, e6, e7, e8, e9, e10, e11⟩ := hf
  funext a; apply Fin.ext
  match a with
  | ⟨0, _⟩ => show win6_0.index t (0 : Fin 2) * 4000 + 1 * r.val = t.val * 4000 + r.val; omega
  | ⟨1, _⟩ => show win6_0.index t (1 : Fin 2) * 512 + 1 * k.val = k.val; omega

/-- Where window 1's block at point `t` sits in its array. -/
theorem emb1 (t : Fin cfg6.N) (k : Fin 512) (j : Fin 256)
    (hf : win6_0.index t (0 : Fin 2) = t.val ∧ win6_0.index t (1 : Fin 2) = 0
      ∧ win6_1.index t (0 : Fin 2) = 0 ∧ win6_1.index t (1 : Fin 2) = 0
      ∧ win6_2.index t (0 : Fin 2) = 0 ∧ win6_2.index t (1 : Fin 2) = 0
      ∧ win6_3.index t (0 : Fin 2) = 0 ∧ win6_3.index t (1 : Fin 2) = 0
      ∧ win6_4.index t (0 : Fin 2) = 0 ∧ win6_4.index t (1 : Fin 2) = 0
      ∧ win6_5.index t (0 : Fin 2) = t.val ∧ win6_5.index t (1 : Fin 2) = 0) :
    ((cfg6.win 1).blk t).view.emb (ix2 k j) = ix2 k j := by
  obtain ⟨e0, e1, e2, e3, e4, e5, e6, e7, e8, e9, e10, e11⟩ := hf
  funext a; apply Fin.ext
  match a with
  | ⟨0, _⟩ => show win6_1.index t (0 : Fin 2) * 512 + 1 * k.val = k.val; omega
  | ⟨1, _⟩ => show win6_1.index t (1 : Fin 2) * 256 + 1 * j.val = j.val; omega

/-- Where window 2's block at point `t` sits in its array. -/
theorem emb2 (t : Fin cfg6.N) (j : Fin 256)
    (hf : win6_0.index t (0 : Fin 2) = t.val ∧ win6_0.index t (1 : Fin 2) = 0
      ∧ win6_1.index t (0 : Fin 2) = 0 ∧ win6_1.index t (1 : Fin 2) = 0
      ∧ win6_2.index t (0 : Fin 2) = 0 ∧ win6_2.index t (1 : Fin 2) = 0
      ∧ win6_3.index t (0 : Fin 2) = 0 ∧ win6_3.index t (1 : Fin 2) = 0
      ∧ win6_4.index t (0 : Fin 2) = 0 ∧ win6_4.index t (1 : Fin 2) = 0
      ∧ win6_5.index t (0 : Fin 2) = t.val ∧ win6_5.index t (1 : Fin 2) = 0) :
    ((cfg6.win 2).blk t).view.emb (ix2 (0 : Fin 1) j) = ix2 (0 : Fin 1) j := by
  obtain ⟨e0, e1, e2, e3, e4, e5, e6, e7, e8, e9, e10, e11⟩ := hf
  funext a; apply Fin.ext
  match a with
  | ⟨0, _⟩ => show win6_2.index t (0 : Fin 2) * 1 + 1 * 0 = 0; omega
  | ⟨1, _⟩ => show win6_2.index t (1 : Fin 2) * 256 + 1 * j.val = j.val; omega

/-- Where window 3's block at point `t` sits in its array. -/
theorem emb3 (t : Fin cfg6.N) (j : Fin 256) (q : Fin 128)
    (hf : win6_0.index t (0 : Fin 2) = t.val ∧ win6_0.index t (1 : Fin 2) = 0
      ∧ win6_1.index t (0 : Fin 2) = 0 ∧ win6_1.index t (1 : Fin 2) = 0
      ∧ win6_2.index t (0 : Fin 2) = 0 ∧ win6_2.index t (1 : Fin 2) = 0
      ∧ win6_3.index t (0 : Fin 2) = 0 ∧ win6_3.index t (1 : Fin 2) = 0
      ∧ win6_4.index t (0 : Fin 2) = 0 ∧ win6_4.index t (1 : Fin 2) = 0
      ∧ win6_5.index t (0 : Fin 2) = t.val ∧ win6_5.index t (1 : Fin 2) = 0) :
    ((cfg6.win 3).blk t).view.emb (ix2 j q) = ix2 j q := by
  obtain ⟨e0, e1, e2, e3, e4, e5, e6, e7, e8, e9, e10, e11⟩ := hf
  funext a; apply Fin.ext
  match a with
  | ⟨0, _⟩ => show win6_3.index t (0 : Fin 2) * 256 + 1 * j.val = j.val; omega
  | ⟨1, _⟩ => show win6_3.index t (1 : Fin 2) * 128 + 1 * q.val = q.val; omega

/-- Where window 4's block at point `t` sits in its array. -/
theorem emb4 (t : Fin cfg6.N) (q : Fin 128)
    (hf : win6_0.index t (0 : Fin 2) = t.val ∧ win6_0.index t (1 : Fin 2) = 0
      ∧ win6_1.index t (0 : Fin 2) = 0 ∧ win6_1.index t (1 : Fin 2) = 0
      ∧ win6_2.index t (0 : Fin 2) = 0 ∧ win6_2.index t (1 : Fin 2) = 0
      ∧ win6_3.index t (0 : Fin 2) = 0 ∧ win6_3.index t (1 : Fin 2) = 0
      ∧ win6_4.index t (0 : Fin 2) = 0 ∧ win6_4.index t (1 : Fin 2) = 0
      ∧ win6_5.index t (0 : Fin 2) = t.val ∧ win6_5.index t (1 : Fin 2) = 0) :
    ((cfg6.win 4).blk t).view.emb (ix2 (0 : Fin 1) q) = ix2 (0 : Fin 1) q := by
  obtain ⟨e0, e1, e2, e3, e4, e5, e6, e7, e8, e9, e10, e11⟩ := hf
  funext a; apply Fin.ext
  match a with
  | ⟨0, _⟩ => show win6_4.index t (0 : Fin 2) * 1 + 1 * 0 = 0; omega
  | ⟨1, _⟩ => show win6_4.index t (1 : Fin 2) * 128 + 1 * q.val = q.val; omega

/-- The whole-array function the blocks restrict: `Net.dec` of the five arrays the region finds. -/
abbrev G (c : Dev nD) : S200000x128.Idx → EReal :=
  Cert.Net.dec (E := 200000) (K := 512) (J := 256) (P := 128) (V c (Pipeline.arrRef spec6 0)) (V c (Pipeline.arrRef spec6 1))
    (fun j => V c (Pipeline.arrRef spec6 2) (ix2 (0 : Fin 1) j)) (V c (Pipeline.arrRef spec6 3)) (fun j => V c (Pipeline.arrRef spec6 4) (ix2 (0 : Fin 1) j))

/-- WHAT POINT `t` WRITES BACK is block `t` of `G`. -/
theorem flushed_eq (c : Dev nD) (t : Fin cfg6.N) :
    (dat6 V c).flushed 5 t = ((cfg6.win 5).blk t).view.read (Elt Ideal) (G V c) := by
  show (cfg6.win 5).cut (grid6.coords t) ((dat6 V c).after 5 t) = _
  rw [after6_5]
  unfold out6_5
  rw [View.canon_unit_zero hz]
  simp only [View.ld_unit_zero (S := S4000x512) hz, View.ld_unit_zero (S := S512x256) hz, View.ld_unit_zero (S := S1x256) hz, View.ld_unit_zero (S := S256x128) hz, View.ld_unit_zero (S := S1x128) hz]
  obtain ⟨e0, e1, e2, e3, e4, e5, e6, e7, e8, e9, e10, e11⟩ := idx_facts t
  funext j
  obtain ⟨r, q, rfl⟩ : ∃ (r : Fin 4000) (q : Fin 128), j = ix2 r q := ⟨j 0, j 1, eq_ix2 j⟩
  refine (pay_apply _ _ _ _ _ r q).trans ?_
  have hr : t.val * 4000 + r.val < 200000 := by
    have h1 : t.val < 50 := lt_of_lt_of_eq t.isLt N_6
    have h2 := r.isLt; omega
  have hout : ((cfg6.win 5).blk t).view.emb (ix2 r q) = ix2 (⟨t.val * 4000 + r.val, hr⟩ : Fin 200000) q := by
    funext a; apply Fin.ext
    match a with
    | ⟨0, _⟩ => show win6_5.index t (0 : Fin 2) * 4000 + 1 * r.val = t.val * 4000 + r.val; omega
    | ⟨1, _⟩ => show win6_5.index t (1 : Fin 2) * 128 + 1 * q.val = q.val; omega
  show _ = G V c (((cfg6.win 5).blk t).view.emb (ix2 r q))
  rw [hout]
  refine Eq.trans ?_ (Cert.Net.dec_apply (E := 200000) (K := 512) (J := 256) (P := 128) (V c (Pipeline.arrRef spec6 0)) (V c (Pipeline.arrRef spec6 1))
    (fun j => V c (Pipeline.arrRef spec6 2) (ix2 (0 : Fin 1) j)) (V c (Pipeline.arrRef spec6 3)) (fun j => V c (Pipeline.arrRef spec6 4) (ix2 (0 : Fin 1) j)) ⟨t.val * 4000 + r.val, hr⟩ q).symm
  refine congrArg₂ (· + ·) (Finset.sum_congr rfl fun j _ => congrArg₂ (· * ·) (congrArg₂ max (congrArg₂ (· + ·)
    (Finset.sum_congr rfl fun k _ => congrArg₂ (· * ·) ?_ ?_) ?_) rfl) ?_) ?_
  · exact congrArg _ (emb0 t r k hr (idx_facts t))
  · exact congrArg _ (emb1 t k j (idx_facts t))
  · exact congrArg _ (emb2 t j (idx_facts t))
  · exact congrArg _ (emb3 t j q (idx_facts t))
  · exact congrArg _ (emb4 t q (idx_facts t))

/-- An index of the array is in point `t`'s block iff each coordinate is in the block's range on its axis. -/
theorem mem_blk (t : Fin cfg6.N) (i : S200000x128.Idx) :
    i ∈ ((cfg6.win 5).blk t).view.set ↔ ∀ a : Fin 2, win6_5.index t a * S4000x128.size a ≤ (i a).val ∧ (i a).val < win6_5.index t a * S4000x128.size a + S4000x128.size a := by
  show i ∈ ((View.whole main_v128).slice (win6_5.rect t)).set ↔ _
  rw [View.set_slice_whole, Rect.mem_set_unit]
  exact Iff.rfl

/-- Every index of the array lies in the block of the point its row falls in. -/
theorem cover (i : S200000x128.Idx) : ∃ t : Fin cfg6.N, (cfg6.win 5).flush t = true ∧ i ∈ ((cfg6.win 5).blk t).view.set := by
  have hi0 : (i 0).val < 200000 := (i 0).isLt
  have hi1 : (i 1).val < 128 := (i 1).isLt
  have hN : cfg6.N = 50 := N_6
  let t : Fin cfg6.N := ⟨(i 0).val / 4000, by rw [hN]; omega⟩
  obtain ⟨e0, e1, e2, e3, e4, e5, e6, e7, e8, e9, e10, e11⟩ := idx_facts t
  have ht : t.val = (i 0).val / 4000 := rfl
  refine ⟨t, flush6_5 t, ?_⟩
  rw [mem_blk]
  intro a
  match a with
  | ⟨0, _⟩ => show win6_5.index t (0 : Fin 2) * 4000 ≤ (i 0).val ∧ (i 0).val < win6_5.index t (0 : Fin 2) * 4000 + 4000; omega
  | ⟨1, _⟩ => show win6_5.index t (1 : Fin 2) * 128 ≤ (i 1).val ∧ (i 1).val < win6_5.index t (1 : Fin 2) * 128 + 128; omega

/-- THE OUTPUT ARRAY when the region is left: the decoder of the arrays the region found. -/
theorem final (c : Dev nD) : (dat6 V c).arrAt 5 cfg6.N = G V c :=
  (dat6 V c).arrAt_eq_of_cover 5 (G V c) (fun t _ => flushed_eq V c t) (cover)

end Cert.KernelIdeal.Region6

end
-- ==== Proof.ArgsA.lean ====
/-
  The argument arrays at the boundaries between @main's segments. No host operation and no region writes an argument
  (a region reads one only through an input window, whose array it leaves as found), so at every boundary where a later
  stretch or region reads it, an argument's buffer still holds what the launch memory `m` held. One lemma per
  argument and boundary needed, each a walk back through the segments before it.
-/
import proofs.«146884_j5153960755634_1_alg».proof.Proof.Gen.KernelIdeal.Frame

set_option maxRecDepth 16384

noncomputable section

namespace Cert.KernelIdeal.Boundary

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem at3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem at1_arg1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem at2_arg1 : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := at1_arg1 m ρ c

theorem at2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem at4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := at2_arg2 m ρ c

theorem at6_arg2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := at4_arg2 m ρ c

theorem at2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem at4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := at2_arg3 m ρ c

theorem at6_arg3 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := at4_arg3 m ρ c

theorem at2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

theorem at2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

theorem at2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl

theorem at4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl

theorem at4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

theorem at4_arg14 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg14) := rfl

end Cert.KernelIdeal.Boundary

end
-- ==== Proof.ArgsB.lean ====
/-
  The argument arrays at the boundaries between @main's segments. No host operation and no region writes an argument
  (a region reads one only through an input window, whose array it leaves as found), so at every boundary where a later
  stretch or region reads it, an argument's buffer still holds what the launch memory `m` held. One lemma per
  argument and boundary needed, each a walk back through the segments before it.
-/
import proofs.«146884_j5153960755634_1_alg».proof.Proof.Gen.KernelIdeal.Frame

set_option maxRecDepth 16384

noncomputable section

namespace Cert.KernelIdeal.Boundary

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem at6_arg15 : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg15) := rfl

theorem at6_arg16 : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg16) := rfl

theorem at6_arg17 : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg17) := rfl

theorem at8_arg18 : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg18) := rfl

theorem at8_arg19 : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg19) := rfl

theorem at10_arg20 : W10 m ρ c (Proc.devRef .tc main_arg20) = m ((c : Thread nD τ).loc main_arg20) :=
  calc W10 m ρ c (Proc.devRef .tc main_arg20)
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg20) := rfl

theorem at10_arg21 : W10 m ρ c (Proc.devRef .tc main_arg21) = m ((c : Thread nD τ).loc main_arg21) :=
  calc W10 m ρ c (Proc.devRef .tc main_arg21)
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg21) := rfl

end Cert.KernelIdeal.Boundary

end
-- ==== Proof.ArgsC.lean ====
/-
  The argument arrays at the boundaries between @main's segments. No host operation and no region writes an argument
  (a region reads one only through an input window, whose array it leaves as found), so at every boundary where a later
  stretch or region reads it, an argument's buffer still holds what the launch memory `m` held. One lemma per
  argument and boundary needed, each a walk back through the segments before it.
-/
import proofs.«146884_j5153960755634_1_alg».proof.Proof.Gen.KernelIdeal.Frame

set_option maxRecDepth 16384

noncomputable section

namespace Cert.KernelIdeal.Boundary

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem at12_arg4 : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem at12_arg5 : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem at12_arg22 : W12 m ρ c (Proc.devRef .tc main_arg22) = m ((c : Thread nD τ).loc main_arg22) :=
  calc W12 m ρ c (Proc.devRef .tc main_arg22)
    _ = W11 m ρ c (Proc.devRef .tc main_arg22) := W12_of_ne m ρ c main_arg22 (by decide)
    _ = W10 m ρ c (Proc.devRef .tc main_arg22) := StableHlo.after_of_forall_not_mem (b := Proc.devRef .tc main_arg22) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg22) := W10_of_ne m ρ c main_arg22 (by decide)
    _ = W8 m ρ c (Proc.devRef .tc main_arg22) := StableHlo.after_of_forall_not_mem (b := Proc.devRef .tc main_arg22) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg22) := rfl

theorem at12_arg23 : W12 m ρ c (Proc.devRef .tc main_arg23) = m ((c : Thread nD τ).loc main_arg23) :=
  calc W12 m ρ c (Proc.devRef .tc main_arg23)
    _ = W11 m ρ c (Proc.devRef .tc main_arg23) := W12_of_ne m ρ c main_arg23 (by decide)
    _ = W10 m ρ c (Proc.devRef .tc main_arg23) := StableHlo.after_of_forall_not_mem (b := Proc.devRef .tc main_arg23) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg23) := W10_of_ne m ρ c main_arg23 (by decide)
    _ = W8 m ρ c (Proc.devRef .tc main_arg23) := StableHlo.after_of_forall_not_mem (b := Proc.devRef .tc main_arg23) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg23) := rfl

theorem at12_arg24 : W12 m ρ c (Proc.devRef .tc main_arg24) = m ((c : Thread nD τ).loc main_arg24) :=
  calc W12 m ρ c (Proc.devRef .tc main_arg24)
    _ = W11 m ρ c (Proc.devRef .tc main_arg24) := W12_of_ne m ρ c main_arg24 (by decide)
    _ = W10 m ρ c (Proc.devRef .tc main_arg24) := StableHlo.after_of_forall_not_mem (b := Proc.devRef .tc main_arg24) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg24) := W10_of_ne m ρ c main_arg24 (by decide)
    _ = W8 m ρ c (Proc.devRef .tc main_arg24) := StableHlo.after_of_forall_not_mem (b := Proc.devRef .tc main_arg24) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg24) := rfl

theorem at12_arg25 : W12 m ρ c (Proc.devRef .tc main_arg25) = m ((c : Thread nD τ).loc main_arg25) :=
  calc W12 m ρ c (Proc.devRef .tc main_arg25)
    _ = W11 m ρ c (Proc.devRef .tc main_arg25) := W12_of_ne m ρ c main_arg25 (by decide)
    _ = W10 m ρ c (Proc.devRef .tc main_arg25) := StableHlo.after_of_forall_not_mem (b := Proc.devRef .tc main_arg25) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg25) := W10_of_ne m ρ c main_arg25 (by decide)
    _ = W8 m ρ c (Proc.devRef .tc main_arg25) := StableHlo.after_of_forall_not_mem (b := Proc.devRef .tc main_arg25) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg25) := rfl

end Cert.KernelIdeal.Boundary

end
-- ==== Proof.RefStages.lean ====
/-
  The reference program, block by block, as the three functions of the common normal form.

  Each theorem reads one block of the reference (a combine step, a linear layer, or the edge decoder) at an index
  and identifies it with `sage`, `lin` or `dec` applied to the block's operand stages. The mean aggregations that
  feed the combine steps, and the gathered and joined rows that feed the decoder, stay unopened: they appear on both
  sides as the same stage terms.

  The only arithmetic fact used is that addition of extended reals is commutative and associative
  (`add_right_comm`): the program adds the bias to the first product and then the second product, the normal form adds
  the two products and then the bias. No finiteness is needed for that.
-/
import proofs.«146884_j5153960755634_1_alg».proof.Proof.Gen.ReferenceIdeal.Read
import proofs.«146884_j5153960755634_1_alg».proof.Proof.Spec

noncomputable section

open scoped BigOperators

namespace Cert.RefStages

open Cert.ReferenceIdeal Cert.ReferenceIdeal.Read Idealize.ShloMosaic Idealize.ShloMosaic.ValueIdx

/-- Two rank-two indices are equal when they agree on each of the two axes by computation. -/
local macro "axes2" : tactic =>
  `(tactic| (funext a; match a with | ⟨0, _⟩ => rfl | ⟨1, _⟩ => rfl))
/-- The same for rank-one indices. -/
local macro "axes1" : tactic =>
  `(tactic| (funext a; match a with | ⟨0, _⟩ => rfl))

/-! ## The three shapes of block, stated once over arbitrary arrays -/

/-- An array that reads, at every row and column, as `max ((A·Wl + β) + B·Wr) 0` is the combine step `sage A B Wl Wr β`.
    The hypothesis has the program's order of additions (bias after the first product); the normal form adds the
    two products first, and `(a + β) + b = (a + b) + β` in any commutative additive monoid. -/
theorem sage_of_apply {M Ka Kb H : Nat} (A : Cert.Net.Arr M Ka) (B : Cert.Net.Arr M Kb) (Wl : Cert.Net.Arr Ka H)
    (Wr : Cert.Net.Arr Kb H) (β : Fin H → EReal) (v : Cert.Net.Arr M H)
    (h : ∀ (r : Fin M) (c : Fin H), v (ix2 r c)
      = max (((∑ k : Fin Ka, A (ix2 r k) * Wl (ix2 k c)) + β c) + ∑ k : Fin Kb, B (ix2 r k) * Wr (ix2 k c)) 0) :
    v = Cert.Net.sage A B Wl Wr β := by
  funext i
  obtain ⟨r, c, rfl⟩ : ∃ (r : Fin M) (c : Fin H), i = ix2 r c := ⟨i 0, i 1, eq_ix2 i⟩
  rw [h, Cert.Net.sage_apply, add_right_comm]

/-- An array that reads, at every row and column, as `A·W + β` is the linear layer `lin A W β`. -/
theorem lin_of_apply {M K H : Nat} (A : Cert.Net.Arr M K) (W : Cert.Net.Arr K H) (β : Fin H → EReal) (v : Cert.Net.Arr M H)
    (h : ∀ (r : Fin M) (c : Fin H), v (ix2 r c) = (∑ k : Fin K, A (ix2 r k) * W (ix2 k c)) + β c) :
    v = Cert.Net.lin A W β := by
  funext i
  obtain ⟨r, c, rfl⟩ : ∃ (r : Fin M) (c : Fin H), i = ix2 r c := ⟨i 0, i 1, eq_ix2 i⟩
  rw [h, Cert.Net.lin_apply]

/-- The decoder is a linear layer, a relu, and a second linear layer: if `h` is `lin Z W₁ β₁`, then
    `(Σⱼ max (h[e,j]) 0 · W₂[j,c]) + β₂ c` is `dec Z W₁ β₁ W₂ β₂` at `(e, c)`. -/
theorem dec_of_lin {E K J P : Nat} (Z : Cert.Net.Arr E K) (W₁ : Cert.Net.Arr K J) (β₁ : Fin J → EReal)
    (W₂ : Cert.Net.Arr J P) (β₂ : Fin P → EReal) (e : Fin E) (c : Fin P) :
    (∑ j : Fin J, max (Cert.Net.lin Z W₁ β₁ (ix2 e j)) 0 * W₂ (ix2 j c)) + β₂ c = Cert.Net.dec Z W₁ β₁ W₂ β₂ (ix2 e c) := by
  rw [Cert.Net.dec_apply]
  refine congrArg (· + β₂ c) (Finset.sum_congr rfl fun j _ => ?_)
  rw [Cert.Net.lin_apply]

/-! ## The blocks of the reference program -/

/-- The first combine step on the 20000-row side: `%27 = relu ((%18 · %19 + bias) + %arg1 · %24)`, with `%19`, `%24` the transposed weights `%arg6`, `%arg8` and bias `%arg7`. -/
theorem R27 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) :
    Read.val_main_v27 (F := Ideal) x0 x1 x2 x3 x6 x7 x8
      = Cert.Net.sage (M := 20000) (Ka := 256) (Kb := 128) (H := 256) (Read.val_main_v18 (F := Ideal) x0 x2 x3) x1
          (Read.val_main_v19 (F := Ideal) x6) (Read.val_main_v24 (F := Ideal) x8) (fun c => x7 (ix1 c)) := by
  refine sage_of_apply _ _ _ _ _ _ fun r c => ?_
  rw [Read.val_main_v27_apply, Read.val_main_v26_apply, Read.val_main_v23_apply,
    Read.val_main_v20_apply, Read.val_main_v22_apply, Read.val_main_v21_apply, Read.val_main_v25_apply,
    Read.val_main_call0_v0_apply, Read.val_main_call0_cst_apply]
  rw [Ideal.maximumf_def, Ideal.addf_def, Ideal.addf_def, Ideal.ofBits_def, Ideal.ofBits_zero_f32]
  have hl : ∀ k : Fin 256, Read.lidx_main_v20 (ix2 r c) k = ix2 r k := fun k => by axes2
  have hr : ∀ k : Fin 256, Read.ridx_main_v20 (ix2 r c) k = ix2 k c := fun k => by axes2
  have hl' : ∀ k : Fin 128, Read.lidx_main_v25 (ix2 r c) k = ix2 r k := fun k => by axes2
  have hr' : ∀ k : Fin 128, Read.ridx_main_v25 (ix2 r c) k = ix2 k c := fun k => by axes2
  have hb : Read.idx_main_v21 (Read.idx_main_v22 (ix2 r c)) = ix1 c := by axes1
  simp only [hl, hr, hl', hr', hb]

/-- The first combine step on the 100000-row side: `%55 = relu ((%46 · %47 + bias) + %arg0 · %52)`, with `%47`, `%52` the transposed weights `%arg9`, `%arg11` and bias `%arg10`. -/
theorem R55 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x9 : (⟨S256x128, .f32⟩ : BufTy).Contents (Elt Ideal)) (x10 : (⟨S256, .f32⟩ : BufTy).Contents (Elt Ideal)) (x11 : (⟨S256x256, .f32⟩ : BufTy).Contents (Elt Ideal)) :
    Read.val_main_v55 (F := Ideal) x0 x1 x2 x3 x9 x10 x11
      = Cert.Net.sage (M := 100000) (Ka := 128) (Kb := 256) (H := 256) (Read.val_main_v46 (F := Ideal) x1 x2 x3) x0
          (Read.val_main_v47 (F := Ideal) x9) (Read.val_main_v52 (F := Ideal) x11) (fun c => x10 (ix1 c)) := by
  refine sage_of_apply _ _ _ _ _ _ fun r c => ?_
  rw [Read.val_main_v55_apply, Read.val_main_v54_apply, Read.val_main_v51_apply,
    Read.val_main_v48_apply, Read.val_main_v50_apply, Read.val_main_v49_apply, Read.val_main_v53_apply,
    Read.val_main_call1_v0_apply, Read.val_main_call1_cst_apply]
  rw [Ideal.maximumf_def, Ideal.addf_def, Ideal.addf_def, Ideal.ofBits_def, Ideal.ofBits_zero_f32]
  have hl : ∀ k : Fin 128, Read.lidx_main_v48 (ix2 r c) k = ix2 r k := fun k => by axes2
  have hr : ∀ k : Fin 128, Read.ridx_main_v48 (ix2 r c) k = ix2 k c := fun k => by axes2
  have hl' : ∀ k : Fin 256, Read.lidx_main_v53 (ix2 r c) k = ix2 r k := fun k => by axes2
  have hr' : ∀ k : Fin 256, Read.ridx_main_v53 (ix2 r c) k = ix2 k c := fun k => by axes2
  have hb : Read.idx_main_v49 (Read.idx_main_v50 (ix2 r c)) = ix1 c := by axes1
  simp only [hl, hr, hl', hr', hb]

/-- The second combine step on the 20000-row side: `%83 = relu ((%74 · %75 + bias) + %27 · %80)`, with `%75`, `%80` the transposed weights `%arg12`, `%arg14` and bias `%arg13`. -/
theorem R83 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x6 : (⟨S256x256, .f32⟩ : BufTy).Contents (Elt Ideal)) (x7 : (⟨S256, .f32⟩ : BufTy).Contents (Elt Ideal)) (x8 x9 : (⟨S256x128, .f32⟩ : BufTy).Contents (Elt Ideal)) (x10 : (⟨S256, .f32⟩ : BufTy).Contents (Elt Ideal)) (x11 x12 : (⟨S256x256, .f32⟩ : BufTy).Contents (Elt Ideal)) (x13 : (⟨S256, .f32⟩ : BufTy).Contents (Elt Ideal)) (x14 : (⟨S256x256, .f32⟩ : BufTy).Contents (Elt Ideal)) :
    Read.val_main_v83 (F := Ideal) x0 x1 x2 x3 x6 x7 x8 x9 x10 x11 x12 x13 x14
      = Cert.Net.sage (M := 20000) (Ka := 256) (Kb := 256) (H := 256) (Read.val_main_v74 (F := Ideal) x0 x1 x2 x3 x9 x10 x11) (Read.val_main_v27 (F := Ideal) x0 x1 x2 x3 x6 x7 x8)
          (Read.val_main_v75 (F := Ideal) x12) (Read.val_main_v80 (F := Ideal) x14) (fun c => x13 (ix1 c)) := by
  refine sage_of_apply _ _ _ _ _ _ fun r c => ?_
  rw [Read.val_main_v83_apply, Read.val_main_v82_apply, Read.val_main_v79_apply,
    Read.val_main_v76_apply, Read.val_main_v78_apply, Read.val_main_v77_apply, Read.val_main_v81_apply,
    Read.val_main_call2_v0_apply, Read.val_main_call2_cst_apply]
  rw [Ideal.maximumf_def, Ideal.addf_def, Ideal.addf_def, Ideal.ofBits_def, Ideal.ofBits_zero_f32]
  have hl : ∀ k : Fin 256, Read.lidx_main_v76 (ix2 r c) k = ix2 r k := fun k => by axes2
  have hr : ∀ k : Fin 256, Read.ridx_main_v76 (ix2 r c) k = ix2 k c := fun k => by axes2
  have hl' : ∀ k : Fin 256, Read.lidx_main_v81 (ix2 r c) k = ix2 r k := fun k => by axes2
  have hr' : ∀ k : Fin 256, Read.ridx_main_v81 (ix2 r c) k = ix2 k c := fun k => by axes2
  have hb : Read.idx_main_v77 (Read.idx_main_v78 (ix2 r c)) = ix1 c := by axes1
  simp only [hl, hr, hl', hr', hb]

/-- The second combine step on the 100000-row side: `%111 = relu ((%102 · %103 + bias) + %55 · %108)`, with `%103`, `%108` the transposed weights `%arg15`, `%arg17` and bias `%arg16`. -/
theorem R111 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x6 : (⟨S256x256, .f32⟩ : BufTy).Contents (Elt Ideal)) (x7 : (⟨S256, .f32⟩ : BufTy).Contents (Elt Ideal)) (x8 x9 : (⟨S256x128, .f32⟩ : BufTy).Contents (Elt Ideal)) (x10 : (⟨S256, .f32⟩ : BufTy).Contents (Elt Ideal)) (x11 x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v111 (F := Ideal) x0 x1 x2 x3 x6 x7 x8 x9 x10 x11 x15 x16 x17
      = Cert.Net.sage (M := 100000) (Ka := 256) (Kb := 256) (H := 256) (Read.val_main_v102 (F := Ideal) x0 x1 x2 x3 x6 x7 x8) (Read.val_main_v55 (F := Ideal) x0 x1 x2 x3 x9 x10 x11)
          (Read.val_main_v103 (F := Ideal) x15) (Read.val_main_v108 (F := Ideal) x17) (fun c => x16 (ix1 c)) := by
  refine sage_of_apply _ _ _ _ _ _ fun r c => ?_
  rw [Read.val_main_v111_apply, Read.val_main_v110_apply, Read.val_main_v107_apply,
    Read.val_main_v104_apply, Read.val_main_v106_apply, Read.val_main_v105_apply, Read.val_main_v109_apply,
    Read.val_main_call3_v0_apply, Read.val_main_call3_cst_apply]
  rw [Ideal.maximumf_def, Ideal.addf_def, Ideal.addf_def, Ideal.ofBits_def, Ideal.ofBits_zero_f32]
  have hl : ∀ k : Fin 256, Read.lidx_main_v104 (ix2 r c) k = ix2 r k := fun k => by axes2
  have hr : ∀ k : Fin 256, Read.ridx_main_v104 (ix2 r c) k = ix2 k c := fun k => by axes2
  have hl' : ∀ k : Fin 256, Read.lidx_main_v109 (ix2 r c) k = ix2 r k := fun k => by axes2
  have hr' : ∀ k : Fin 256, Read.ridx_main_v109 (ix2 r c) k = ix2 k c := fun k => by axes2
  have hb : Read.idx_main_v105 (Read.idx_main_v106 (ix2 r c)) = ix1 c := by axes1
  simp only [hl, hr, hl', hr', hb]

/-- The output projection on the 100000-row side: `%116 = %111 · %112 + bias`, with `%112` the transposed weight `%arg18` and bias `%arg19`. -/
theorem R116 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x6 : (⟨S256x256, .f32⟩ : BufTy).Contents (Elt Ideal)) (x7 : (⟨S256, .f32⟩ : BufTy).Contents (Elt Ideal)) (x8 x9 : (⟨S256x128, .f32⟩ : BufTy).Contents (Elt Ideal)) (x10 : (⟨S256, .f32⟩ : BufTy).Contents (Elt Ideal)) (x11 x15 : (⟨S256x256, .f32⟩ : BufTy).Contents (Elt Ideal)) (x16 : (⟨S256, .f32⟩ : BufTy).Contents (Elt Ideal)) (x17 x18 : (⟨S256x256, .f32⟩ : BufTy).Contents (Elt Ideal)) (x19 : (⟨S256, .f32⟩ : BufTy).Contents (Elt Ideal)) :
    Read.val_main_v116 (F := Ideal) x0 x1 x2 x3 x6 x7 x8 x9 x10 x11 x15 x16 x17 x18 x19
      = Cert.Net.lin (M := 100000) (K := 256) (H := 256) (Read.val_main_v111 (F := Ideal) x0 x1 x2 x3 x6 x7 x8 x9 x10 x11 x15 x16 x17) (Read.val_main_v112 (F := Ideal) x18) (fun c => x19 (ix1 c)) := by
  refine lin_of_apply _ _ _ _ fun r c => ?_
  rw [Read.val_main_v116_apply, Read.val_main_v113_apply, Read.val_main_v115_apply, Read.val_main_v114_apply,
    Ideal.addf_def]
  have hl : ∀ k : Fin 256, Read.lidx_main_v113 (ix2 r c) k = ix2 r k := fun k => by axes2
  have hr : ∀ k : Fin 256, Read.ridx_main_v113 (ix2 r c) k = ix2 k c := fun k => by axes2
  have hb : Read.idx_main_v114 (Read.idx_main_v115 (ix2 r c)) = ix1 c := by axes1
  simp only [hl, hr, hb]

/-- The output projection on the 20000-row side: `%121 = %83 · %117 + bias`, with `%117` the transposed weight `%arg20` and bias `%arg21`. -/
theorem R121 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x6 : (⟨S256x256, .f32⟩ : BufTy).Contents (Elt Ideal)) (x7 : (⟨S256, .f32⟩ : BufTy).Contents (Elt Ideal)) (x8 x9 : (⟨S256x128, .f32⟩ : BufTy).Contents (Elt Ideal)) (x10 : (⟨S256, .f32⟩ : BufTy).Contents (Elt Ideal)) (x11 x12 : (⟨S256x256, .f32⟩ : BufTy).Contents (Elt Ideal)) (x13 : (⟨S256, .f32⟩ : BufTy).Contents (Elt Ideal)) (x14 x20 : (⟨S256x256, .f32⟩ : BufTy).Contents (Elt Ideal)) (x21 : (⟨S256, .f32⟩ : BufTy).Contents (Elt Ideal)) :
    Read.val_main_v121 (F := Ideal) x0 x1 x2 x3 x6 x7 x8 x9 x10 x11 x12 x13 x14 x20 x21
      = Cert.Net.lin (M := 20000) (K := 256) (H := 256) (Read.val_main_v83 (F := Ideal) x0 x1 x2 x3 x6 x7 x8 x9 x10 x11 x12 x13 x14) (Read.val_main_v117 (F := Ideal) x20) (fun c => x21 (ix1 c)) := by
  refine lin_of_apply _ _ _ _ fun r c => ?_
  rw [Read.val_main_v121_apply, Read.val_main_v118_apply, Read.val_main_v120_apply, Read.val_main_v119_apply,
    Ideal.addf_def]
  have hl : ∀ k : Fin 256, Read.lidx_main_v118 (ix2 r c) k = ix2 r k := fun k => by axes2
  have hr : ∀ k : Fin 256, Read.ridx_main_v118 (ix2 r c) k = ix2 k c := fun k => by axes2
  have hb : Read.idx_main_v119 (Read.idx_main_v120 (ix2 r c)) = ix1 c := by axes1
  simp only [hl, hr, hb]

/-- The decoder's hidden layer before its relu: `%141 = %136 · %137 + bias`, with `%137` the transposed weight `%arg22` and bias `%arg23`. -/
theorem R141 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x4 x5 : (⟨S200000, .i32⟩ : BufTy).Contents (Elt Ideal)) (x6 : (⟨S256x256, .f32⟩ : BufTy).Contents (Elt Ideal)) (x7 : (⟨S256, .f32⟩ : BufTy).Contents (Elt Ideal)) (x8 x9 : (⟨S256x128, .f32⟩ : BufTy).Contents (Elt Ideal)) (x10 : (⟨S256, .f32⟩ : BufTy).Contents (Elt Ideal)) (x11 x12 : (⟨S256x256, .f32⟩ : BufTy).Contents (Elt Ideal)) (x13 : (⟨S256, .f32⟩ : BufTy).Contents (Elt Ideal)) (x14 x15 : (⟨S256x256, .f32⟩ : BufTy).Contents (Elt Ideal)) (x16 : (⟨S256, .f32⟩ : BufTy).Contents (Elt Ideal)) (x17 x18 : (⟨S256x256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256x512, .f32⟩ : BufTy).Contents (Elt Ideal)) (x23 : (⟨S256, .f32⟩ : BufTy).Contents (Elt Ideal)) :
    Read.val_main_v141 (F := Ideal) x0 x1 x2 x3 x4 x5 x6 x7 x8 x9 x10 x11 x12 x13 x14 x15 x16 x17 x18 x19 x20 x21 x22 x23
      = Cert.Net.lin (M := 200000) (K := 512) (H := 256) (Read.val_main_v136 (F := Ideal) x0 x1 x2 x3 x4 x5 x6 x7 x8 x9 x10 x11 x12 x13 x14 x15 x16 x17 x18 x19 x20 x21) (Read.val_main_v137 (F := Ideal) x22) (fun c => x23 (ix1 c)) := by
  refine lin_of_apply _ _ _ _ fun r c => ?_
  rw [Read.val_main_v141_apply, Read.val_main_v138_apply, Read.val_main_v140_apply, Read.val_main_v139_apply,
    Ideal.addf_def]
  have hl : ∀ k : Fin 512, Read.lidx_main_v138 (ix2 r c) k = ix2 r k := fun k => by axes2
  have hr : ∀ k : Fin 512, Read.ridx_main_v138 (ix2 r c) k = ix2 k c := fun k => by axes2
  have hb : Read.idx_main_v139 (Read.idx_main_v140 (ix2 r c)) = ix1 c := by axes1
  simp only [hl, hr, hb]

/-- The decoder's output, one number per edge: `%148 = reshape (relu %141 · %143 + bias)`, with `%143` the transposed
    weight `%arg24` (one column) and the one-element bias `%arg25`. Edge `e` of the result is row `e`, column `0` of
    `dec`: the reshape reads row `e / 1 = e`, and the hidden layer `%141` is the linear layer of `R141`. -/
theorem R148 (x0 : (⟨S100000x256, .f32⟩ : BufTy).Contents (Elt Ideal)) (x1 : (⟨S20000x128, .f32⟩ : BufTy).Contents (Elt Ideal)) (x2 x3 : (⟨S800000, .i32⟩ : BufTy).Contents (Elt Ideal)) (x4 x5 : (⟨S200000, .i32⟩ : BufTy).Contents (Elt Ideal)) (x6 : (⟨S256x256, .f32⟩ : BufTy).Contents (Elt Ideal)) (x7 : (⟨S256, .f32⟩ : BufTy).Contents (Elt Ideal)) (x8 x9 : (⟨S256x128, .f32⟩ : BufTy).Contents (Elt Ideal)) (x10 : (⟨S256, .f32⟩ : BufTy).Contents (Elt Ideal)) (x11 x12 : (⟨S256x256, .f32⟩ : BufTy).Contents (Elt Ideal)) (x13 : (⟨S256, .f32⟩ : BufTy).Contents (Elt Ideal)) (x14 x15 : (⟨S256x256, .f32⟩ : BufTy).Contents (Elt Ideal)) (x16 : (⟨S256, .f32⟩ : BufTy).Contents (Elt Ideal)) (x17 x18 : (⟨S256x256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256x512, .f32⟩ : BufTy).Contents (Elt Ideal)) (x23 : (⟨S256, .f32⟩ : BufTy).Contents (Elt Ideal)) (x24 : (⟨S1x256, .f32⟩ : BufTy).Contents (Elt Ideal)) (x25 : (⟨S1, .f32⟩ : BufTy).Contents (Elt Ideal)) (e : Fin 200000) :
    Read.val_main_v148 (F := Ideal) x0 x1 x2 x3 x4 x5 x6 x7 x8 x9 x10 x11 x12 x13 x14 x15 x16 x17 x18 x19 x20 x21 x22 x23 x24 x25 (ix1 e)
      = Cert.Net.dec (E := 200000) (K := 512) (J := 256) (P := 1) (Read.val_main_v136 (F := Ideal) x0 x1 x2 x3 x4 x5 x6 x7 x8 x9 x10 x11 x12 x13 x14 x15 x16 x17 x18 x19 x20 x21) (Read.val_main_v137 (F := Ideal) x22) (fun j => x23 (ix1 j))
          (Read.val_main_v143 (F := Ideal) x24) (fun _ => x25 (ix1 0)) (ix2 e 0) := by
  have hi : Read.idx_main_v148 (ix1 e) = ix2 e (0 : Fin 1) := funext fun a => by
    match a with
    | ⟨0, _⟩ => exact Fin.ext (Nat.div_one _)
    | ⟨1, _⟩ => rfl
  rw [Read.val_main_v148_apply, hi, Read.val_main_v147_apply, Read.val_main_v144_apply, Read.val_main_v146_apply,
    Read.val_main_v145_apply, Ideal.addf_def, ← dec_of_lin, ← R141 x0 x1 x2 x3 x4 x5 x6 x7 x8 x9 x10 x11 x12 x13 x14 x15 x16 x17 x18 x19 x20 x21 x22 x23]
  have hl : ∀ j : Fin 256, Read.lidx_main_v144 (ix2 e (0 : Fin 1)) j = ix2 e j := fun j => by axes2
  have hr : ∀ j : Fin 256, Read.ridx_main_v144 (ix2 e (0 : Fin 1)) j = ix2 j (0 : Fin 1) := fun j => by axes2
  have hb : Read.idx_main_v145 (Read.idx_main_v146 (ix2 e (0 : Fin 1))) = ix1 (0 : Fin 1) := by axes1
  have hz : ∀ i : S200000x256.Idx, Read.val_main_call4_v0 (F := Ideal) i = 0 := fun i => by
    rw [Read.val_main_call4_v0_apply, Read.val_main_call4_cst_apply, Ideal.ofBits_def, Ideal.ofBits_zero_f32]
  rw [hb]
  refine congrArg (· + x25 (ix1 (0 : Fin 1))) (Finset.sum_congr rfl fun j _ => ?_)
  rw [hl j, hr j, Read.val_main_v142_apply, Ideal.maximumf_def, hz]

end Cert.RefStages

end
-- ==== Proof.DecoderGlue.lean ====
/-
  The decoder's second weight and bias as the host prepares them for the kernel: the one row of the weight
  written into row 0 of a 128 × 256 array of zeros, transposed and narrowed; the one bias written into
  position 0 of 128 zeros, given a leading unit axis. Read at column 0 they are the original row and bias.

  * `scatter_set_apply`: a scatter whose body keeps the update, read at an operand index exactly one update
    index lands on, is that update's element;
  * `resultIdx?_eq_some` / `resultIdx?_some`: an update index lands on operand index `i` exactly when start plus
    window coordinate is `i`'s coordinate on every axis;
  * `wd2pad_apply`, `bd2pad_apply`: the two readings.
-/
import proofs.«146884_j5153960755634_1_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.DecoderGlue

open Idealize.ShloMosaic Idealize.ShloMosaic.ValueIdx

/-! ## Narrowing is the identity on the extended reals -/

theorem truncf_bf16_S200000x512 [Cert.KernelIdeal.Facts] (x : FVec Ideal Cert.KernelIdeal.S200000x512 .f32) :
    (truncf .bf16 x Cert.KernelIdeal.Facts₀.bitsLt_bf16_f32 : FVec Ideal Cert.KernelIdeal.S200000x512 .bf16) = x :=
  funext fun _ => rfl

theorem truncf_bf16_S512x256 [Cert.KernelIdeal.Facts] (x : FVec Ideal Cert.KernelIdeal.S512x256 .f32) :
    (truncf .bf16 x Cert.KernelIdeal.Facts₀.bitsLt_bf16_f32 : FVec Ideal Cert.KernelIdeal.S512x256 .bf16) = x :=
  funext fun _ => rfl

/-- The same at any shape. -/
theorem truncf_bf16_eq {s : Shape} (x : FVec Ideal s .f32) (h : FTy.bits .bf16 < FTy.bits .f32) :
    (truncf .bf16 x h : FVec Ideal s .bf16) = x :=
  funext fun _ => rfl

/-! ## Reading a scatter -/

/-- A scatter whose body keeps the update (a "set"), read at an operand index that exactly one update
    index lands on, is that update's element. The fold over the update indices changes the element at
    `i` only at the steps that land on `i`; all of them carry the update index `j`. -/
theorem scatter_set_apply {s si u : Shape} {w : Nat} {α : Type} (d : ScatterDims s si u) (x : s.Idx → α)
    (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  have key : ∀ (L : List (Fin u.numel)) (r : s.Idx → α),
      (L.foldl (fun r n =>
        match d.resultIdx? (u.rowMajor.symm n) idx with
        | some i => fun i' => if i' = i then (fun _ b => b) (r i) (upd (u.rowMajor.symm n)) else r i'
        | none => r) r) i = if u.rowMajor j ∈ L then upd j else r i := by
    intro L
    induction L with
    | nil => intro r; simp
    | cons n L ih =>
      intro r
      rw [List.foldl_cons, ih]
      by_cases hn : d.resultIdx? (u.rowMajor.symm n) idx = some i
      · have hnj : u.rowMajor.symm n = j := huniq _ hn
        have hn' : u.rowMajor j = n := by rw [← hnj]; exact Equiv.apply_symm_apply _ _
        rw [hn, hnj]
        simp only [if_true, hn', List.mem_cons, true_or]
        split <;> rfl
      · have hne : u.rowMajor j ≠ n := by
          intro h; apply hn; rw [← h, Equiv.symm_apply_apply]; exact hj
        have hstep : (match d.resultIdx? (u.rowMajor.symm n) idx with
            | some i => fun i' => if i' = i then (fun _ b => b) (r i) (upd (u.rowMajor.symm n)) else r i'
            | none => r) i = r i := by
          cases hres : d.resultIdx? (u.rowMajor.symm n) idx with
          | none => rfl
          | some i0 =>
            have : i ≠ i0 := fun h => hn (by rw [hres, h])
            simp only [if_neg this]
        rw [hstep]
        simp only [List.mem_cons, hne, false_or]
  exact (key (List.finRange u.numel) x).trans (if_pos (List.mem_finRange _))

/-- An update index lands on operand index `i` when, on every axis, start plus window coordinate is `i`'s coordinate. -/
theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  have hb : ∀ a, 0 ≤ d.start j idx a + (d.window j a : Int) ∧ d.start j idx a + (d.window j a : Int) < s.size a := by
    intro a; rw [h a]; exact ⟨Int.natCast_nonneg _, by exact_mod_cast (i a).isLt⟩
  rw [dif_pos hb]
  refine congrArg some (funext fun a => Fin.ext ?_)
  show (d.start j idx a + (d.window j a : Int)).toNat = (i a).val
  rw [h a, Int.toNat_natCast]

/-- Conversely: where an update index lands, start plus window coordinate is the coordinate on every axis. -/
theorem resultIdx?_some {s si u : Shape} {w : Nat} (d : ScatterDims s si u) (j : u.Idx) (idx : IVec si w) (i : s.Idx)
    (h : d.resultIdx? j idx = some i) (a : Fin s.rank) : d.start j idx a + (d.window j a : Int) = ((i a).val : Int) := by
  unfold ScatterDims.resultIdx? at h
  split at h
  · rename_i hb
    have hi := Option.some.inj h
    rw [← hi]
    show d.start j idx a + (d.window j a : Int) = (((d.start j idx a + (d.window j a : Int)).toNat : Nat) : Int)
    rw [Int.toNat_of_nonneg (hb a).1]
  · cases h

/-- Over scatter indices that are all the word zero, every window starts at the origin. -/
theorem start_eq_zero {s si u : Shape} {w : Nat} (d : ScatterDims s si u) (j : u.Idx) (idx : IVec si w)
    (h0 : ∀ k, (idx k).toInt = 0) (a : Fin s.rank) : d.start j idx a = 0 := by
  unfold ScatterDims.start
  split
  · exact h0 _
  · rfl

open Cert.KernelIdeal

variable [Facts]
open Facts₀ Facts

/-! ## The weight -/

/-- The decoder's second weight as the kernel receives it: row 0 of a 128 × 256 array of zeros set to the weight's
    one row, the array transposed and narrowed. -/
def wd2pad (x24 : FVec Ideal S1x256 .f32) : FVec Ideal S256x128 .bf16 :=
  truncf .bf16
    (transpose S256x128 [1, 0]
      (Host.scatter scatter_S128x256_S1_S256_0_0_0_0 (fun _ b => b)
        (broadcastInDim S128x256 ![] bcast_S_S128x256 (constant (F := Ideal) S_ .f32 0x00000000#32))
        (broadcastInDim S1 ![] bcast_S_S1 (constantI S_ 32 0#32))
        (shapeCast S256 x24 shapeCasts_S1x256_S256))
      transposes_S128x256_S256x128_1_0)
    bitsLt_bf16_f32

theorem wd2_lands (c : Fin 256) (idx : IVec S1 32) (h0 : ∀ k, (idx k).toInt = 0) :
    scatter_S128x256_S1_S256_0_0_0_0.resultIdx? (ix1 c) idx = some (ix2 (0 : Fin 128) c) := by
  refine resultIdx?_eq_some _ _ _ _ fun a => ?_
  rw [start_eq_zero _ _ _ h0, Int.zero_add]
  match a with
  | ⟨0, _⟩ => rfl
  | ⟨1, _⟩ => rfl

theorem wd2_lands_only (c : Fin 256) (idx : IVec S1 32) (h0 : ∀ k, (idx k).toInt = 0) (j' : S256.Idx)
    (h : scatter_S128x256_S1_S256_0_0_0_0.resultIdx? j' idx = some (ix2 (0 : Fin 128) c)) : j' = ix1 c := by
  have h1 := resultIdx?_some _ _ _ _ h (1 : Fin 2)
  rw [start_eq_zero _ _ _ h0, Int.zero_add] at h1
  have h2 : ((j' 0).val : Int) = (c.val : Int) := h1
  rw [eq_ix1 j']
  exact congrArg ix1 (Fin.ext (by exact_mod_cast h2))

/-- Column 0 of the padded, transposed weight is the weight's one row. -/
theorem wd2pad_apply (x24 : FVec Ideal S1x256 .f32) (j : Fin 256) :
    wd2pad x24 (ix2 j (0 : Fin 128)) = x24 (ix2 (0 : Fin 1) j) := by
  unfold wd2pad
  refine (truncf_apply (ψ := FTy.bf16) _ bitsLt_bf16_f32 (ix2 j (0 : Fin 128))).trans ?_
  refine (transpose_ix2_apply _ _ j (0 : Fin 128)).trans ?_
  have h0 : ∀ k, ((broadcastInDim S1 ![] bcast_S_S1 (constantI S_ 32 0#32) : IVec S1 32) k).toInt = 0 := fun _ => rfl
  refine (scatter_set_apply _ _ _ _ (ix2 (0 : Fin 128) j) (ix1 j) (wd2_lands j _ h0) (wd2_lands_only j _ h0)).trans ?_
  exact shapeCast_1a_a_apply x24 _ j

/-! ## The bias -/

/-- The decoder's second bias as the kernel receives it: position 0 of 128 zeros set to the bias, with a leading
    unit axis. -/
def bd2pad (x25 : FVec Ideal S1 .f32) : FVec Ideal S1x128 .f32 :=
  shapeCast S1x128
    (Host.scatter scatter_S128_S1_S__n_0_0_0 (fun _ b => b)
      (broadcastInDim S128 ![] bcast_S_S128 (constant (F := Ideal) S_ .f32 0x00000000#32))
      (broadcastInDim S1 ![] bcast_S_S1 (constantI S_ 32 0#32))
      (shapeCast S_ x25 shapeCasts_S1_S_))
    shapeCasts_S128_S1x128

theorem bd2_lands (idx : IVec S1 32) (h0 : ∀ k, (idx k).toInt = 0) :
    scatter_S128_S1_S__n_0_0_0.resultIdx? ix0 idx = some (ix1 (0 : Fin 128)) := by
  refine resultIdx?_eq_some _ _ _ _ fun a => ?_
  rw [start_eq_zero _ _ _ h0, Int.zero_add]
  match a with
  | ⟨0, _⟩ => rfl

/-- Position 0 of the padded bias is the bias. -/
theorem bd2pad_apply (x25 : FVec Ideal S1 .f32) :
    bd2pad x25 (ix2 (0 : Fin 1) (0 : Fin 128)) = x25 (ix1 (0 : Fin 1)) := by
  unfold bd2pad
  refine (shapeCast_a_1a_apply _ _ (0 : Fin 1) (0 : Fin 128)).trans ?_
  have h0 : ∀ k, ((broadcastInDim S1 ![] bcast_S_S1 (constantI S_ 32 0#32) : IVec S1 32) k).toInt = 0 := fun _ => rfl
  refine (scatter_set_apply _ _ _ _ (ix1 (0 : Fin 128)) ix0 (bd2_lands _ h0) (fun j' _ => eq_ix0 j')).trans ?_
  refine shapeCast_apply x25 _ _ _ ?_
  have hn : S_.numel = 1 := Shape.numel_eq_one fun a => a.elim0
  have hlt := (S_.rowMajor ix0).isLt
  rw [Shape.rowMajor_val_one]
  show (0 : Nat) = (S_.rowMajor ix0).val
  omega

end Cert.DecoderGlue

end
-- ==== Proof.TailGlue.lean ====
/-
  Three small readings around the decoder.

  * `biasRow`: a bias of length 256 given a leading unit axis reads, at `(0, j)`, the bias at `j`;
  * `tail`: column 0 of the decoder's 200000 × 128 result, its unit axis dropped, reads at `e` the result at `(e, 0)`;
  * `dec_pad_col0`: the edge decoder with its second weight and bias padded to 128 columns agrees, on column 0,
    with the one-column decoder: column 0 of the padded weight is the weight's one row, position 0 of the padded
    bias the bias, and the other columns do not enter column 0 of the product.
-/
import proofs.«146884_j5153960755634_1_alg».proof.Proof.DecoderGlue
import proofs.«146884_j5153960755634_1_alg».proof.Proof.Gen.ReferenceIdeal.Read
import proofs.«146884_j5153960755634_1_alg».proof.Proof.Spec

noncomputable section

open scoped BigOperators

namespace Cert.TailGlue

open Idealize.ShloMosaic Idealize.ShloMosaic.ValueIdx

section Kernel

open Cert.KernelIdeal

variable [Cert.KernelIdeal.Facts]
open Cert.KernelIdeal.Facts₀ Cert.KernelIdeal.Facts

/-! ## A bias row -/

/-- A length-256 bias reshaped to one row of 256: the elements in row-major order under the new shape (the
    transport along the equality of the two element types is along `rfl`). -/
def biasRow (x : FVec Ideal S256 .f32) : FVec Ideal S1x256 .f32 :=
  fun i => @Eq.rec EltTy EltTy.f32 (fun a _ => Elt Ideal a) (shapeCast S1x256 x shapeCasts_S256_S1x256 i) EltTy.f32 rfl

theorem biasRow_eq (x : FVec Ideal S256 .f32) : biasRow x = shapeCast S1x256 x shapeCasts_S256_S1x256 := rfl

/-- The row reads the bias. -/
theorem biasRow_apply (x : FVec Ideal S256 .f32) (j : Fin 256) : biasRow x (ix2 (0 : Fin 1) j) = x (ix1 j) :=
  shapeCast_a_1a_apply x shapeCasts_S256_S1x256 (0 : Fin 1) j

/-! ## The result's tail -/

/-- Column 0 of the 200000 × 128 result, as a vector of 200000. -/
def tail (x : FVec Ideal S200000x128 .f32) : FVec Ideal S200000 .f32 :=
  fun i => @Eq.rec EltTy EltTy.f32 (fun a _ => Elt Ideal a)
    (shapeCast S200000 (extractStridedSlice S200000x1 ![0, 0] x slices_S200000x128_S200000x1_0_0) shapeCasts_S200000x1_S200000 i)
    EltTy.f32 rfl

theorem tail_eq (x : FVec Ideal S200000x128 .f32) :
    tail x = shapeCast S200000 (extractStridedSlice S200000x1 ![0, 0] x slices_S200000x128_S200000x1_0_0) shapeCasts_S200000x1_S200000 := rfl

/-- The tail reads column 0. -/
theorem tail_apply (x : FVec Ideal S200000x128 .f32) (e : Fin 200000) : tail x (ix1 e) = x (ix2 e (0 : Fin 128)) := by
  rw [tail_eq]
  refine (shapeCast_apply _ shapeCasts_S200000x1_S200000 (ix1 e) (ix2 e (0 : Fin 1)) ?_).trans ?_
  · rw [Shape.rowMajor_val_two, Shape.rowMajor_val_one]
    show e.val * 1 + 0 = e.val
    omega
  · refine (slice2_axis1_eq 0 x slices_S200000x128_S200000x1_0_0 e (0 : Fin 1)).trans ?_
    exact congrArg x (congrArg (ix2 e) (Fin.ext rfl))

end Kernel

/-! ## The padded decoder on column 0 -/

/-- The reference's transposed weight `[256, 1]` reads, at `(j, 0)`, the weight's one row at `j`. -/
theorem v143_apply [Cert.ReferenceIdeal.Facts] (x24 : FVec Ideal Cert.ReferenceIdeal.S1x256 .f32) (j : Fin 256) :
    Cert.ReferenceIdeal.Read.val_main_v143 (F := Ideal) x24 (ix2 j (0 : Fin 1)) = x24 (ix2 (0 : Fin 1) j) := by
  unfold Cert.ReferenceIdeal.Read.val_main_v143
  exact transpose_ix2_apply x24 _ j (0 : Fin 1)

theorem dec_pad_col0 [Cert.KernelIdeal.Facts] [Cert.ReferenceIdeal.Facts]
    (Z : Cert.Net.Arr 200000 512) (W1 : Cert.Net.Arr 512 256) (β1 : Fin 256 → EReal)
    (x24 : FVec Ideal Cert.KernelIdeal.S1x256 .f32) (x25 : FVec Ideal Cert.KernelIdeal.S1 .f32) (e : Fin 200000) :
    Cert.Net.dec (P := 128) Z W1 β1 (Cert.DecoderGlue.wd2pad x24) (fun c => Cert.DecoderGlue.bd2pad x25 (ix2 (0 : Fin 1) c))
        (ix2 e (0 : Fin 128))
      = Cert.Net.dec (P := 1) Z W1 β1 (Cert.ReferenceIdeal.Read.val_main_v143 (F := Ideal) x24) (fun _ => x25 (ix1 (0 : Fin 1)))
        (ix2 e (0 : Fin 1)) := by
  refine (Cert.Net.dec_apply (P := 128) Z W1 β1 _ _ e (0 : Fin 128)).trans ?_
  refine Eq.trans ?_ (Cert.Net.dec_apply (P := 1) Z W1 β1 _ _ e (0 : Fin 1)).symm
  refine congrArg₂ (· + ·) (Finset.sum_congr rfl fun j _ => ?_) (Cert.DecoderGlue.bd2pad_apply x25)
  refine congrArg (max ((∑ k : Fin 512, Z (ix2 e k) * W1 (ix2 k j)) + β1 j) 0 * ·) ?_
  exact (Cert.DecoderGlue.wd2pad_apply x24 j).trans (v143_apply x24 j).symm

end Cert.TailGlue

end
-- ==== Proof.Chain.lean ====
/-
  The idealized kernel's result, read back through @main. Walking the fold of @main's fifteen segments from the launch
  memory `m`: each host stretch is a function of the buffers before it — the mean aggregations (gather, scatter-add,
  count, divide), the weights' transposes and the biases' reshapes are, operation for operation, the reference's own
  stages —, and each region leaves in its output array the network function of its operands (`Net.sage`, `Net.lin`,
  `Net.dec`), which is the reference's stage block of the same operands. So buffer after buffer the kernel's
  intermediate arrays ARE the reference's stages of the arguments, up to the decoder, whose second weight the kernel
  pads to 128 columns of which the result keeps column 0.
-/
import proofs.«146884_j5153960755634_1_alg».proof.Proof.Gen.KernelIdeal.Frame
import proofs.«146884_j5153960755634_1_alg».proof.Proof.Gen.ReferenceIdeal.Read
import proofs.«146884_j5153960755634_1_alg».proof.Proof.Spec
import proofs.«146884_j5153960755634_1_alg».proof.Proof.Region0
import proofs.«146884_j5153960755634_1_alg».proof.Proof.Region1
import proofs.«146884_j5153960755634_1_alg».proof.Proof.Region2
import proofs.«146884_j5153960755634_1_alg».proof.Proof.Region3
import proofs.«146884_j5153960755634_1_alg».proof.Proof.Region4
import proofs.«146884_j5153960755634_1_alg».proof.Proof.Region5
import proofs.«146884_j5153960755634_1_alg».proof.Proof.Region6
import proofs.«146884_j5153960755634_1_alg».proof.Proof.ArgsA
import proofs.«146884_j5153960755634_1_alg».proof.Proof.ArgsB
import proofs.«146884_j5153960755634_1_alg».proof.Proof.ArgsC
import proofs.«146884_j5153960755634_1_alg».proof.Proof.RefStages
import proofs.«146884_j5153960755634_1_alg».proof.Proof.DecoderGlue
import proofs.«146884_j5153960755634_1_alg».proof.Proof.TailGlue
import Idealize.ShloMosaic.Lib.StableHlo.Run
import Idealize.ShloMosaic.Lib.ValueIdx

set_option maxRecDepth 16384

noncomputable section

namespace Cert.KernelIdeal.Boundary

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Layer 1, taxon side: the mean of the incident sotu rows, then the combine step (region 0) -/

theorem at1_v18 : W1 m ρ c (Proc.devRef .tc main_v18) = (Cert.ReferenceIdeal.Read.val_main_v18 (F := Ideal) (m ((c : Thread nD τ).loc main_arg0)) (m ((c : Thread nD τ).loc main_arg2)) (m ((c : Thread nD τ).loc main_arg3))) := by
  show StableHlo.after hostOps0 (W0 m ρ c) (Proc.devRef .tc main_v18) = _
  simp only [hostOps0]
  after_results_simp
  rfl
theorem at1_v19 : W1 m ρ c (Proc.devRef .tc main_v19) = (Cert.ReferenceIdeal.Read.val_main_v19 (F := Ideal) (m ((c : Thread nD τ).loc main_arg6))) := by
  show StableHlo.after hostOps0 (W0 m ρ c) (Proc.devRef .tc main_v19) = _
  simp only [hostOps0]
  after_results_simp
  rfl
theorem at1_v20 : W1 m ρ c (Proc.devRef .tc main_v20) = (Cert.ReferenceIdeal.Read.val_main_v24 (F := Ideal) (m ((c : Thread nD τ).loc main_arg8))) := by
  show StableHlo.after hostOps0 (W0 m ρ c) (Proc.devRef .tc main_v20) = _
  simp only [hostOps0]
  after_results_simp
  rfl
theorem at1_v21 : W1 m ρ c (Proc.devRef .tc main_v21) = Cert.TailGlue.biasRow (m ((c : Thread nD τ).loc main_arg7)) := by
  show StableHlo.after hostOps0 (W0 m ρ c) (Proc.devRef .tc main_v21) = _
  simp only [hostOps0]
  after_results_simp
  rfl
theorem at2_v22 : W2 m ρ c (Proc.devRef .tc main_v22) = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) :=
  (W2_arr m ρ c 5).trans ((Cert.KernelIdeal.Region0.final (V1 m ρ) c).trans
    ((Cert.Net.sage_congr (M := 20000) (Ka := 256) (Kb := 128) (H := 256) (at1_v18 m ρ c) (at1_arg1 m ρ c) (at1_v19 m ρ c) (at1_v20 m ρ c)
      (funext fun j => (congrFun (at1_v21 m ρ c) (ix2 (0 : Fin 1) j)).trans (Cert.TailGlue.biasRow_apply _ j))).trans
    (Cert.RefStages.R27 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))).symm))

/-! ## Layer 1, sotu side (region 1) -/

theorem at3_v41 : W3 m ρ c (Proc.devRef .tc main_v41) = (Cert.ReferenceIdeal.Read.val_main_v46 (F := Ideal) (m ((c : Thread nD τ).loc main_arg1)) (m ((c : Thread nD τ).loc main_arg2)) (m ((c : Thread nD τ).loc main_arg3))) := by
  show StableHlo.after hostOps1 (W2 m ρ c) (Proc.devRef .tc main_v41) = _
  simp only [hostOps1]
  after_results_simp
  simp only [at2_arg1 m ρ c, at2_arg2 m ρ c, at2_arg3 m ρ c]
  rfl
theorem at3_v42 : W3 m ρ c (Proc.devRef .tc main_v42) = (Cert.ReferenceIdeal.Read.val_main_v47 (F := Ideal) (m ((c : Thread nD τ).loc main_arg9))) := by
  show StableHlo.after hostOps1 (W2 m ρ c) (Proc.devRef .tc main_v42) = _
  simp only [hostOps1]
  after_results_simp
  simp only [at2_arg9 m ρ c]
  rfl
theorem at3_v43 : W3 m ρ c (Proc.devRef .tc main_v43) = (Cert.ReferenceIdeal.Read.val_main_v52 (F := Ideal) (m ((c : Thread nD τ).loc main_arg11))) := by
  show StableHlo.after hostOps1 (W2 m ρ c) (Proc.devRef .tc main_v43) = _
  simp only [hostOps1]
  after_results_simp
  simp only [at2_arg11 m ρ c]
  rfl
theorem at3_v44 : W3 m ρ c (Proc.devRef .tc main_v44) = Cert.TailGlue.biasRow (m ((c : Thread nD τ).loc main_arg10)) := by
  show StableHlo.after hostOps1 (W2 m ρ c) (Proc.devRef .tc main_v44) = _
  simp only [hostOps1]
  after_results_simp
  simp only [at2_arg10 m ρ c]
  rfl
theorem at4_v45 : W4 m ρ c (Proc.devRef .tc main_v45) = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) :=
  (W4_arr m ρ c 5).trans ((Cert.KernelIdeal.Region1.final (V3 m ρ) c).trans
    ((Cert.Net.sage_congr (M := 100000) (Ka := 128) (Kb := 256) (H := 256) (at3_v41 m ρ c) (at3_arg0 m ρ c) (at3_v42 m ρ c) (at3_v43 m ρ c)
      (funext fun j => (congrFun (at3_v44 m ρ c) (ix2 (0 : Fin 1) j)).trans (Cert.TailGlue.biasRow_apply _ j))).trans
    (Cert.RefStages.R55 (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))).symm))

/-! ## Layer 2, taxon side (region 2) -/

theorem at5_v64 : W5 m ρ c (Proc.devRef .tc main_v64) = (Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) := by
  show StableHlo.after hostOps2 (W4 m ρ c) (Proc.devRef .tc main_v64) = _
  simp only [hostOps2]
  after_results_simp
  simp only [at4_v45 m ρ c, at4_arg2 m ρ c, at4_arg3 m ρ c]
  rfl
theorem at5_v65 : W5 m ρ c (Proc.devRef .tc main_v65) = (Cert.ReferenceIdeal.Read.val_main_v75 (F := Ideal) (m ((c : Thread nD τ).loc main_arg12))) := by
  show StableHlo.after hostOps2 (W4 m ρ c) (Proc.devRef .tc main_v65) = _
  simp only [hostOps2]
  after_results_simp
  simp only [at4_arg12 m ρ c]
  rfl
theorem at5_v66 : W5 m ρ c (Proc.devRef .tc main_v66) = (Cert.ReferenceIdeal.Read.val_main_v80 (F := Ideal) (m ((c : Thread nD τ).loc main_arg14))) := by
  show StableHlo.after hostOps2 (W4 m ρ c) (Proc.devRef .tc main_v66) = _
  simp only [hostOps2]
  after_results_simp
  simp only [at4_arg14 m ρ c]
  rfl
theorem at5_v67 : W5 m ρ c (Proc.devRef .tc main_v67) = Cert.TailGlue.biasRow (m ((c : Thread nD τ).loc main_arg13)) := by
  show StableHlo.after hostOps2 (W4 m ρ c) (Proc.devRef .tc main_v67) = _
  simp only [hostOps2]
  after_results_simp
  simp only [at4_arg13 m ρ c]
  rfl
theorem at5_v22 : W5 m ρ c (Proc.devRef .tc main_v22) = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) :=
  calc W5 m ρ c (Proc.devRef .tc main_v22)
    _ = W4 m ρ c (Proc.devRef .tc main_v22) := StableHlo.after_of_forall_not_mem (b := Proc.devRef .tc main_v22) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v22) := W4_of_ne m ρ c main_v22 (by decide)
    _ = W2 m ρ c (Proc.devRef .tc main_v22) := StableHlo.after_of_forall_not_mem (b := Proc.devRef .tc main_v22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := at2_v22 m ρ c
theorem at6_v68 : W6 m ρ c (Proc.devRef .tc main_v68) = (Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (W6_arr m ρ c 5).trans ((Cert.KernelIdeal.Region2.final (V5 m ρ) c).trans
    ((Cert.Net.sage_congr (M := 20000) (Ka := 256) (Kb := 256) (H := 256) (at5_v64 m ρ c) (at5_v22 m ρ c) (at5_v65 m ρ c) (at5_v66 m ρ c)
      (funext fun j => (congrFun (at5_v67 m ρ c) (ix2 (0 : Fin 1) j)).trans (Cert.TailGlue.biasRow_apply _ j))).trans
    (Cert.RefStages.R83 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))).symm))

/-! ## Layer 2, sotu side (region 3) -/

theorem at6_v22 : W6 m ρ c (Proc.devRef .tc main_v22) = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) :=
  calc W6 m ρ c (Proc.devRef .tc main_v22)
    _ = W5 m ρ c (Proc.devRef .tc main_v22) := (W6_arr m ρ c 1).trans (((dat2 (V5 m ρ) c).arrAt_in 1 rfl _).trans (A_eq2 (V5 m ρ) c 1))
    _ = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := at5_v22 m ρ c
theorem at7_v87 : W7 m ρ c (Proc.devRef .tc main_v87) = (Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := by
  show StableHlo.after hostOps3 (W6 m ρ c) (Proc.devRef .tc main_v87) = _
  simp only [hostOps3]
  after_results_simp
  simp only [at6_v22 m ρ c, at6_arg2 m ρ c, at6_arg3 m ρ c]
  rfl
theorem at7_v88 : W7 m ρ c (Proc.devRef .tc main_v88) = (Cert.ReferenceIdeal.Read.val_main_v103 (F := Ideal) (m ((c : Thread nD τ).loc main_arg15))) := by
  show StableHlo.after hostOps3 (W6 m ρ c) (Proc.devRef .tc main_v88) = _
  simp only [hostOps3]
  after_results_simp
  simp only [at6_arg15 m ρ c]
  rfl
theorem at7_v89 : W7 m ρ c (Proc.devRef .tc main_v89) = (Cert.ReferenceIdeal.Read.val_main_v108 (F := Ideal) (m ((c : Thread nD τ).loc main_arg17))) := by
  show StableHlo.after hostOps3 (W6 m ρ c) (Proc.devRef .tc main_v89) = _
  simp only [hostOps3]
  after_results_simp
  simp only [at6_arg17 m ρ c]
  rfl
theorem at7_v90 : W7 m ρ c (Proc.devRef .tc main_v90) = Cert.TailGlue.biasRow (m ((c : Thread nD τ).loc main_arg16)) := by
  show StableHlo.after hostOps3 (W6 m ρ c) (Proc.devRef .tc main_v90) = _
  simp only [hostOps3]
  after_results_simp
  simp only [at6_arg16 m ρ c]
  rfl
theorem at7_v45 : W7 m ρ c (Proc.devRef .tc main_v45) = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) :=
  calc W7 m ρ c (Proc.devRef .tc main_v45)
    _ = W6 m ρ c (Proc.devRef .tc main_v45) := StableHlo.after_of_forall_not_mem (b := Proc.devRef .tc main_v45) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v45) := W6_of_ne m ρ c main_v45 (by decide)
    _ = W4 m ρ c (Proc.devRef .tc main_v45) := StableHlo.after_of_forall_not_mem (b := Proc.devRef .tc main_v45) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) := at4_v45 m ρ c
theorem at8_v91 : W8 m ρ c (Proc.devRef .tc main_v91) = (Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) :=
  (W8_arr m ρ c 5).trans ((Cert.KernelIdeal.Region3.final (V7 m ρ) c).trans
    ((Cert.Net.sage_congr (M := 100000) (Ka := 256) (Kb := 256) (H := 256) (at7_v87 m ρ c) (at7_v45 m ρ c) (at7_v88 m ρ c) (at7_v89 m ρ c)
      (funext fun j => (congrFun (at7_v90 m ρ c) (ix2 (0 : Fin 1) j)).trans (Cert.TailGlue.biasRow_apply _ j))).trans
    (Cert.RefStages.R111 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))).symm))

/-! ## The two output projections (regions 4 and 5) -/

theorem at9_v92 : W9 m ρ c (Proc.devRef .tc main_v92) = (Cert.ReferenceIdeal.Read.val_main_v112 (F := Ideal) (m ((c : Thread nD τ).loc main_arg18))) := by
  show StableHlo.after hostOps4 (W8 m ρ c) (Proc.devRef .tc main_v92) = _
  simp only [hostOps4]
  after_results_simp
  simp only [at8_arg18 m ρ c]
  rfl
theorem at9_v93 : W9 m ρ c (Proc.devRef .tc main_v93) = Cert.TailGlue.biasRow (m ((c : Thread nD τ).loc main_arg19)) := by
  show StableHlo.after hostOps4 (W8 m ρ c) (Proc.devRef .tc main_v93) = _
  simp only [hostOps4]
  after_results_simp
  simp only [at8_arg19 m ρ c]
  rfl
theorem at9_v91 : W9 m ρ c (Proc.devRef .tc main_v91) = (Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) :=
  calc W9 m ρ c (Proc.devRef .tc main_v91)
    _ = W8 m ρ c (Proc.devRef .tc main_v91) := StableHlo.after_of_forall_not_mem (b := Proc.devRef .tc main_v91) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) := at8_v91 m ρ c
theorem at10_v94 : W10 m ρ c (Proc.devRef .tc main_v94) = (Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19))) :=
  (W10_arr m ρ c 3).trans ((Cert.KernelIdeal.Region4.final (V9 m ρ) c).trans
    ((Cert.Net.lin_congr (M := 100000) (K := 256) (H := 256) (at9_v91 m ρ c) (at9_v92 m ρ c)
      (funext fun j => (congrFun (at9_v93 m ρ c) (ix2 (0 : Fin 1) j)).trans (Cert.TailGlue.biasRow_apply _ j))).trans
    (Cert.RefStages.R116 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19))).symm))
theorem at11_v95 : W11 m ρ c (Proc.devRef .tc main_v95) = (Cert.ReferenceIdeal.Read.val_main_v117 (F := Ideal) (m ((c : Thread nD τ).loc main_arg20))) := by
  show StableHlo.after hostOps5 (W10 m ρ c) (Proc.devRef .tc main_v95) = _
  simp only [hostOps5]
  after_results_simp
  simp only [at10_arg20 m ρ c]
  rfl
theorem at11_v96 : W11 m ρ c (Proc.devRef .tc main_v96) = Cert.TailGlue.biasRow (m ((c : Thread nD τ).loc main_arg21)) := by
  show StableHlo.after hostOps5 (W10 m ρ c) (Proc.devRef .tc main_v96) = _
  simp only [hostOps5]
  after_results_simp
  simp only [at10_arg21 m ρ c]
  rfl
theorem at11_v68 : W11 m ρ c (Proc.devRef .tc main_v68) = (Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  calc W11 m ρ c (Proc.devRef .tc main_v68)
    _ = W10 m ρ c (Proc.devRef .tc main_v68) := StableHlo.after_of_forall_not_mem (b := Proc.devRef .tc main_v68) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v68) := W10_of_ne m ρ c main_v68 (by decide)
    _ = W8 m ρ c (Proc.devRef .tc main_v68) := StableHlo.after_of_forall_not_mem (b := Proc.devRef .tc main_v68) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v68) := W8_of_ne m ρ c main_v68 (by decide)
    _ = W6 m ρ c (Proc.devRef .tc main_v68) := StableHlo.after_of_forall_not_mem (b := Proc.devRef .tc main_v68) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := at6_v68 m ρ c
theorem at12_v97 : W12 m ρ c (Proc.devRef .tc main_v97) = (Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg20)) (m ((c : Thread nD τ).loc main_arg21))) :=
  (W12_arr m ρ c 3).trans ((Cert.KernelIdeal.Region5.final (V11 m ρ) c).trans
    ((Cert.Net.lin_congr (M := 20000) (K := 256) (H := 256) (at11_v68 m ρ c) (at11_v95 m ρ c)
      (funext fun j => (congrFun (at11_v96 m ρ c) (ix2 (0 : Fin 1) j)).trans (Cert.TailGlue.biasRow_apply _ j))).trans
    (Cert.RefStages.R121 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg20)) (m ((c : Thread nD τ).loc main_arg21))).symm))

/-! ## The decoder (region 6): the endpoints' rows gathered and joined, the padded second weight -/

theorem at12_v94 : W12 m ρ c (Proc.devRef .tc main_v94) = (Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19))) :=
  calc W12 m ρ c (Proc.devRef .tc main_v94)
    _ = W11 m ρ c (Proc.devRef .tc main_v94) := W12_of_ne m ρ c main_v94 (by decide)
    _ = W10 m ρ c (Proc.devRef .tc main_v94) := StableHlo.after_of_forall_not_mem (b := Proc.devRef .tc main_v94) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19))) := at10_v94 m ρ c
theorem at13_v113 : (W13 m ρ c (Proc.devRef .tc main_v113) : Cert.Net.Arr 200000 512) = (Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  show StableHlo.after hostOps6 (W12 m ρ c) (Proc.devRef .tc main_v113) = _
  simp only [hostOps6]
  after_results_simp
  -- the joined rows, narrowed: equal operands give equal joins, and narrowing is the identity on the extended reals
  have key : ∀ (a a' b b' : (⟨S200000x256, .f32⟩ : BufTy).Contents (Elt Ideal)), a = a' → b = b' →
      (truncf (F := Ideal) .bf16 (concatenate S200000x512 1 [⟨S200000x256, a⟩, ⟨S200000x256, b⟩] concatenates_S200000x256_S200000x256_S200000x512_d1) bitsLt_bf16_f32 : Cert.Net.Arr 200000 512)
        = concatenate S200000x512 1 [⟨S200000x256, a'⟩, ⟨S200000x256, b'⟩] concatenates_S200000x256_S200000x256_S200000x512_d1 := by
    intro a a' b b' ha hb; subst ha hb; rfl
  refine (key _ (Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19))) _ (Cert.ReferenceIdeal.Read.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg20)) (m ((c : Thread nD τ).loc main_arg21))) ?_ ?_).trans rfl
  · after_results_simp
    simp only [at12_v94 m ρ c, at12_arg4 m ρ c]
    rfl
  · after_results_simp
    simp only [at12_v97 m ρ c, at12_arg5 m ρ c]
    rfl
theorem at13_v115 : (W13 m ρ c (Proc.devRef .tc main_v115) : Cert.Net.Arr 512 256) = (Cert.ReferenceIdeal.Read.val_main_v137 (F := Ideal) (m ((c : Thread nD τ).loc main_arg22))) := by
  show StableHlo.after hostOps6 (W12 m ρ c) (Proc.devRef .tc main_v115) = _
  simp only [hostOps6]
  after_results_simp
  simp only [at12_arg22 m ρ c]
  rfl
theorem at13_v126 : W13 m ρ c (Proc.devRef .tc main_v126) = Cert.TailGlue.biasRow (m ((c : Thread nD τ).loc main_arg23)) := by
  show StableHlo.after hostOps6 (W12 m ρ c) (Proc.devRef .tc main_v126) = _
  simp only [hostOps6]
  after_results_simp
  simp only [at12_arg23 m ρ c]
  rfl
theorem at13_v121 : W13 m ρ c (Proc.devRef .tc main_v121) = Cert.DecoderGlue.wd2pad (m ((c : Thread nD τ).loc main_arg24)) := by
  show StableHlo.after hostOps6 (W12 m ρ c) (Proc.devRef .tc main_v121) = _
  simp only [hostOps6]
  after_results_simp
  simp only [at12_arg24 m ρ c]
  rfl
theorem at13_v127 : W13 m ρ c (Proc.devRef .tc main_v127) = Cert.DecoderGlue.bd2pad (m ((c : Thread nD τ).loc main_arg25)) := by
  show StableHlo.after hostOps6 (W12 m ρ c) (Proc.devRef .tc main_v127) = _
  simp only [hostOps6]
  after_results_simp
  simp only [at12_arg25 m ρ c]
  rfl
theorem at14_v128 : W14 m ρ c (Proc.devRef .tc main_v128)
    = Cert.Net.dec (E := 200000) (K := 512) (J := 256) (P := 128) (Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) (Cert.ReferenceIdeal.Read.val_main_v137 (F := Ideal) (m ((c : Thread nD τ).loc main_arg22))) (fun j : Fin 256 => (m ((c : Thread nD τ).loc main_arg23)) (ix1 j))
        (Cert.DecoderGlue.wd2pad (m ((c : Thread nD τ).loc main_arg24))) (fun j => Cert.DecoderGlue.bd2pad (m ((c : Thread nD τ).loc main_arg25)) (ix2 (0 : Fin 1) j)) :=
  (W14_arr m ρ c 5).trans ((Cert.KernelIdeal.Region6.final (V13 m ρ) c).trans
    (Cert.Net.dec_congr (E := 200000) (K := 512) (J := 256) (P := 128) (at13_v113 m ρ c) (at13_v115 m ρ c)
      (funext fun j => (congrFun (at13_v126 m ρ c) (ix2 (0 : Fin 1) j)).trans (Cert.TailGlue.biasRow_apply _ j)) (at13_v121 m ρ c)
      (funext fun j => congrFun (at13_v127 m ρ c) (ix2 (0 : Fin 1) j))))

/-! ## The result: column 0 of the decoder's output, flattened -/

theorem at15_v130 : W15 m ρ c (Proc.devRef .tc main_v130) = Cert.TailGlue.tail (W14 m ρ c (Proc.devRef .tc main_v128)) := by
  show StableHlo.after hostOps7 (W14 m ρ c) (Proc.devRef .tc main_v130) = _
  simp only [hostOps7]
  after_results_simp
  rfl

/-- THE KERNEL'S RESULT is the reference's last stage of the same arguments. -/
theorem result_eq : (W15 m ρ c (Proc.devRef .tc main_v130) : S200000.Idx → EReal) = (Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  rw [at15_v130, at14_v128]
  funext i
  obtain ⟨e, rfl⟩ : ∃ e : Fin 200000, i = ix1 e := ⟨i 0, eq_ix1 i⟩
  refine (Cert.TailGlue.tail_apply _ e).trans ?_
  refine (Cert.TailGlue.dec_pad_col0 _ _ _ _ _ e).trans ?_
  exact (Cert.RefStages.R148 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) e).symm

end Cert.KernelIdeal.Boundary

end
-- ==== Proof.LibRunBoth.lean ====
/-
  Two facts about every weakly fair execution of one program from one state hold together.

  `θ_run defs p s Q` says: every weakly fair execution of `p` from the memory `s` is finite, never stuck, and ends in a
  final state satisfying `Q`. Termination and freedom from deadlock do not mention `Q`, and a final state reached
  satisfies each postcondition that every final state reached satisfies. So from the same program and the same state,
  `Q` and `Q'` may be concluded together (`θ_run_both`). This lets a value statement about a program be proved with
  only the NEW conjunct in its postcondition, and joined afterwards to a frame statement already in hand.
-/
import Idealize.ShloMosaic.Machine.Run

namespace Idealize.ShloMosaic

open Idealize.SL.Sem

variable {nD : Nat} {τ : Topo} {sig : RefSig} {Val : EltTy → Type} {Λ : Labels}

/-- Every weakly fair execution from `s₀` ends satisfying `Q`, and every one ends satisfying `Q'`: every one ends
    satisfying both. -/
theorem MeshRun.both {defs : Defs nD τ sig Val Λ} {Q Q' : MemSt nD τ sig Val → Prop} {s₀ : RunSt nD τ sig Val Λ}
    (h : MeshRun defs Q s₀) (h' : MeshRun defs Q' s₀) : MeshRun defs (fun m => Q m ∧ Q' m) s₀ :=
  ⟨fun t ht hf => ⟨h.post t ht hf, h'.post t ht hf⟩, h.progress, h.fair⟩

/-- The same for the observation of a loaded program. -/
theorem θ_run_both (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  MeshRun.both (Q := fun m' => Q (⟨⟩, m')) (Q' := fun m' => Q' (⟨⟩, m')) h h'

end Idealize.ShloMosaic
-- ==== Proof.lean ====
/-
  A two-layer heterogeneous GraphSAGE network with an edge decoder: the kernel program (seven pallas_calls among host
  stretches) against the plain reference, at the ideal instance.

  Both programs compute, from the same arguments, the same composition:
    mean of neighbour rows (gather, scatter-add, count, divide) → `relu (mean·Wl + own·Wr + b)`   (twice per node type),
    a linear projection per node type, the two endpoints' rows of each label edge gathered and joined,
    `relu (z·W₁ + b₁)·W₂ + b₂` per edge.
  The host stretches of the kernel program are, operation for operation, the reference's own operations. Each
  pallas_call leaves in its output array one whole-array function of its operand arrays (Proof/Region0 … Region6: the
  body's result at an entry, the blocks tiling the array), which is the reference's block of the same operands
  (Proof/RefStages): a change of float format is the identity on the extended reals, a block matrix product into a zero
  accumulator is the plain sum, and the two orders of adding the bias agree because addition of extended reals is
  commutative and associative — no finiteness of the inputs is used. The decoder's second weight, padded by the kernel
  program to 128 columns, contributes only its column 0 to the result (Proof/DecoderGlue, Proof/TailGlue). Proof/Chain
  walks @main's segments and identifies every intermediate array with the reference's stage of the arguments;
  Proof/KernelRun is the run itself, read at the result buffer.

  The three frames: the two kernel programs' are the generated frame certificates; the reference's is its generated run
  with the result dropped. The idealization rewrote nothing, so `preserves` is trivial.
-/
import proofs.«146884_j5153960755634_1_alg».proof.Defs
import proofs.«146884_j5153960755634_1_alg».proof.Proof.Gen.Kernel
import proofs.«146884_j5153960755634_1_alg».proof.Proof.Gen.Kernel.Skeleton
import proofs.«146884_j5153960755634_1_alg».proof.Proof.Gen.Kernel.Launch
import proofs.«146884_j5153960755634_1_alg».proof.Proof.Gen.Kernel.Points
import proofs.«146884_j5153960755634_1_alg».proof.Proof.Gen.Kernel.Frame
import proofs.«146884_j5153960755634_1_alg».proof.Proof.Gen.KernelIdeal
import proofs.«146884_j5153960755634_1_alg».proof.Proof.Gen.KernelIdeal.Skeleton
import proofs.«146884_j5153960755634_1_alg».proof.Proof.Gen.KernelIdeal.Launch
import proofs.«146884_j5153960755634_1_alg».proof.Proof.Gen.KernelIdeal.Points
import proofs.«146884_j5153960755634_1_alg».proof.Proof.Gen.KernelIdeal.Frame
import proofs.«146884_j5153960755634_1_alg».proof.Proof.Gen.ReferenceIdeal
import proofs.«146884_j5153960755634_1_alg».proof.Proof.Gen.Pre_finite_inputs
import proofs.«146884_j5153960755634_1_alg».proof.Proof.Gen.ReferenceIdeal.Run
import proofs.«146884_j5153960755634_1_alg».proof.Proof.Gen.ReferenceIdeal.Read
import proofs.«146884_j5153960755634_1_alg».proof.Proof.KernelRun
import proofs.«146884_j5153960755634_1_alg».proof.Proof.Chain
import proofs.«146884_j5153960755634_1_alg».proof.Proof.LibRunBoth
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the same result array: the reference's last
    stage of the arguments. -/
theorem algebraic : Cert.algebraic_KernelIdeal_ReferenceIdeal := by
  intro m ρ m' ρ' _ hagree
  refine ⟨fun c => (Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))), ?_, ?_⟩
  · exact (θ_run Cert.KernelIdeal.defs _ _).mono
      (fun r h c => ⟨(h.1 c).trans (Cert.KernelIdeal.Boundary.result_eq m ρ c), h.2 c⟩)
      (θ_run_both _ _ _ _ _ (Cert.KernelIdeal.ResultRun.run_result m ρ) (Cert.KernelIdeal.Gen.frame m ρ))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v148_eq]
    obtain ⟨h0, h1, h2, h3, h4, h5, h6, h7, h8, h9, h10, h11, h12, h13, h14, h15, h16, h17, h18, h19, h20, h21, h22, h23, h24, h25⟩ := hagree c
    rw [h0, h1, h2, h3, h4, h5, h6, h7, h8, h9, h10, h11, h12, h13, h14, h15, h16, h17, h18, h19, h20, h21, h22, h23, h24, h25]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
